-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x50 : Shape := ⟨2, ![16384, 50]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384x50 : S_.BroadcastsInDim S16384x50 (![] : Fin 0 → Fin S16384x50.rank)
  reducesTo_S16384x50_S_d0_1 : S16384x50.ReducesTo [0, 1] S_

variable [Facts]

def fn {F : FTy → Type} [FloatOps F] (main_arg0 : IVec S16384x50 32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_c_0 : IVec S_ 32 := constantI S_ 32 0#32
  let main_v4 : IVec S16384x50 32 := broadcastInDim S16384x50 ![] bcast_S_S16384x50 main_c_0
  let main_v5 : IVec S16384x50 1 := cmpi .sge main_arg0 main_v4
  let main_c_1 : IVec S_ 32 := constantI S_ 32 999999#32
  let main_v6 : IVec S16384x50 32 := broadcastInDim S16384x50 ![] bcast_S_S16384x50 main_c_1
  let main_v7 : IVec S16384x50 1 := cmpi .sle main_arg0 main_v6
  let main_v8 : IVec S16384x50 1 := andi main_v5 main_v7
  let main_c_2 : IVec S_ 1 := constantI S_ 1 1#1
  let main_v9 : IVec S_ 1 := (fun x v => Host.reduce IntOp.andi x v reducesTo_S16384x50_S_d0_1 h_S_) main_v8 main_c_2
  let main_v10 : IVec S_ 1 := andi main_v3 main_v9
  main_v10
-- ==== Kernel.lean ====
abbrev S16384x50 : Shape := ⟨2, ![16384, 50]⟩
abbrev S1000000x64 : Shape := ⟨2, ![1000000, 64]⟩
abbrev S819200 : Shape := ⟨1, ![819200]⟩
abbrev S64x1000000 : Shape := ⟨2, ![64, 1000000]⟩
abbrev S1000448x128 : Shape := ⟨2, ![1000448, 128]⟩
abbrev S64x512 : Shape := ⟨2, ![64, 512]⟩
abbrev S512x128 : Shape := ⟨2, ![512, 128]⟩
abbrev S512x64 : Shape := ⟨2, ![512, 64]⟩
abbrev S819200x128 : Shape := ⟨2, ![819200, 128]⟩
abbrev S512 : Shape := ⟨1, ![512]⟩
abbrev S_ : Shape := ⟨0, ![]⟩
abbrev S819200x64 : Shape := ⟨2, ![819200, 64]⟩
abbrev S16384x50x64 : Shape := ⟨3, ![16384, 50, 64]⟩

abbrev nBuf : Table → Nat
  | .hbm => 8
  | .local .tc .vmem => 4
  | .local .scVector .vmem => 2
  | _ => 0

abbrev bufTy : (tb : Table) → Fin (nBuf tb) → BufTy
  | .hbm, ⟨0, _⟩ => ⟨S16384x50, .i32⟩
  | .hbm, ⟨1, _⟩ => ⟨S1000000x64, .f32⟩
  | .hbm, ⟨2, _⟩ => ⟨S819200, .i32⟩
  | .hbm, ⟨3, _⟩ => ⟨S64x1000000, .f32⟩
  | .hbm, ⟨4, _⟩ => ⟨S1000448x128, .f32⟩
  | .hbm, ⟨5, _⟩ => ⟨S819200x128, .f32⟩
  | .hbm, ⟨6, _⟩ => ⟨S819200x64, .f32⟩
  | .hbm, ⟨7, _⟩ => ⟨S16384x50x64, .f32⟩
  | .local .tc .vmem, ⟨0, _⟩ => ⟨S64x512, .f32⟩
  | .local .tc .vmem, ⟨1, _⟩ => ⟨S64x512, .f32⟩
  | .local .tc .vmem, ⟨2, _⟩ => ⟨S512x128, .f32⟩
  | .local .tc .vmem, ⟨3, _⟩ => ⟨S512x128, .f32⟩
  | .local .scVector .vmem, ⟨0, _⟩ => ⟨S512, .i32⟩
  | .local .scVector .vmem, ⟨1, _⟩ => ⟨S512x128, .f32⟩
  | _, _ => ⟨S16384x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => true
  | ⟨1, _⟩ => true
  | ⟨2, _⟩ => true
  | ⟨3, _⟩ => true
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v2_scv : Ref sig .scVector := ⟨.hbm, 4, rfl⟩
abbrev main_v0_scv : Ref sig .scVector := ⟨.hbm, 2, rfl⟩
abbrev main_v3_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1954], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

@[reducible] def k1_t1_loop : Scf.Loop 32 :=
  let c0_i32_0 : BitVec 32 := 0#32
  let c50_i32 : BitVec 32 := 50#32
  let v3 : BitVec 32 := Scalar.addi c0_i32_0 c50_i32
  let c1_i32 : BitVec 32 := 1#32
  ⟨c0_i32_0, v3, c1_i32⟩
def k1_mult1 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_0 : BitVec 32 := 0#32
  let c1_i32 : BitVec 32 := 1#32
  let arg8 : BitVec 32 := Scf.iv c0_i32_0 c1_i32 k1_t1
  let c512_i32 : BitVec 32 := 512#32
  let v4 : BitVec 32 := Scalar.muli arg8 c512_i32
  let v5 : BitVec 32 := Scalar.addi v2 v4
  v5
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_0 : BitVec 32 := 0#32
  let c1_i32 : BitVec 32 := 1#32
  let arg8 : BitVec 32 := Scf.iv c0_i32_0 c1_i32 k1_t1
  let c512_i32 : BitVec 32 := 512#32
  let v4 : BitVec 32 := Scalar.muli arg8 c512_i32
  let v5 : BitVec 32 := Scalar.addi v2 v4
  let v6 : BitVec 32 := v5
  ![v6.toNat]
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_0 : BitVec 32 := 0#32
  let c1_i32 : BitVec 32 := 1#32
  let arg8 : BitVec 32 := Scf.iv c0_i32_0 c1_i32 k1_t1
  let c512_i32 : BitVec 32 := 512#32
  let v4 : BitVec 32 := Scalar.muli arg8 c512_i32
  let v5 : BitVec 32 := Scalar.addi v2 v4
  let v6 : BitVec 32 := v5
  let c0_i32_6_r1 : BitVec 32 := 0#32
  ![v6.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x50_S819200 : S16384x50.ShapeCasts S819200
  transposes_S1000000x64_S64x1000000_1_0 : S1000000x64.Transposes [1, 0] S64x1000000
  inb_S64x512_S64x512_0_0 : ∀ a, (![0, 0] : Fin 2 → Nat) a + S64x512.size a ≤ S64x512.size a
  h_S64x512 : 0 < S64x512.numel
  shapeCasts_S64x512_S64x512 : S64x512.ShapeCasts S64x512
  transposes_S64x512_p1_0_S512x64 : S64x512.Transposes [1, 0] S512x64
  inb_S512x128_S512x64_0_0 : ∀ a, (![0, 0] : Fin 2 → Nat) a + S512x64.size a ≤ S512x128.size a
  h_S512x64 : 0 < S512x64.numel
  inb_S512x128_S512x64_0_64 : ∀ a, (![0, 64] : Fin 2 → Nat) a + S512x64.size a ≤ S512x128.size a
  inb_S1000448x128_S1000448x128_0_0 : ∀ a, (![0, 0] : Fin 2 → Nat) a + S1000448x128.size a ≤ S1000448x128.size a
  gathers_S1000448x128_S512x128 : S1000448x128.Gathers 0 S512x128
  slices_S819200x128_S819200x64_0_0 : S819200x128.Slices ![0, 0] S819200x64
  shapeCasts_S819200x64_S16384x50x64 : S819200x64.ShapeCasts S16384x50x64
  hcc1_scratch2 : 4 + S_.numel ≤ 7
  hcc1_scoped0 : 5 + S_.numel ≤ 7
  hcc1_scoped1 : 6 + S_.numel ≤ 7
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x512.size a < S64x1000000.size a
  hwx0_0 : ∀ i : grid0.Coords, EltTy.bits .f32 = 32 ∨ (Rect.unit (s := S64x1000000) (fun a => cc0_transform_0 i a * S64x512.size a) (fun a => (Pipeline.Clip.of (cc0_transform_0 i a) (S64x512.size a) (S64x1000000.size a)).extent (S64x512.size a)) fun a => Pipeline.Clip.inb (Pipeline.Clip.ok_of (hstart0_0 i a))).WholeWords (EltTy.packing .f32)
  hwxs0_0 : ∀ i : grid0.Coords, EltTy.bits .f32 = 32 ∨ (Rect.unit (s := S64x512) (fun _ => 0) (fun a => (Pipeline.Clip.of (cc0_transform_0 i a) (S64x512.size a) (S64x1000000.size a)).extent (S64x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S1000448x128.size a
  hwx0_1 : ∀ i : grid0.Coords, EltTy.bits .f32 = 32 ∨ (Rect.block (s := S1000448x128) S512x128.size (cc0_transform_1 i) (hinb0_1 i)).WholeWords (EltTy.packing .f32)
  hcore1 : grid1.bound 0 ≤ τ.nSC
  hsub1 : grid1.bound 1 ≤ τ.nSub
  k1_t1_ok : k1_t1_loop.OK
  k1_mult1_dvd : ∀ (i : grid1.Coords) (k1_t1 : Fin k1_t1_loop.trips), 8 ∣ (k1_mult1 i k1_t1).toNat
  k1_off1_inb : ∀ (i : grid1.Coords) (k1_t1 : Fin k1_t1_loop.trips), ∀ a, (k1_off1 i k1_t1) a + S512.size a ≤ S819200.size a
  k1_off2_inb : ∀ (i : grid1.Coords) (k1_t1 : Fin k1_t1_loop.trips), ∀ a, (k1_off2 i k1_t1) a + S512x128.size a ≤ S819200x128.size a

variable [Facts₀]

abbrev cc1_scratch2 : DmaSems sig S_ := SemArray.consecutive 4 S_ hcc1_scratch2
abbrev cc1_scoped0 : DmaSems sig S_ := SemArray.consecutive 5 S_ hcc1_scoped0
abbrev cc1_scoped1 : DmaSems sig S_ := SemArray.consecutive 6 S_ hcc1_scoped1

abbrev win0_0 : Pipeline.Window sig grid0 :=
  Pipeline.Window.ofSpecClip (Memref.whole main_v1) S64x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v2) S512x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x50 : Shape := ⟨2, ![16384, 50]⟩
abbrev S1000000x64 : Shape := ⟨2, ![1000000, 64]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x64 : Shape := ⟨3, ![16384, 50, 64]⟩

abbrev nBuf : Space → Nat
  | .hbm => 45
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S1000000x64, .f32⟩
  | .hbm, ⟨2, _⟩ => ⟨S_, .i32⟩
  | .hbm, ⟨3, _⟩ => ⟨S16384x50, .i32⟩
  | .hbm, ⟨4, _⟩ => ⟨S16384x50, .i1⟩
  | .hbm, ⟨5, _⟩ => ⟨S_, .i32⟩
  | .hbm, ⟨6, _⟩ => ⟨S16384x50, .i32⟩
  | .hbm, ⟨7, _⟩ => ⟨S16384x50, .i1⟩
  | .hbm, ⟨8, _⟩ => ⟨S16384x50, .i1⟩
  | .hbm, ⟨9, _⟩ => ⟨S_, .i32⟩
  | .hbm, ⟨10, _⟩ => ⟨S16384x50, .i32⟩
  | .hbm, ⟨11, _⟩ => ⟨S16384x50, .i32⟩
  | .hbm, ⟨12, _⟩ => ⟨S_, .i32⟩
  | .hbm, ⟨13, _⟩ => ⟨S_, .i32⟩
  | .hbm, ⟨14, _⟩ => ⟨S16384x50, .i32⟩
  | .hbm, ⟨15, _⟩ => ⟨S16384x50, .i32⟩
  | .hbm, ⟨16, _⟩ => ⟨S_, .i32⟩
  | .hbm, ⟨17, _⟩ => ⟨S16384x50, .i32⟩
  | .hbm, ⟨18, _⟩ => ⟨S16384x50, .i1⟩
  | .hbm, ⟨19, _⟩ => ⟨S_, .i32⟩
  | .hbm, ⟨20, _⟩ => ⟨S16384x50, .i32⟩
  | .hbm, ⟨21, _⟩ => ⟨S16384x50, .i32⟩
  | .hbm, ⟨22, _⟩ => ⟨S16384x50, .i32⟩
  | .hbm, ⟨23, _⟩ => ⟨S16384x50x1, .i32⟩
  | .hbm, ⟨24, _⟩ => ⟨S1, .i32⟩
  | .hbm, ⟨25, _⟩ => ⟨S_, .i32⟩
  | .hbm, ⟨26, _⟩ => ⟨S16384x50x1, .i32⟩
  | .hbm, ⟨27, _⟩ => ⟨S16384x50x1, .i1⟩
  | .hbm, ⟨28, _⟩ => ⟨S1x1x1, .i32⟩
  | .hbm, ⟨29, _⟩ => ⟨S16384x50x1, .i32⟩
  | .hbm, ⟨30, _⟩ => ⟨S16384x50x1, .i1⟩
  | .hbm, ⟨31, _⟩ => ⟨S16384x50x1, .i1⟩
  | .hbm, ⟨32, _⟩ => ⟨S_, .i1⟩
  | .hbm, ⟨33, _⟩ => ⟨S16384x50, .i1⟩
  | .hbm, ⟨34, _⟩ => ⟨S16384x50x64, .f32⟩
  | .hbm, ⟨35, _⟩ => ⟨S16384x50x64, .i1⟩
  | .hbm, ⟨36, _⟩ => ⟨S_, .f32⟩
  | .hbm, ⟨37, _⟩ => ⟨S16384x50x64, .f32⟩
  | .hbm, ⟨38, _⟩ => ⟨S16384x50x64, .f32⟩
  | .hbm, ⟨39, _⟩ => ⟨S16384x50x1, .i1⟩
  | .hbm, ⟨40, _⟩ => ⟨S_, .f32⟩
  | .hbm, ⟨41, _⟩ => ⟨S_, .f32⟩
  | .hbm, ⟨42, _⟩ => ⟨S16384x50x64, .i1⟩
  | .hbm, ⟨43, _⟩ => ⟨S16384x50x64, .f32⟩
  | .hbm, ⟨44, _⟩ => ⟨S16384x50x64, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_call1_cst : Ref sig .tc := ⟨.hbm, 36, rfl⟩
abbrev main_call1_v15 : Ref sig .tc := ⟨.hbm, 37, rfl⟩
abbrev main_v8 : Ref sig .tc := ⟨.hbm, 38, rfl⟩
abbrev main_v9 : Ref sig .tc := ⟨.hbm, 39, rfl⟩
abbrev main_cst : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v10 : Ref sig .tc := ⟨.hbm, 44, rfl⟩

abbrev nD : Nat := 1
abbrev τ : Topo := Topo.v7x

variable {F : FTy → Type} [FloatOps F]

class Facts₀ : Prop where
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S_S16384x50x1 : S_.BroadcastsInDim S16384x50x1 (![] : Fin 0 → Fin S16384x50x1.rank)
  bcast_S1_S1x1x1_2 : S1.BroadcastsInDim S1x1x1 (![2] : Fin 1 → Fin S1x1x1.rank)
  bcast_S1x1x1_S16384x50x1_0_1_2 : S1x1x1.BroadcastsInDim S16384x50x1 (![0, 1, 2] : Fin 3 → Fin S16384x50x1.rank)
  reducesTo_S16384x50x1_S16384x50_d2 : S16384x50x1.ReducesTo [2] S16384x50
  h_S_ : 0 < S_.numel
  bcast_S16384x50_S16384x50x64_0_1 : S16384x50.BroadcastsInDim S16384x50x64 (![0, 1] : Fin 2 → Fin S16384x50x64.rank)
  bcast_S_S16384x50x64 : S_.BroadcastsInDim S16384x50x64 (![] : Fin 0 → Fin S16384x50x64.rank)
  bcast_S16384x50x1_S16384x50x64_0_1_2 : S16384x50x1.BroadcastsInDim S16384x50x64 (![0, 1, 2] : Fin 3 → Fin S16384x50x64.rank)
  gather_S1000000x64_S16384x50x1_S16384x50x64_2_0_n_n_0_2_164_wf : GatherDims.WF S1000000x64 S16384x50x1 S16384x50x64 [2] [0] [] [0] [] 2 ![1, 64]

variable [Facts₀]

def gather_S1000000x64_S16384x50x1_S16384x50x64_2_0_n_n_0_2_164 : GatherDims S1000000x64 S16384x50x1 S16384x50x64 where
  offsetDims := [2]
  collapsedSliceDims := [0]
  operandBatchingDims := []
  startIndicesBatchingDims := []
  startIndexMap := [0]
  indexVectorDim := 2
  sliceSizes := ![1, 64]
  wf := gather_S1000000x64_S16384x50x1_S16384x50x64_2_0_n_n_0_2_164_wf

class Facts : Prop extends Facts₀ where

variable [Facts]
-- ==== Proof.KI.Setup.lean ====
/-
  The program as the launch of its SparseCore call sees it, and the ghost state of its proof: the rounds of the
  launch's handshakes, the rounds of the TensorCore pipeline's staging cells, and the counters of the tiles' own
  copies (which need no schedule: each is issued and waited for by one thread on a semaphore of its own).
-/
import proofs.«206694_g42322607734994_cont_8to1_b_990_36_alg».proof.KernelIdeal
import proofs.«206694_g42322607734994_cont_8to1_b_990_36_alg».proof.Proof.Gen.KernelIdeal
import proofs.«206694_g42322607734994_cont_8to1_b_990_36_alg».proof.Proof.Gen.KernelIdeal.Skeleton
import proofs.«206694_g42322607734994_cont_8to1_b_990_36_alg».proof.Proof.Gen.KernelIdeal.Launch
import proofs.«206694_g42322607734994_cont_8to1_b_990_36_alg».proof.Proof.Gen.KernelIdeal.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline's staging cells' rounds: the left factor of the right factor. (The counters are found by instance.) -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

/-- The launch element splits into its three parts. -/
theorem ownU_triple (a : UH) (b : UP) (c : Counters) :
    (ownU ((a, (b, c)) : UU) : sProp 𝕄) ⊢ iprop(BI.own (EH a) ∗ BI.own (EP b)) := by
  iintro H
  ihave H' := (ownU_pair a (b, c)) $$ H
  icases H' with ⟨Ha, Hbc⟩
  ihave H'' := (own_pair_emb (embR : Emb (UP × Counters) 𝕄) b c) $$ Hbc
  icases H'' with ⟨Hb, -⟩
  isplitl [Ha]; · iexact Ha
  iexact Hb

end Cert.KernelIdeal.Run

end
-- ==== Proof.Spec.lean ====
/-
  The function both programs compute: an embedding lookup. For a table `w` of 1000000 rows of 64 numbers and an array
  `ids` of 16384 × 50 row numbers, entry (b, s, d) of the result is `w[ids[b, s], d]`. A word that names no row
  (its value as a natural number is 1000000 or more) is given row 0, so that the function is total; under the
  claim's precondition every word names a row and that case never arises.
-/
import Idealize.ShloMosaic.Lib.ValueIdx
import Idealize.ShloMosaic.PureOps.Ideal

noncomputable section

namespace Cert.Lookup

open Idealize.ShloMosaic Idealize.ShloMosaic.ValueIdx

/-- The row a 32-bit word names: its value, when below the table's height, else row 0. -/
def rowOf (x : BitVec 32) : Fin 1000000 :=
  if h : x.toNat < 1000000 then ⟨x.toNat, h⟩ else ⟨0, by decide⟩

theorem rowOf_val {x : BitVec 32} (h : x.toNat < 1000000) : (rowOf x).val = x.toNat := by
  unfold rowOf; rw [dif_pos h]

/-- The looked-up rows: entry (b, s, d) is entry d of the table's row `ids[b, s]`. -/
def rows {F : FTy → Type} (ids : (⟨2, ![16384, 50]⟩ : Shape).Idx → BitVec 32)
    (w : (⟨2, ![1000000, 64]⟩ : Shape).Idx → F .f32) : (⟨3, ![16384, 50, 64]⟩ : Shape).Idx → F .f32 :=
  fun j => w (ix2 (rowOf (ids (ix2 (j 0) (j 1)))) (j 2))

end Cert.Lookup

end
-- ==== Proof.KI.Pay.lean ====
/-
  What the SparseCore call's handshakes carry. The call gathers, for each of the 819200 row numbers of the flat list
  `ids`, that row of the table into the matching row of the output. The thirty-two tiles (two SparseCores of sixteen)
  divide the list: tile (c, s) is worker 2 s + c and owns rows 25600 w .. 25600 (w + 1) of the list and of the output.
  Every tile reads the whole table, so each is handed a read share of it. A tile gives back its rows of the list
  unchanged and its rows of the output holding the looked-up table rows (`outG`).
-/
import proofs.«206694_g42322607734994_cont_8to1_b_990_36_alg».proof.Proof.KI.Setup
import proofs.«206694_g42322607734994_cont_8to1_b_990_36_alg».proof.Proof.Spec

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The arrays -/

abbrev a0Loc (d : Dev nD) : Loc nD τ sig := (SparseCore.T d).loc main_arg0
abbrev a1Loc (d : Dev nD) : Loc nD τ sig := (SparseCore.T d).loc main_arg1
abbrev iLoc (d : Dev nD) : Loc nD τ sig := (SparseCore.T d).loc main_v0
abbrev wtLoc (d : Dev nD) : Loc nD τ sig := (SparseCore.T d).loc main_v1
abbrev tLoc (d : Dev nD) : Loc nD τ sig := (SparseCore.T d).loc main_v2
abbrev oLoc (d : Dev nD) : Loc nD τ sig := (SparseCore.T d).loc main_v3

-- The flat list of row numbers the call reads (a parameter: @main computes it before the call).
variable (ids : (d : Dev nD) → Buf (Elt F) (iLoc d))

/-- The table as the call finds it agrees with the argument table on the argument's rows: lanes 0..63 and again
    lanes 64..127 of row r are row r of the argument. (Rows past the argument's height hold nothing the proof names.) -/
def IsTable (d : Dev nD) (std : Buf (Elt F) (tLoc d)) : Prop :=
  ∀ (r : Fin 1000448) (l : Fin 128) (hr : r.val < 1000000),
    std (ix2 r l) = m (a1Loc d) (ix2 (⟨r.val, hr⟩ : Fin 1000000) (⟨l.val % 64, Nat.mod_lt _ (by decide)⟩ : Fin 64))

/-- What the call leaves in the output: row i holds (twice over, as the table does) the argument table's row `ids[i]`. -/
def outG (d : Dev nD) : Buf (Elt F) (oLoc d) :=
  fun j => m (a1Loc d) (ix2 (Cert.Lookup.rowOf (ids d (ix1 (j 0)))) (⟨(j 1).val % 64, Nat.mod_lt _ (by decide)⟩ : Fin 64))

/-! ## The workers' rows -/

theorem idiv : 32 ∣ S819200.size 0 := ⟨25600, rfl⟩
theorem odiv : 32 ∣ S819200x128.size 0 := ⟨25600, rfl⟩
abbrev iPart (w : Fin 32) : Rect S819200 := Rect.part (s := S819200) (a₀ := 0) idiv w
abbrev oPart (w : Fin 32) : Rect S819200x128 := Rect.part (s := S819200x128) (a₀ := 0) odiv w
abbrev iSet (w : Fin 32) : Finset S819200.Idx := (iPart w).set
abbrev oSet (w : Fin 32) : Finset S819200x128.Idx := (oPart w).set

omit m ids in
theorem mem_iSet {w : Fin 32} {j : S819200.Idx} : j ∈ iSet w ↔ 25600 * w.val ≤ (j 0).val ∧ (j 0).val < 25600 * w.val + 25600 := by
  unfold iSet iPart Rect.part Rect.block
  rw [Rect.mem_set_unit]
  constructor
  · intro h; have := h 0; simp [Shape.partIx, Shape.partSize] at this; omega
  · intro h a
    match a with
    | ⟨0, _⟩ => simp [Shape.partIx, Shape.partSize]; omega
omit m ids in
theorem mem_oSet {w : Fin 32} {j : S819200x128.Idx} : j ∈ oSet w ↔ 25600 * w.val ≤ (j 0).val ∧ (j 0).val < 25600 * w.val + 25600 := by
  unfold oSet oPart Rect.part Rect.block
  rw [Rect.mem_set_unit]
  constructor
  · intro h; have := h 0; simp [Shape.partIx, Shape.partSize] at this; omega
  · intro h a
    match a with
    | ⟨0, _⟩ => simp [Shape.partIx, Shape.partSize]; omega
    | ⟨1, _⟩ => simp [Shape.partIx, Shape.partSize]; exact (j 1).isLt

/-- Tile (c, s) is worker 2 s + c. -/
def wid (c : Fin 2) (s : Fin 16) : Fin 32 := ⟨2 * s.val + c.val, by omega⟩

/-- Worker w's read share of the table. -/
abbrev tq (w : Fin 32) : PosShare TreeShare := Transfers.shareTok fullShare 32 w

/-! ## What the handshakes carry -/

/-- A tile's task: its rows of the list, its rows of the output at anything, its share of the table. -/
def goR (d : Dev nD) (w : Fin 32) : sProp 𝕄 :=
  iprop((iLoc d ↦[iSet w]{fullShare} ids d) ∗ (∃ f, oLoc d ↦[oSet w]{fullShare} f)
    ∗ ∃ std, ⌜IsTable m d std⌝ ∗ tLoc d ↦{tq w} std)
/-- What it gives back: its rows of the list, its rows of the output looked up. -/
def tdR (d : Dev nD) (w : Fin 32) : sProp 𝕄 :=
  iprop((iLoc d ↦[iSet w]{fullShare} ids d) ∗ oLoc d ↦[oSet w]{fullShare} outG m ids d)

instance goR_storable (d : Dev nD) (w : Fin 32) : BI.Storable (upEmb : UEmb _ 𝕄) (goR m ids d w) := by unfold goR; infer_instance
instance tdR_storable (d : Dev nD) (w : Fin 32) : BI.Storable (upEmb : UEmb _ 𝕄) (tdR m ids d w) := by unfold tdR; infer_instance

/-- The one call hands each SparseCore its sixteen tiles' tasks, and takes their results back. -/
def P : (K (F := F)).Pay (nD := nD) (Val := Elt F) (Name := ℕ) (U := UU) where
  st := fun q d c => match q with | 0 => bigSep Finset.univ fun s : Fin 16 => goR m ids d (wid (Fin.cast nCore_zero c) s)
  dn := fun q d c => match q with | 0 => bigSep Finset.univ fun s : Fin 16 => tdR m ids d (wid (Fin.cast nCore_zero c) s)
  go := fun q d c i => match q with | 0 => goR m ids d (wid (Fin.cast nCore_zero c) (Fin.cast nSub_zero i))
  td := fun q d c i => match q with | 0 => tdR m ids d (wid (Fin.cast nCore_zero c) (Fin.cast nSub_zero i))
  x := fun _ _ => iprop(emp)

instance P_storable : (P (F := F) m ids).IsStorable where
  st q d c := match q with
    | 0 => (inferInstance : BI.Storable (upEmb : UEmb _ 𝕄) (bigSep Finset.univ fun s : Fin 16 => goR m ids d (wid (Fin.cast nCore_zero c) s)))
  dn q d c := match q with
    | 0 => (inferInstance : BI.Storable (upEmb : UEmb _ 𝕄) (bigSep Finset.univ fun s : Fin 16 => tdR m ids d (wid (Fin.cast nCore_zero c) s)))
  go q d c i := match q with
    | 0 => (inferInstance : BI.Storable (upEmb : UEmb _ 𝕄) (goR m ids d (wid (Fin.cast nCore_zero c) (Fin.cast nSub_zero i))))
  td q d c i := match q with
    | 0 => (inferInstance : BI.Storable (upEmb : UEmb _ 𝕄) (tdR m ids d (wid (Fin.cast nCore_zero c) (Fin.cast nSub_zero i))))

end Cert.KernelIdeal.Run

end
-- ==== Proof.KI.Chunks.lean ====
/-
  The geometry of a tile's task: which worker a tile is, and the fifty chunks of 512 rows its 25600 rows fall into —
  chunk k of worker w is rows 25600 w + 512 k .. 25600 w + 512 k + 511 of the list and of the output, inside the
  worker's own rows.
-/
import proofs.«206694_g42322607734994_cont_8to1_b_990_36_alg».proof.Proof.KI.Pay

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S819200 EltTy.i32)
local notation "tV" => (Memref.whole Cert.KernelIdeal.main_v2_scv : Memref Cert.KernelIdeal.sig Kind.scVector Space.hbm Cert.KernelIdeal.S1000448x128 EltTy.f32)
local notation "oV" => (Memref.whole Cert.KernelIdeal.main_v3_scv : Memref Cert.KernelIdeal.sig Kind.scVector Space.hbm Cert.KernelIdeal.S819200x128 EltTy.f32)
local notation "sV" => (Memref.whole Cert.KernelIdeal.cc1_scratch0 : Memref Cert.KernelIdeal.sig Kind.scVector Space.vmem Cert.KernelIdeal.S512 EltTy.i32)
local notation "rV" => (Memref.whole Cert.KernelIdeal.cc1_scratch1 : Memref Cert.KernelIdeal.sig Kind.scVector Space.vmem Cert.KernelIdeal.S512x128 EltTy.f32)

variable (m : (ℓ : Loc nD τ sig) → Buf (Elt F) ℓ) (ids : (d : Dev nD) → Buf (Elt F) (iLoc d))

section Tile

variable (d : Dev nD) (L : grid1.Coords)

abbrev cV (L : grid1.Coords) : Fin τ.nSC := (L 0).castLE hcore1
abbrev jV (L : grid1.Coords) : Fin τ.nSub := (L 1).castLE hsub1
omit m ids in
theorem bound_zero : grid1.bound 0 = 2 := rfl
omit m ids in
theorem bound_one : grid1.bound 1 = 16 := rfl
/-- The worker a tile's coordinates name. -/
abbrev wL (L : grid1.Coords) : Fin 32 := wid (Fin.cast bound_zero (L 0)) (Fin.cast bound_one (L 1))
omit m ids in
theorem wL_val : (wL L).val = 2 * (L 1).val + (L 0).val := rfl

/-- Chunk k of the list and of the output, and the whole table, as the task addresses them. -/
abbrev iChunk (L : grid1.Coords) (k : Fin k1_t1_loop.trips) : Memref sig .scVector .hbm S512 .i32 :=
  (iV).slice (Rect.unit (s := S819200) (k1_off1 L k) S512.size (k1_off1_inb L k)) (fun _ => rfl)
abbrev oChunk (L : grid1.Coords) (k : Fin k1_t1_loop.trips) : Memref sig .scVector .hbm S512x128 .f32 :=
  (oV).slice (Rect.unit (s := S819200x128) (k1_off2 L k) S512x128.size (k1_off2_inb L k)) (fun _ => rfl)
abbrev tAll : Memref sig .scVector .hbm S1000448x128 .f32 :=
  (tV).slice (Rect.unit (s := S1000448x128) ![0, 0] S1000448x128.size inb_S1000448x128_S1000448x128_0_0) (fun _ => rfl)

omit m ids in
theorem trips_le (k : Fin k1_t1_loop.trips) : k.val < 50 := lt_of_lt_of_le k.isLt k1_t1_abs.2.1

omit m ids in
/-- Where a chunk's own index sits in the list: row 25600 w + 512 k + y. -/
theorem iChunk_emb (k : Fin k1_t1_loop.trips) (y : S512.Idx) :
    ((iChunk L k).view.emb y 0).val = 25600 * (wL L).val + 512 * k.val + (y 0).val := by
  show (((View.whole (main_v0_scv : Ref sig .scVector)).slice (Rect.unit (s := S819200) (k1_off1 L k) S512.size (k1_off1_inb L k))).emb y 0).val = _
  rw [View.emb_slice]
  show ((Rect.unit (s := S819200) (k1_off1 L k) S512.size (k1_off1_inb L k)).emb y 0).val = _
  rw [Rect.emb_apply, Rect.off_unit, Rect.stride_unit, wL_val]
  have h := congrFun (k1_off1_eq L k) 0
  simp only [Matrix.cons_val_zero] at h
  rw [h]; omega
omit m ids in
theorem oChunk_emb0 (k : Fin k1_t1_loop.trips) (y : S512x128.Idx) :
    ((oChunk L k).view.emb y 0).val = 25600 * (wL L).val + 512 * k.val + (y 0).val := by
  show (((View.whole (main_v3_scv : Ref sig .scVector)).slice (Rect.unit (s := S819200x128) (k1_off2 L k) S512x128.size (k1_off2_inb L k))).emb y 0).val = _
  rw [View.emb_slice]
  show ((Rect.unit (s := S819200x128) (k1_off2 L k) S512x128.size (k1_off2_inb L k)).emb y 0).val = _
  rw [Rect.emb_apply, Rect.off_unit, Rect.stride_unit, wL_val]
  have h := congrFun (k1_off2_eq L k) 0
  simp only [Matrix.cons_val_zero] at h
  rw [h]; omega
omit m ids in
theorem oChunk_emb1 (k : Fin k1_t1_loop.trips) (y : S512x128.Idx) :
    ((oChunk L k).view.emb y 1).val = (y 1).val := by
  show (((View.whole (main_v3_scv : Ref sig .scVector)).slice (Rect.unit (s := S819200x128) (k1_off2 L k) S512x128.size (k1_off2_inb L k))).emb y 1).val = _
  rw [View.emb_slice]
  show ((Rect.unit (s := S819200x128) (k1_off2 L k) S512x128.size (k1_off2_inb L k)).emb y 1).val = _
  rw [Rect.emb_apply, Rect.off_unit, Rect.stride_unit]
  have h := congrFun (k1_off2_eq L k) 1
  simp only [Matrix.cons_val_one, Matrix.cons_val_zero] at h
  rw [h]; omega

omit m ids in
theorem mem_iChunk {k : Fin k1_t1_loop.trips} {j : S819200.Idx} :
    j ∈ (iChunk L k).view.set ↔ 25600 * (wL L).val + 512 * k.val ≤ (j 0).val ∧ (j 0).val < 25600 * (wL L).val + 512 * k.val + 512 := by
  show j ∈ ((View.whole (main_v0_scv : Ref sig .scVector)).slice (Rect.unit (s := S819200) (k1_off1 L k) S512.size (k1_off1_inb L k))).set ↔ _
  rw [View.set_slice_whole, Rect.mem_set_unit, k1_off1_eq, wL_val]
  constructor
  · intro h; have := h 0; simp only [Matrix.cons_val_zero] at this; change _ ∧ _ < _ + 512 at this; omega
  · intro h a
    match a with
    | ⟨0, _⟩ => simp only [Fin.zero_eta, Matrix.cons_val_zero]; change _ ∧ _ < _ + 512; omega
omit m ids in
theorem mem_oChunk {k : Fin k1_t1_loop.trips} {j : S819200x128.Idx} :
    j ∈ (oChunk L k).view.set ↔ 25600 * (wL L).val + 512 * k.val ≤ (j 0).val ∧ (j 0).val < 25600 * (wL L).val + 512 * k.val + 512 := by
  show j ∈ ((View.whole (main_v3_scv : Ref sig .scVector)).slice (Rect.unit (s := S819200x128) (k1_off2 L k) S512x128.size (k1_off2_inb L k))).set ↔ _
  rw [View.set_slice_whole, Rect.mem_set_unit, k1_off2_eq, wL_val]
  constructor
  · intro h; have := h 0; simp only [Matrix.cons_val_zero] at this; change _ ∧ _ < _ + 512 at this; omega
  · intro h a
    match a with
    | ⟨0, _⟩ => simp only [Fin.zero_eta, Matrix.cons_val_zero]; change _ ∧ _ < _ + 512; omega
    | ⟨1, _⟩ => simp only [Fin.mk_one, Matrix.cons_val_one, Matrix.cons_val_zero]; change _ ∧ _ < _ + 128; exact ⟨Nat.zero_le _, by have h1 : (j 1).val < 128 := (j 1).isLt; omega⟩

omit m ids in
theorem iChunk_sub (k : Fin k1_t1_loop.trips) : (iChunk L k).view.set ⊆ iSet (wL L) := by
  intro j hj; have := (mem_iChunk L).mp hj; have hk := trips_le k; exact mem_iSet.mpr (by omega)
omit m ids in
theorem oChunk_sub (k : Fin k1_t1_loop.trips) : (oChunk L k).view.set ⊆ oSet (wL L) := by
  intro j hj; have := (mem_oChunk L).mp hj; have hk := trips_le k; exact mem_oSet.mpr (by omega)

/-- The output rows of the chunks before trip k hold the looked-up rows. -/
def DoneTo (k : Nat) (f : Buf (Elt F) (oLoc d)) : Prop :=
  ∀ j ∈ oSet (wL L), (j 0).val < 25600 * (wL L).val + 512 * k → f j = outG m ids d j

end Tile

end Cert.KernelIdeal.Run

end
-- ==== Proof.KI.TileValue.lean ====
/-
  What one trip of a tile's loop leaves on its chunk of the output. The copy of the chunk of row numbers puts
  ids[25600 w + 512 k + y] in entry y of the index scratch; the gather puts row ids[…] of the table in row y of the
  row scratch; the copy out puts that on row 25600 w + 512 k + y of the output. Where the table agrees with the
  argument table (every row number names one of its rows), that row of the output is the looked-up row.
-/
import proofs.«206694_g42322607734994_cont_8to1_b_990_36_alg».proof.Proof.KI.Chunks

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S819200 EltTy.i32)
local notation "tV" => (Memref.whole Cert.KernelIdeal.main_v2_scv : Memref Cert.KernelIdeal.sig Kind.scVector Space.hbm Cert.KernelIdeal.S1000448x128 EltTy.f32)
local notation "oV" => (Memref.whole Cert.KernelIdeal.main_v3_scv : Memref Cert.KernelIdeal.sig Kind.scVector Space.hbm Cert.KernelIdeal.S819200x128 EltTy.f32)
local notation "sV" => (Memref.whole Cert.KernelIdeal.cc1_scratch0 : Memref Cert.KernelIdeal.sig Kind.scVector Space.vmem Cert.KernelIdeal.S512 EltTy.i32)
local notation "rV" => (Memref.whole Cert.KernelIdeal.cc1_scratch1 : Memref Cert.KernelIdeal.sig Kind.scVector Space.vmem Cert.KernelIdeal.S512x128 EltTy.f32)

variable (m : (ℓ : Loc nD τ sig) → Buf (Elt F) ℓ) (ids : (d : Dev nD) → Buf (Elt F) (iLoc d))

section Tile

variable (d : Dev nD) (L : grid1.Coords)

omit m ids in
/-- The whole table addressed as a slice at offset zero is the table. -/
theorem tAll_emb (z : S1000448x128.Idx) : (tAll).view.emb z = z := by
  show ((View.whole (main_v2_scv : Ref sig .scVector)).slice (Rect.unit (s := S1000448x128) ![0, 0] S1000448x128.size inb_S1000448x128_S1000448x128_0_0)).emb z = z
  rw [View.emb_slice]
  funext a
  refine Fin.ext ?_
  show ((Rect.unit (s := S1000448x128) ![0, 0] S1000448x128.size inb_S1000448x128_S1000448x128_0_0).emb z a).val = _
  rw [Rect.emb_apply, Rect.off_unit, Rect.stride_unit]
  match a with
  | ⟨0, _⟩ => simp
  | ⟨1, _⟩ => simp

omit m ids in
/-- A gathered index: row y of the target reads row r(y) of the source, lane for lane. -/
theorem gather_idx (r : Fin (S512x128.size gathers_S1000448x128_S512x128.axis') → Fin (S1000448x128.size gathers_S1000448x128_S512x128.axis))
    (y : S512x128.Idx) (a : Fin 2) :
    ((gathers_S1000448x128_S512x128).idx r y a).val = if a.val = 0 then (r (y 0)).val else (y 1).val := by
  match a with
  | ⟨0, _⟩ => exact congrArg Fin.val (Shape.Gathers.idx_axis gathers_S1000448x128_S512x128 r y)
  | ⟨1, _⟩ => exact Shape.Gathers.idx_of_ne gathers_S1000448x128_S512x128 r y ⟨1, by decide⟩ (by decide)

omit m ids in
/-- Entry y of a list of 512 words, in row-major order, is the word at index y. -/
theorem rows_val (idx : S512.Idx → Elt F .i32) (hn : S512.numel = S512x128.size gathers_S1000448x128_S512x128.axis')
    (h : ∀ x, (idx x).toNat < S1000448x128.size gathers_S1000448x128_S512x128.axis) (y0 : Fin (S512x128.size gathers_S1000448x128_S512x128.axis')) :
    (SparseCore.rows idx hn h y0).val = (idx (ix1 (⟨y0.val, y0.isLt⟩ : Fin 512))).toNat := by
  unfold SparseCore.rows
  show (idx (S512.rowMajor.symm (y0.cast hn.symm))).toNat = _
  refine congrArg (fun z => (idx z).toNat) ?_
  refine (Equiv.symm_apply_eq _).mpr (Fin.ext ?_)
  rw [Shape.rowMajor_val_one]; rfl

omit m ids in
/-- One store through the whole of a view reads back, through the view, as what was stored. -/
theorem read_whole_write {κ : Kind} {sp : Space} {s : Shape} {e : EltTy} (v : View sig κ sp s e) (f : v.ty.Contents (Elt F))
    (P : s.Idx → Elt F e) (y : s.Idx) : v.read (Elt F) (v.writes (Elt F) f [⟨Rect.whole s, P⟩]) y = P y := by
  have h := View.read_writes_cons_emb v f (Rect.whole s) P [] y
  rwa [Rect.emb_whole_apply] at h

omit m ids in
/-- The chunk of the output written whole holds, at its own index y, what was written at y. -/
theorem chunk_written (k : Fin k1_t1_loop.trips) (f : Buf (Elt F) (oLoc d)) (P : S512x128.Idx → Elt F .f32) (y : S512x128.Idx) :
    (oChunk L k).view.writes (Elt F) f [⟨Rect.whole S512x128, P⟩] ((oChunk L k).view.emb y) = P y := by
  have h := read_whole_write (oChunk L k).view f P y
  rw [View.read_apply] at h
  exact (cast_eq _ _).symm.trans h

omit m in
/-- The index scratch after the chunk's copy holds the chunk of the list. -/
theorem landed_at (k : Fin k1_t1_loop.trips) (fs : Buf (Elt F) ((V d (cV L) (jV L)).loc cc1_scratch0)) (x : S512.Idx) :
    (sV).view.read (Elt F) (View.write (Elt F) (sV).view fs ((iChunk L k).view.read (Elt F) (ids d)) Finset.univ) x
      = ids d ((iChunk L k).view.emb x) := by
  rw [View.write_whole_univ]
  simp only [Memref.view_whole, View.read_whole]
  exact (View.read_apply _ _).trans (cast_eq _ _)

omit m ids in
/-- The gather's payload at (y, l): lane l of the table's row named by entry y of the list. -/
theorem gathered_at (std : Buf (Elt F) (tLoc d)) (idx : S512.Idx → Elt F .i32)
    (hn : S512.numel = S512x128.size gathers_S1000448x128_S512x128.axis')
    (h : ∀ x, (idx x).toNat < S1000448x128.size gathers_S1000448x128_S512x128.axis) (y : S512x128.Idx) :
    SparseCore.gatherPayload gathers_S1000448x128_S512x128 ((tAll).view.read (Elt F) std) (SparseCore.rows idx hn h) y
      = std (ix2 (⟨(idx (ix1 (⟨(y 0).val, (y 0).isLt⟩ : Fin 512))).toNat, h _⟩ : Fin 1000448) (⟨(y 1).val, (y 1).isLt⟩ : Fin 128)) := by
  unfold SparseCore.gatherPayload
  rw [View.read_apply, tAll_emb]
  refine (cast_eq _ _).trans (congrArg std ?_)
  funext a
  refine Fin.ext ?_
  rw [gather_idx]
  match a with
  | ⟨0, _⟩ => exact rows_val idx hn h (y 0)
  | ⟨1, _⟩ => rfl

/-- What a trip leaves on its chunk of the output is the looked-up rows. -/
theorem chunk_value (hids : ∀ d j, (ids d j).toNat < 1000000) (std : Buf (Elt F) (tLoc d)) (hstd : IsTable m d std)
    (k : Fin k1_t1_loop.trips) (f : Buf (Elt F) (oLoc d))
    (fs : Buf (Elt F) ((V d (cV L) (jV L)).loc cc1_scratch0)) (fr : Buf (Elt F) ((V d (cV L) (jV L)).loc cc1_scratch1))
    (hn : S512.numel = S512x128.size gathers_S1000448x128_S512x128.axis')
    (hin : ∀ x, ((sV).view.read (Elt F) (View.write (Elt F) (sV).view fs ((iChunk L k).view.read (Elt F) (ids d)) Finset.univ) x).toNat
      < S1000448x128.size gathers_S1000448x128_S512x128.axis) :
    ∀ j ∈ (oChunk L k).view.set,
      (oChunk L k).view.writes (Elt F) f [⟨Rect.whole S512x128,
        (rV).view.read (Elt F) ((rV).view.writes (Elt F) fr [⟨Rect.whole S512x128,
          SparseCore.gatherPayload gathers_S1000448x128_S512x128 ((tAll).view.read (Elt F) std)
            (SparseCore.rows ((sV).view.read (Elt F) (View.write (Elt F) (sV).view fs ((iChunk L k).view.read (Elt F) (ids d)) Finset.univ)) hn hin)⟩])⟩] j
      = outG m ids d j := by
  intro j hj
  obtain ⟨y, -, rfl⟩ := Finset.mem_map.mp hj
  rw [chunk_written]
  refine (read_whole_write (F := F) (rV).view fr _ y).trans ?_
  rw [gathered_at]
  -- the row the list names: ids at the chunk's place of y, below the argument table's height
  have hrow : (sV).view.read (Elt F) (View.write (Elt F) (sV).view fs ((iChunk L k).view.read (Elt F) (ids d)) Finset.univ) (ix1 (⟨(y 0).val, (y 0).isLt⟩ : Fin 512))
      = ids d (ix1 ((oChunk L k).view.emb y 0)) := by
    rw [landed_at]
    refine congrArg (ids d) ?_
    funext a
    match a with
    | ⟨0, _⟩ => exact Fin.ext ((iChunk_emb L k (ix1 (⟨(y 0).val, (y 0).isLt⟩ : Fin 512))).trans (oChunk_emb0 L k y).symm)
  have hlt := hids d (ix1 ((oChunk L k).view.emb y 0))
  rw [hstd _ _ (lt_of_eq_of_lt (congrArg BitVec.toNat hrow) hlt)]
  unfold outG
  refine congrArg (m (a1Loc d)) ?_
  funext a
  match a with
  | ⟨0, _⟩ =>
    refine Fin.ext ?_
    show (BitVec.toNat _) = (Cert.Lookup.rowOf _).val
    rw [Cert.Lookup.rowOf_val hlt, hrow]
  | ⟨1, _⟩ =>
    refine Fin.ext ?_
    show (y 1).val % 64 = ((oChunk L k).view.emb y 1).val % 64
    rw [oChunk_emb1]

end Tile

end Cert.KernelIdeal.Run

end
-- ==== Proof.KI.Tile.lean ====
/-
  One tile's task. Worker w = 2 s + c walks its 25600 rows of the list in fifty chunks of 512: it copies the chunk
  of row numbers into its index scratch, gathers those rows of the table into its row scratch, and copies the row
  scratch out onto the chunk's rows of the output. Each copy is waited for before the next is issued, each on a
  semaphore of its own. The loop's invariant: the output rows of the chunks already walked hold the looked-up rows.
-/
import proofs.«206694_g42322607734994_cont_8to1_b_990_36_alg».proof.Proof.KI.TileValue

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S819200 EltTy.i32)
local notation "tV" => (Memref.whole Cert.KernelIdeal.main_v2_scv : Memref Cert.KernelIdeal.sig Kind.scVector Space.hbm Cert.KernelIdeal.S1000448x128 EltTy.f32)
local notation "oV" => (Memref.whole Cert.KernelIdeal.main_v3_scv : Memref Cert.KernelIdeal.sig Kind.scVector Space.hbm Cert.KernelIdeal.S819200x128 EltTy.f32)
local notation "sV" => (Memref.whole Cert.KernelIdeal.cc1_scratch0 : Memref Cert.KernelIdeal.sig Kind.scVector Space.vmem Cert.KernelIdeal.S512 EltTy.i32)
local notation "rV" => (Memref.whole Cert.KernelIdeal.cc1_scratch1 : Memref Cert.KernelIdeal.sig Kind.scVector Space.vmem Cert.KernelIdeal.S512x128 EltTy.f32)

variable (m : (ℓ : Loc nD τ sig) → Buf (Elt F) ℓ) (ids : (d : Dev nD) → Buf (Elt F) (iLoc d))

section Tile

variable (d : Dev nD) (L : grid1.Coords)

abbrev cGcell (d : Dev nD) (c : Fin τ.nSC) (i : Fin τ.nSub) : GSem nD τ sig := (V d c i, .dma cc1_scratch2.sem)
abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)

omit m ids in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc1_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc1_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc1_scoped1.sem : SemLoc sig).isScoped .scVector = true; decide⟩⟩⟩)]

omit m ids in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

omit m ids in
theorem pts_iChunk (k : Fin k1_t1_loop.trips) (f : Buf (Elt F) (iLoc d)) :
    ((iChunk L k).view.loc (V d (cV L) (jV L)) ↦[(iChunk L k).view.set]{fullShare} f : sProp 𝕄) = iLoc d ↦[(iChunk L k).view.set]{fullShare} f := rfl
omit m ids in
theorem pts_oChunk (k : Fin k1_t1_loop.trips) (f : Buf (Elt F) (oLoc d)) :
    ((oChunk L k).view.loc (V d (cV L) (jV L)) ↦[(oChunk L k).view.set]{fullShare} f : sProp 𝕄) = oLoc d ↦[(oChunk L k).view.set]{fullShare} f := rfl
omit m ids in
theorem pts_tV (q : PosShare TreeShare) (f : Buf (Elt F) (tLoc d)) :
    ((tV).view.loc (V d (cV L) (jV L)) ↦{q} f : sProp 𝕄) = tLoc d ↦{q} f := rfl
omit m ids in
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
omit m ids in
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

/-- A resource set aside: held, and not looked at until it is taken up again. -/
def aside (R : sProp 𝕄) : sProp 𝕄 := R
omit m ids in
theorem aside_eq (R : sProp 𝕄) : aside R = R := rfl

omit m in
/-- The row numbers a chunk's copy lands in the index scratch all name rows of the table. -/
theorem landed_in_range (hids : ∀ d j, (ids d j).toNat < 1000000) (k : Fin k1_t1_loop.trips)
    (fs : Buf (Elt F) ((V d (cV L) (jV L)).loc cc1_scratch0)) (pay : S512.Idx → Elt F .i32)
    (hpay : pay = (iChunk L k).view.read (Elt F) (ids d)) :
    ∀ x, ((sV).view.read (Elt F) (View.write (Elt F) (sV).view fs pay Finset.univ) x).toNat < 1000448 := by
  intro x
  rw [hpay, landed_at]
  exact lt_trans (hids d _) (by decide : 1000000 < 1000448)

/-- A trip that writes the looked-up rows on its chunk and nothing else extends what is done by that chunk. -/
theorem doneTo_step (k : Fin k1_t1_loop.trips) (f f' : Buf (Elt F) (oLoc d)) (hf : DoneTo m ids d L k.val f)
    (hon : ∀ j ∈ (oChunk L k).view.set, f' j = outG m ids d j) (hoff : ∀ j, j ∉ (oChunk L k).view.set → f' j = f j) :
    DoneTo m ids d L (k.val + 1) f' := by
  intro j hj hlt
  by_cases hc : j ∈ (oChunk L k).view.set
  · exact hon j hc
  · rw [hoff j hc]
    refine hf j hj ?_
    have h1 := (mem_oChunk L (k := k) (j := j)).not.mp hc
    have h2 := mem_oSet.mp hj
    omega

omit m ids in
/-- Off its chunk a write through the chunk changes nothing. -/
theorem chunk_off (k : Fin k1_t1_loop.trips) (f : Buf (Elt F) (oLoc d)) (P : S512x128.Idx → Elt F .f32)
    (j : S819200x128.Idx) (hj : j ∉ (oChunk L k).view.set) :
    (oChunk L k).view.writes (Elt F) f [⟨Rect.whole S512x128, P⟩] j = f j :=
  View.writes_apply_of_forall_ne (oChunk L k).view f _ fun y hy => hj (hy ▸ View.emb_mem_set _ y)

/-- After the last trip every row of the worker's is done. -/
theorem doneTo_all (f : Buf (Elt F) (oLoc d)) (hf : DoneTo m ids d L 50 f) : ∀ j ∈ oSet (wL L), f j = outG m ids d j := by
  intro j hj
  refine hf j hj ?_
  have := mem_oSet.mp hj; omega

variable [FloatOps F]

/-- The loop's invariant before trip k. -/
def inv (O : CellTallies nD τ sig (HIx 1)) (W : Waits sig (HIx 1)) (std : Buf (Elt F) (tLoc d)) (k : Nat) (_ : PUnit) : sProp 𝕄 :=
  iprop(Transfers.MayWaits (V d (cV L) (jV L)) (none : HIx 1) O
    ∗ (iLoc d ↦[iSet (wL L)]{fullShare} ids d)
    ∗ (∃ f, ⌜DoneTo m ids d L k f⌝ ∗ oLoc d ↦[oSet (wL L)]{fullShare} f)
    ∗ ((tV).view.loc (V d (cV L) (jV L)) ↦{tq (wL L)} std)
    ∗ (∃ fs, (sV).view.loc (V d (cV L) (jV L)) ↦{fullShare} fs) ∗ (∃ fr, (rV).view.loc (V d (cV L) (jV L)) ↦{fullShare} fr)
    ∗ semVal (cGcell d (cV L) (jV L)) 0 ∗ semVal (cAcell d (cV L) (jV L)) 0 ∗ semVal (cBcell d (cV L) (jV L)) 0
    ∗ ∃ W', ⌜∀ p ∈ W', p ∈ W ∨ p.2 = none⌝ ∗ owes (V d (cV L) (jV L)) O W')

omit m ids [FloatOps F] in
theorem trips_eq : k1_t1_loop.trips = 50 := by decide

set_option maxHeartbeats 4000000 in
/-- The task on tile (L 0, L 1) of device d. -/
theorem tile_body (hF : (K (F := F)).Facts) (hids : ∀ d j, (ids d j).toNat < 1000000)
    (O : CellTallies nD τ sig (HIx 1)) (W : Waits sig (HIx 1)) (hO : ∀ g, O g none = 0) :
    iprop(levAts (K (F := F)).L (K (F := F)).lev ∗ emp
        ∗ goR m ids d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather L tV (Memref.isWhole_whole _) iV (Memref.isWhole_whole _) oV (Memref.isWhole_whole _)
            sV (Memref.isWhole_whole _) rV (Memref.isWhole_whole _) cc1_scratch2 cc1_scoped0 cc1_scoped1)
          fun _ => iprop(tdR m ids d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_eq_skeleton]; unfold cc1_gather_skel
  rw [(K (F := F)).scopedBufs_V hF d (cV L) (jV L), SparseCore.Cfg.scopedSems0_V (Val := Elt F) d (cV L) (jV L), ownSems0_V, ownBufs_V]
  unfold goR tdR
  iintro ⟨#Hlv, -, ⟨Hi, ⟨%fo, Ho⟩, %std, %hstd, Ht⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_for (inv m ids d L O W std) $$ [Hmw Hi Ho Ht Hs Hr HsemG HsemA HsemB HO]
  case region =>
    intro k _
    unfold inv
    iintro ⟨Hmw, Hi, ⟨%f, %hf, Ho⟩, Ht, ⟨%fs, Hs⟩, ⟨%fr, Hr⟩, HsemG, HsemA, HsemB, %W', %hW', HO⟩
    -- the chunk's rows of the list and of the output, taken out of the worker's rows
    ihave Hi2 := (pointsTo_split_subset (q := fullShare) (f := ids d) (S := iSet (wL L)) (iChunk_sub L k)).1 $$ Hi
    icases Hi2 with ⟨Hic, Hir⟩
    ihave Ho2 := (pointsTo_split_subset (q := fullShare) (f := f) (S := oSet (wL L)) (oChunk_sub L k)).1 $$ Ho
    icases Ho2 with ⟨Hoc, Hor⟩
    ihave Hic' := (Entails.of_eq (pts_iChunk (F := F) d L k _).symm) $$ Hic
    ihave Hoc' := (Entails.of_eq (pts_oChunk (F := F) d L k _).symm) $$ Hoc
    ihave Hir' := (Entails.of_eq (aside_eq (F := F) _).symm) $$ Hir
    ihave Hor' := (Entails.of_eq (aside_eq (F := F) _).symm) $$ Hor
    -- the chunk of row numbers into the index scratch
    sl_exec
    -- every row number it landed names a row of the table: the gather, the copy out
    have hin := landed_in_range ids d L hids k fs (tile_body.sl.dma0 ids d L k) rfl
    sl_exec
    sl_step
    have hon := chunk_value m ids d L hids std hstd k f fs fr k1_t1_body._proof_6 hin
    isplitl [Hmw]; · iexact Hmw
    isplitl [Hic' Hir']
    · ihave Hic := (Entails.of_eq (pts_iChunk (F := F) d L k _)) $$ Hic'
      ihave Hir := (Entails.of_eq (aside_eq (F := F) _)) $$ Hir'
      iapply (pointsTo_split_subset (q := fullShare) (f := ids d) (S := iSet (wL L)) (iChunk_sub L k)).2
      isplitl [Hic] <;> iassumption
    isplitl [Hoc' Hor']
    · iexists ((oChunk L k).view.writes (Elt F) f [⟨Rect.whole S512x128, tile_body.sl.dma0_1 ids d L std k fs fr hin⟩])
      isplitr
      · ipureintro
        exact doneTo_step m ids d L k f _ hf hon (chunk_off d L k f _)
      ihave Hoc := (Entails.of_eq (pts_oChunk (F := F) d L k _)) $$ Hoc'
      ihave Hor := (Entails.of_eq (aside_eq (F := F) _)) $$ Hor'
      ihave Hor2 := (Entails.of_eq (pointsTo_congr (q := fullShare) (f := f)
        (g := (oChunk L k).view.writes (Elt F) f [⟨Rect.whole S512x128, tile_body.sl.dma0_1 ids d L std k fs fr hin⟩])
        (I := oSet (wL L) \ (oChunk L k).view.set)
        (fun i hi => (chunk_off d L k f _ i (Finset.mem_sdiff.mp hi).2).symm))) $$ Hor
      iapply (pointsTo_split_subset (q := fullShare) (S := oSet (wL L)) (oChunk_sub L k)).2
      isplitl [Hoc] <;> iassumption
    isplitl [Ht]; · iexact Ht
    isplitl [Hs]; · iexists _; iexact Hs
    isplitl [Hr]; · iexists _; iexact Hr
    isplitl [HsemG]; · iexact HsemG
    isplitl [HsemA]; · iexact HsemA
    isplitl [HsemB]; · iexact HsemB
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · unfold inv
    isplitl [Hmw]; · iexact Hmw
    isplitl [Hi]; · iexact Hi
    isplitl [Ho]
    · iexists fo; isplitr
      · ipureintro; intro j hj hlt; have := mem_oSet.mp hj; omega
      iexact Ho
    isplitl [Ht]; · iexact Ht
    isplitl [Hs]; · iexists _; iexact Hs
    isplitl [Hr]; · iexists _; iexact Hr
    isplitl [HsemG]; · iexact HsemG
    isplitl [HsemA]; · iexact HsemA
    isplitl [HsemB]; · iexact HsemB
    iexists W; isplitr
    · ipureintro; exact fun p hp => .inl hp
    · iexact HO
  iintro %_ HI
  unfold inv
  icases HI with ⟨-, Hi, ⟨%f, %hf, Ho⟩, Ht, ⟨%fs', Hs⟩, ⟨%fr', Hr⟩, HsemG, HsemA, HsemB, %W', %hW', HO⟩
  sl_exec
  sl_step
  isplitl [Hi Ho]
  · isplitl [Hi]; · iexact Hi
    rw [← pointsTo_congr (q := fullShare) (f := f) (g := outG m ids d) (doneTo_all m ids d L f (trips_eq ▸ hf))]
    iexact Ho
  isplitl [Hs Hr Hbufs]
  · isplitl [Hs]; · iexists _; iexact Hs
    isplitl [Hr]; · iexists _; iexact Hr
    iexact Hbufs
  isplitl [HsemG HsemA HsemB Hsems]
  · isplitl [HsemG]; · iexact HsemG
    isplitl [HsemA]; · iexact HsemA
    isplitl [HsemB]; · iexact HsemB
    iexact Hsems
  iexists W'; isplitr
  · ipureintro; exact hW'
  · iexact HO

end Tile

end Cert.KernelIdeal.Run

end
-- ==== Proof.KI.TileObl.lean ====
/-
  The tile's task as the launch theorem asks for it: the task proved for any tile's coordinates is the obligation
  of the call, for every SparseCore of its grid and every tile of each.
-/
import proofs.«206694_g42322607734994_cont_8to1_b_990_36_alg».proof.Proof.KI.Tile

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S819200 EltTy.i32)
local notation "tV" => (Memref.whole Cert.KernelIdeal.main_v2_scv : Memref Cert.KernelIdeal.sig Kind.scVector Space.hbm Cert.KernelIdeal.S1000448x128 EltTy.f32)
local notation "oV" => (Memref.whole Cert.KernelIdeal.main_v3_scv : Memref Cert.KernelIdeal.sig Kind.scVector Space.hbm Cert.KernelIdeal.S819200x128 EltTy.f32)
local notation "sV" => (Memref.whole Cert.KernelIdeal.cc1_scratch0 : Memref Cert.KernelIdeal.sig Kind.scVector Space.vmem Cert.KernelIdeal.S512 EltTy.i32)
local notation "rV" => (Memref.whole Cert.KernelIdeal.cc1_scratch1 : Memref Cert.KernelIdeal.sig Kind.scVector Space.vmem Cert.KernelIdeal.S512x128 EltTy.f32)

variable (m : (ℓ : Loc nD τ sig) → Buf (Elt F) ℓ) (ids : (d : Dev nD) → Buf (Elt F) (iLoc d))

variable [FloatOps F]

/-- A tile's coordinates in the call's grid. -/
def coordsV (c : Fin (grid1.bound 0)) (s : Fin (grid1.bound 1)) : grid1.Coords :=
  fun | 0 => c | 1 => s | ⟨_ + 2, h⟩ => absurd h (Nat.not_lt.2 (Nat.le_add_left _ _))

omit m ids in
theorem defs₀_vector (c : Fin τ.nSC) (s : Fin τ.nSub) :
    defs₀ (F := F) (.scVector c s) 1 ()
      = SparseCore.onTile hcore1 hsub1 (fun c s => cc1_gather (coordsV c s)
          tV (Memref.isWhole_whole _) iV (Memref.isWhole_whole _) oV (Memref.isWhole_whole _)
          sV (Memref.isWhole_whole _) rV (Memref.isWhole_whole _) cc1_scratch2 cc1_scoped0 cc1_scoped1) ⟨⟩ c s := rfl

omit m ids [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hids : ∀ d j, (ids d j).toNat < 1000000) :
    (K (F := F)).TileObl (D (F := F)) 𝒱 (P m ids) v₀ 0 := by
  intro d c i O W hO _ _
  simp only [show (P m ids).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m ids d (coordsV ⟨_, hci.1⟩ ⟨_, hci.2⟩) hF hids O W hO).trans (wp_mono frame _ _ fun _ => obl_post)

end Cert.KernelIdeal.Run

end
-- ==== Proof.KI.Deal.lean ====
/-
  The call's operands dealt to the thirty-two tiles, and their results gathered. The flat list and the output split into
  the workers' blocks of 25600 rows (the blocks are pairwise disjoint and cover the array); the table's full share splits
  into thirty-two read shares and a remainder that is let go; and the thirty-two workers are the pairs (SparseCore c,
  tile s) through w = 2 s + c, a bijection between pairs and workers. Gathering is the same reading right to left: every
  worker gives back its block of the list unchanged and its block of the output at one common function.
-/
import proofs.«206694_g42322607734994_cont_8to1_b_990_36_alg».proof.Proof.KI.Pay

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (ids : (d : Dev nD) → Buf (Elt F) (iLoc d))

/-! ## The workers' blocks are disjoint and cover -/

omit m ids in
theorem iSet_disjoint : ∀ w ∈ (Finset.univ : Finset (Fin 32)), ∀ w' ∈ (Finset.univ : Finset (Fin 32)), w ≠ w' → Disjoint (iSet w) (iSet w') :=
  fun _ _ _ _ h => Rect.part_disjoint idiv h
omit m ids in
theorem oSet_disjoint : ∀ w ∈ (Finset.univ : Finset (Fin 32)), ∀ w' ∈ (Finset.univ : Finset (Fin 32)), w ≠ w' → Disjoint (oSet w) (oSet w') :=
  fun _ _ _ _ h => Rect.part_disjoint odiv h
omit m ids in
theorem iSet_cover : (Finset.univ : Finset (Fin 32)).biUnion iSet = Finset.univ := Rect.biUnion_part idiv
omit m ids in
theorem oSet_cover : (Finset.univ : Finset (Fin 32)).biUnion oSet = Finset.univ := Rect.biUnion_part odiv

omit m ids in
/-- The list held whole is its thirty-two blocks held. -/
theorem iPts_blocks (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iSet_disjoint, iSet_cover]
omit m ids in
/-- The output held whole is its thirty-two blocks held. -/
theorem oPts_blocks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSet_disjoint, oSet_cover]

/-! ## Workers and (SparseCore, tile) pairs -/

/-- (c, s) ↦ 2 s + c is a bijection between the pairs and the thirty-two workers. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    obtain ⟨c, s⟩ := p
    have hc := c.isLt
    refine Prod.ext (Fin.ext ?_) (Fin.ext ?_)
    · show (2 * s.val + c.val) % 2 = c.val
      omega
    · show (2 * s.val + c.val) / 2 = s.val
      omega
  right_inv w := by
    refine Fin.ext ?_
    show 2 * (w.val / 2) + w.val % 2 = w.val
    omega

omit m ids in
/-- A family over the workers, regrouped by SparseCore and tile. -/
theorem bigSep_workers (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]
  rfl

omit m ids in
/-- The call's SparseCores are the two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit m ids in
/-- A SparseCore's tiles are the sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## Dealing -/

omit m ids in
/-- The output held whole at some contents: every block held at some contents. -/
theorem oBlocks_split (d : Dev nD) :
    (iprop(∃ f, oLoc d ↦{fullShare} f) : sProp 𝕄) ⊢ bigSep Finset.univ fun w : Fin 32 => iprop(∃ f, oLoc d ↦[oSet w]{fullShare} f) := by
  iintro ⟨%f, H⟩
  have hw : ∀ w ∈ (Finset.univ : Finset (Fin 32)),
      (oLoc d ↦[oSet w]{fullShare} f : sProp 𝕄) ⊢ iprop(∃ g, oLoc d ↦[oSet w]{fullShare} g) := fun w _ => by
    iintro H; iexists f; iexact H
  have hm : (bigSep Finset.univ fun w : Fin 32 => (oLoc d ↦[oSet w]{fullShare} f : sProp 𝕄))
      ⊢ bigSep Finset.univ fun w : Fin 32 => iprop(∃ g, oLoc d ↦[oSet w]{fullShare} g) := bigSep_mono hw
  ihave H' := (Entails.of_eq (oPts_blocks (F := F) d f)) $$ H
  iapply hm; iexact H'

omit ids in
/-- The table held whole: every worker a read share of it (the remainder of the share is let go). -/
theorem tShares_split (d : Dev nD) (std : Buf (Elt F) (tLoc d)) (hstd : IsTable m d std) :
    (tLoc d ↦{fullShare} std : sProp 𝕄)
      ⊢ bigSep Finset.univ fun w : Fin 32 => iprop(∃ std', ⌜IsTable m d std'⌝ ∗ tLoc d ↦{tq w} std') := by
  have hw : ∀ w ∈ (Finset.univ : Finset (Fin 32)),
      (tLoc d ↦{tq w} std : sProp 𝕄) ⊢ iprop(∃ std', ⌜IsTable m d std'⌝ ∗ tLoc d ↦{tq w} std') := fun w _ => by
    iintro H; iexists std
    isplitr
    · ipureintro; exact hstd
    · iexact H
  have hm : (bigSep Finset.univ fun w : Fin 32 => (tLoc d ↦{tq w} std : sProp 𝕄))
      ⊢ bigSep Finset.univ fun w : Fin 32 => iprop(∃ std', ⌜IsTable m d std'⌝ ∗ tLoc d ↦{tq w} std') := bigSep_mono hw
  iintro H
  ihave H' := (Transfers.pointsTo_toks_split (ℓ := tLoc d) (S := Finset.univ) (f := std) fullShare 32) $$ H
  icases H' with ⟨-, Ht⟩
  iapply hm; iexact Ht

/-- The call's operands dealt: each SparseCore its sixteen tiles' tasks. -/
theorem deal (d : Dev nD) (std : Buf (Elt F) (tLoc d)) (hstd : IsTable m d std) :
    iprop((iLoc d ↦{fullShare} ids d) ∗ (∃ f, oLoc d ↦{fullShare} f) ∗ (tLoc d ↦{fullShare} std))
      ⊢ (bigSep Finset.univ fun c : Fin ((K (F := F)).nCore 0) => (P m ids).st 0 d c : sProp 𝕄) := by
  show _ ⊢ bigSep Finset.univ fun c : Fin ((K (F := F)).nCore 0) =>
    bigSep Finset.univ fun s : Fin 16 => goR m ids d (wid (Fin.cast nCore_zero c) s)
  rw [bigSep_cores (F := F) (fun c => bigSep Finset.univ fun s : Fin 16 => goR m ids d (wid c s)),
    ← bigSep_workers (F := F) (goR m ids d)]
  unfold goR
  rw [bigSep_sep', bigSep_sep', ← iPts_blocks]
  iintro ⟨Hi, Ho, Ht⟩
  isplitl [Hi]; · iexact Hi
  isplitl [Ho]
  · iapply (oBlocks_split (F := F) d); iexact Ho
  · iapply (tShares_split m d std hstd); iexact Ht

/-! ## Gathering -/

/-- The tiles' results gathered: the list unchanged, the output looked up. -/
theorem undeal (d : Dev nD) :
    (bigSep Finset.univ fun c : Fin ((K (F := F)).nCore 0) => (P m ids).dn 0 d c : sProp 𝕄)
      ⊢ iprop((iLoc d ↦{fullShare} ids d) ∗ (oLoc d ↦{fullShare} outG m ids d)) := by
  show (bigSep Finset.univ fun c : Fin ((K (F := F)).nCore 0) =>
    bigSep Finset.univ fun s : Fin 16 => tdR m ids d (wid (Fin.cast nCore_zero c) s)) ⊢ _
  rw [bigSep_cores (F := F) (fun c => bigSep Finset.univ fun s : Fin 16 => tdR m ids d (wid c s)),
    ← bigSep_workers (F := F) (tdR m ids d)]
  unfold tdR
  rw [bigSep_sep', ← iPts_blocks, ← oPts_blocks]

/-! ## A SparseCore's task and its tiles' -/

/-- A SparseCore's task is its sixteen tiles' tasks, its result their results. -/
theorem vecSplit : (K (F := F)).VecSplit' (P m ids) 0 := by
  intro d c
  show (bigSep Finset.univ fun s : Fin 16 => goR m ids d (wid (Fin.cast nCore_zero c) s)) ⊢ |={Set.univ}=> iprop(
      (bigSep Finset.univ fun i : Fin ((K (F := F)).nSub 0) => goR m ids d (wid (Fin.cast nCore_zero c) (Fin.cast nSub_zero i)))
      ∗ ((bigSep Finset.univ fun i : Fin ((K (F := F)).nSub 0) => tdR m ids d (wid (Fin.cast nCore_zero c) (Fin.cast nSub_zero i)))
          -∗ bigSep Finset.univ fun s : Fin 16 => tdR m ids d (wid (Fin.cast nCore_zero c) s)))
  rw [bigSep_tasks (F := F) (fun s => goR m ids d (wid (Fin.cast nCore_zero c) s)),
    bigSep_tasks (F := F) (fun s => tdR m ids d (wid (Fin.cast nCore_zero c) s))]
  iintro H; imodintro
  isplitl [H]; · iexact H
  iintro H; iexact H

end Cert.KernelIdeal.Run

end
-- ==== Proof.KI.RetileData.lean ====
/-
  The TensorCore kernel that retiles the transposed table: what its body leaves in the staging buffers at a grid
  point, the pipeline's proof data, and the body obligation at every point.

  The pipeline stages the [64, 1000000] array in blocks of [64, 512] along the columns, 1954 of them; the last one
  overhangs the array by 448 columns, and its fetch leaves in those columns of the staging buffer words that nothing
  names. The body transposes the whole staging block into columns 0..63 and again into columns 64..127 of the
  [512, 128] output block, so at the last point rows 64..511 of that block are computed from the unnamed words.
  The output window is written back whole, so no closed form names what the body leaves there at the last point:
  the proof data is relational. It says that the input's buffer is left as found, and that row r, column l of the
  output's buffer at point t is the array's element (l mod 64, 512 t + r) whenever column 512 t + r is inside the
  array.
-/
import proofs.«206694_g42322607734994_cont_8to1_b_990_36_alg».proof.Proof.Gen.KernelIdeal.Launch
import proofs.«206694_g42322607734994_cont_8to1_b_990_36_alg».proof.Proof.Gen.KernelIdeal.Skeleton
import proofs.«206694_g42322607734994_cont_8to1_b_990_36_alg».proof.Proof.Gen.KernelIdeal.Points
import Idealize.ShloMosaic.Lib.Pipeline.FrameBody
import Idealize.ShloMosaic.Lib.Pipeline.Value
import Idealize.ShloMosaic.Lib.ValueLayout
import Idealize.ShloMosaic.Lib.Ring
import Idealize.ShloMosaic.Lib.Tactic

set_option maxRecDepth 16384

noncomputable section

namespace Cert.KernelIdeal.Retile

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]
variable {Ix : Type} [DecidableEq Ix] {Name : Type} [DecidableEq Name] {U : Type} [URA U]

local notation "𝕄" => MT nD τ sig Ix (Elt F) Name U ℕ

/-! ## The body's accesses and what it leaves -/

abbrev rin : Rect S64x512 := Rect.unit (s := S64x512) ![0, 0] S64x512.size inb_S64x512_S64x512_0_0
abbrev r0 : Rect S512x128 := Rect.unit (s := S512x128) ![0, 0] S512x64.size inb_S512x128_S512x64_0_0
abbrev r64 : Rect S512x128 := Rect.unit (s := S512x128) ![0, 64] S512x64.size inb_S512x128_S512x64_0_64

/-- The output block after the body, from the input block: the transposed block stored at columns 0..63, then at
    columns 64..127 (the last store first). -/
def out (x0 : Vec F S64x512 .f32) : Vec F S512x128 .f32 :=
  View.canon [⟨r64, k0_pay1 (View.ld x0 rin)⟩, ⟨r0, k0_pay1 (View.ld x0 rin)⟩]

/-- The two stores cover the output block: a column below 64 is in the first's rectangle, any other in the second's. -/
theorem cover (p0 p1 : Vec F S512x64 .f32) (y : S512x128.Idx) :
    ∃ pc ∈ ([⟨r64, p1⟩, ⟨r0, p0⟩] : List (View.Piece (Elt F) S512x128 .f32)), y ∈ pc.1.set := by
  have h0 : (y 0).val < 512 := (y 0).isLt
  have h1 : (y 1).val < 128 := (y 1).isLt
  by_cases h : (y 1).val < 64
  · refine ⟨⟨r0, p0⟩, by simp, ?_⟩
    rw [Rect.mem_set_unit]
    intro a
    match a with
    | ⟨0, _⟩ => exact ⟨Nat.zero_le _, by show (y 0).val < 0 + 512; omega⟩
    | ⟨1, _⟩ => exact ⟨Nat.zero_le _, by show (y 1).val < 0 + 64; omega⟩
  · refine ⟨⟨r64, p1⟩, by simp, ?_⟩
    rw [Rect.mem_set_unit]
    intro a
    match a with
    | ⟨0, _⟩ => exact ⟨Nat.zero_le _, by show (y 0).val < 0 + 512; omega⟩
    | ⟨1, _⟩ => exact ⟨by show 64 ≤ (y 1).val; omega, by show (y 1).val < 64 + 64; omega⟩

set_option maxHeartbeats 1000000 in
/-- The body on whole staging memrefs, the input's at read contents `x0` and the output's at anything, runs to the
    continuation holding the input's as it was and the output's at `out x0`. -/
theorem sound_kernel (c : Dev nD) (E : Set Name) (i : grid0.Coords) (arg1 : Memref sig .tc .vmem S64x512 .f32) (harg1 : arg1.IsWhole)
    (arg2 : Memref sig .tc .vmem S512x128 .f32) (harg2 : arg2.IsWhole) (x0 : Vec F S64x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out x0)) -∗ K ⟨⟩))
      ⊢ wp frame (wpE (defs₀ (F := F)) Variants.none c none) E (cc0__retile_body i arg1 harg1 arg2 harg2) K := by
  simp only [cc0__retile_body_eq_skeleton]; unfold cc0__retile_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  exact View.read_writes_eq_canon _ _ _ (cover _ _)

/-! ## The output block at an element -/

/-- The payload at an element: the input block transposed. -/
theorem pay_apply (v : Vec F S64x512 .f32) (r : Fin 512) (k : Fin 64) : k0_pay1 v (ix2 r k) = v (ix2 k r) := by
  unfold k0_pay1
  rw [shapeCast_self]
  exact transpose_ix2_apply (a := 64) (b := 512) v transposes_S64x512_p1_0_S512x64 r k

/-- The whole-block load reads the block. -/
theorem ld_rin (x0 : Vec F S64x512 .f32) : View.ld x0 rin = x0 :=
  View.ld_unit_zero (funext fun a => by fin_cases a <;> rfl) inb_S64x512_S64x512_0_0 x0

/-- Row `r`, column `l` of the output block is row `l mod 64`, column `r` of the input block. -/
theorem out_apply (x0 : Vec F S64x512 .f32) (r : Fin 512) (l : Fin 128) :
    out x0 (ix2 r l) = x0 (ix2 ⟨l.val % 64, Nat.mod_lt _ (by decide)⟩ r) := by
  unfold out
  rw [ld_rin]
  have hl : l.val < 128 := l.isLt
  by_cases h : l.val < 64
  · have hnot : (ix2 r l : S512x128.Idx) ∉ (⟨r64, k0_pay1 x0⟩ : View.Piece (Elt F) S512x128 .f32).1.set := by
      rw [Rect.mem_set_unit]
      intro hh
      have := (hh 1).1
      have e : ((ix2 r l : S512x128.Idx) 1).val = l.val := rfl
      change 64 ≤ ((ix2 r l : S512x128.Idx) 1).val at this
      omega
    rw [View.canon_cons_of_not_mem _ _ hnot]
    have he : (ix2 r l : S512x128.Idx) = r0.emb (ix2 r ⟨l.val, h⟩ : S512x64.Idx) := by
      funext a
      match a with
      | ⟨0, _⟩ => apply Fin.ext; rw [Rect.emb_apply]; show r.val = 0 + 1 * r.val; omega
      | ⟨1, _⟩ => apply Fin.ext; rw [Rect.emb_apply]; show l.val = 0 + 1 * l.val; omega
    rw [he, View.canon_cons_emb, pay_apply]
    congr 2
    exact Fin.ext (Nat.mod_eq_of_lt h).symm
  · have he : (ix2 r l : S512x128.Idx) = r64.emb (ix2 r ⟨l.val - 64, by omega⟩ : S512x64.Idx) := by
      funext a
      match a with
      | ⟨0, _⟩ => apply Fin.ext; rw [Rect.emb_apply]; show r.val = 0 + 1 * r.val; omega
      | ⟨1, _⟩ => apply Fin.ext; rw [Rect.emb_apply]; show l.val = 64 + 1 * (l.val - 64); omega
    rw [he, View.canon_cons_emb, pay_apply]
    congr 2
    apply Fin.ext
    show l.val - 64 = l.val % 64
    omega

/-! ## The grid and the two windows' blocks -/

theorem N_lt (t : Fin cfg0.N) : t.val < 1954 := lt_of_lt_of_eq t.isLt N_0

/-- The one grid coordinate of the `t`-th point is `t`. -/
theorem coords_val (t : Fin cfg0.N) : (grid0.coords t 0).val = t.val := by
  have ht := N_lt t
  show t.val / grid0.stride 0 % 1954 = t.val
  rw [show grid0.stride 0 = 1 from by decide, Nat.div_one, Nat.mod_eq_of_lt ht]

/-- The input window's block index at point `t`: row block 0, column block `t`. -/
theorem index0 (t : Fin cfg0.N) : win0_0.index t = ![0, t.val] := by
  have ht := N_lt t
  show cc0_transform_0 (grid0.coords t) = _
  unfold cc0_transform_0
  simp only [coords_val, BitVec.toNat_ofNat]
  rw [Nat.mod_eq_of_lt (show t.val < 2 ^ 32 by omega)]

/-- The output window's block index at point `t`: row block `t`, column block 0. -/
theorem index1 (t : Fin cfg0.N) : win0_1.index t = ![t.val, 0] := by
  have ht := N_lt t
  show cc0_transform_1 (grid0.coords t) = _
  unfold cc0_transform_1
  simp only [coords_val, BitVec.toNat_ofNat]
  rw [Nat.mod_eq_of_lt (show t.val < 2 ^ 32 by omega)]

/-- On the rows the input window's transfers move all 64; -/
theorem xsize0_0 (t : Fin cfg0.N) : win0_0.xsize (grid0.coords t) 0 = 64 := by
  show (Pipeline.Clip.of (win0_0.index t 0) 64 64).extent 64 = 64
  rw [index0]; rfl

/-- on the columns all 512, but at the last point the 64 inside the array. -/
theorem xsize0_1 (t : Fin cfg0.N) :
    win0_0.xsize (grid0.coords t) 1 = if (t.val + 1) * 512 ≤ 1000000 then 512 else 1000000 - t.val * 512 := by
  show (Pipeline.Clip.of (win0_0.index t 1) 512 1000000).extent 512 = _
  rw [index0]
  show (Pipeline.Clip.of t.val 512 1000000).extent 512 = _
  unfold Pipeline.Clip.of
  split <;> rfl

/-- An element of the input block whose column is inside the array is one the fetch moves. -/
theorem moved0 (t : Fin cfg0.N) (k : Fin 64) (r : Fin 512) (h : 512 * t.val + r.val < 1000000) :
    win0_0.moved (grid0.coords t) (ix2 k r : S64x512.Idx) = true := by
  rw [Window.moved_iff]
  intro a
  match a with
  | ⟨0, _⟩ => rw [show (⟨0, _⟩ : Fin 2) = 0 from rfl, xsize0_0]; exact k.isLt
  | ⟨1, _⟩ =>
    rw [show (⟨1, _⟩ : Fin 2) = 1 from rfl, xsize0_1]
    show r.val < _
    have := r.isLt
    split <;> omega

/-! ## The proof data -/

/-- The pipeline's proof data on core `c`, for the table `wt` and the output array `s0` as the region finds them, a
    core that owes `O` throughout and whose recorded waits lie in `B`: the input's staging buffer is left as found;
    the output's holds, at row `r` and column `l` at point `t`, the table's element `(l mod 64, 512 t + r)` wherever
    that column is inside the table; no invariant; full shares. -/
def rdats (O : CellTallies nD τ sig Ix) (B : Set (SemLoc sig × Ix)) (wt : Vec F S64x1000000 .f32) (s0 : Vec F S1000448x128 .f32)
    (c : Dev nD) : RDat τ (Elt F) Ix Name U ℕ cfg0 c where
  A w := match w with
    | ⟨0, _⟩ => wt
    | ⟨1, _⟩ => s0
  after w t := match w with
    | ⟨0, _⟩ => fun Y X => X = Y
    | ⟨1, _⟩ => fun _ X => ∀ (r : Fin 512) (l : Fin 128) (h : 512 * t.val + r.val < 1000000),
        X (ix2 r l) = wt (ix2 ⟨l.val % 64, Nat.mod_lt _ (by decide)⟩ ⟨512 * t.val + r.val, h⟩)
  Φ _ := iprop(emp)
  q _ := fullShare
  owed _ := O
  recorded _ := B

variable (O : CellTallies nD τ sig Ix) (B : Set (SemLoc sig × Ix)) (wt : Vec F S64x1000000 .f32) (s0 : Vec F S1000448x128 .f32) (c : Dev nD)

/-- What a fetch at point `t` leaves at an element of the staging buffer whose column is inside the table: the
    table's element. -/
theorem fetched0 (t : Fin cfg0.N) (d) (k : Fin 64) (r : Fin 512) (h : 512 * t.val + r.val < 1000000) :
    (rdats (Name := Name) (U := U) O B wt s0 c).fetched 0 t d (ix2 k r) = wt (ix2 k ⟨512 * t.val + r.val, h⟩) := by
  unfold RDat.fetched Window.fill
  rw [dif_pos (moved0 t k r h)]
  unfold RDat.blockOf
  rw [View.read_apply]
  show wt (((cfg0.win 0).blk t).view.emb fun a => ⟨(ix2 k r : S64x512.Idx) a, _⟩) = wt (ix2 k ⟨512 * t.val + r.val, h⟩)
  congr 1
  funext a
  apply Fin.ext
  show ((win0_0.rect t).emb _ a : Nat) = _
  rw [Window.rect_emb_val, index0]
  match a with
  | ⟨0, _⟩ => show 0 * 64 + k.val = k.val; omega
  | ⟨1, _⟩ => show t.val * 512 + r.val = 512 * t.val + r.val; omega

/-! ## The body obligation -/

/-- The body at any point: the input's buffer holds a fetched block, so the output's ends holding, wherever the column
    is inside the table, the table's element; the input's is left as found; the invariant and what the core owes
    pass through unread. -/
theorem body_obligation (ι : Ix) :
    (rdats (Name := Name) (U := U) O B wt s0 c).BodyObligation (defs₀ (F := F)) Variants.none ι Set.univ := by
  intro t Y hY
  rw [bigSep_W0, bigSep_W0]
  obtain ⟨d, hd⟩ := ((rdats (Name := Name) (U := U) O B wt s0 c).finds_of_fetch (fetch0_0 t) (Y 0)).mp (hY 0)
  rw [show (rdats (Name := Name) (U := U) O B wt s0 c).Φ t.succ = (rdats (Name := Name) (U := U) O B wt s0 c).Φ t.castSucc from rfl,
    show (rdats (Name := Name) (U := U) O B wt s0 c).owesAt ι t.succ = (rdats (Name := Name) (U := U) O B wt s0 c).owesAt ι t.castSucc from rfl]
  iintro ⟨HΦ, Ho, H0, H1⟩
  iapply (sound_kernel c Set.univ (grid0.coords t) (win0_0.stage (cfg0.slots t 0)) (hstage0_0 ((cfg0.slots t 0).cast nbuf0_0)) (win0_1.stage (cfg0.slots t 1)) (hstage0_1 ((cfg0.slots t 1).cast nbuf0_1)) (Y 0) _)
  isplitl [H0]; · iexact H0
  isplitl [H1]; · iexists _; iexact H1
  iintro ⟨H0, H1⟩
  isplitl [HΦ]; · iexact HΦ
  isplitl [Ho]; · iexact Ho
  isplitl [H0]
  · iexists (Y 0); isplitr
    · ipureintro; show Y 0 = Y 0; rfl
    iexact H0
  · iexists (out (Y 0)); isplitr
    · ipureintro
      show ∀ (r : Fin 512) (l : Fin 128) (h : 512 * t.val + r.val < 1000000),
        out (Y 0) (ix2 r l) = wt (ix2 ⟨l.val % 64, Nat.mod_lt _ (by decide)⟩ ⟨512 * t.val + r.val, h⟩)
      intro r l h
      rw [out_apply, hd]
      exact fetched0 O B wt s0 c t d _ r h
    iexact H1

end Cert.KernelIdeal.Retile

end
-- ==== Proof.KI.RetileValue.lean ====
/-
  The arrays after the retiling kernel's region, in closed form: the table is left as it was, and every row of the
  output array below the table's column count holds that column of the table, twice over (columns 0..63 and 64..127).
  Rows from the table's column count on are written from words nothing names and are not described.
-/
import proofs.«206694_g42322607734994_cont_8to1_b_990_36_alg».proof.Proof.KI.RetileData

set_option maxRecDepth 16384

noncomputable section

namespace Cert.KernelIdeal.Retile

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.Sem
open Idealize.ShloMosaic.Pipeline (RDat Cfg Window cellOf)

variable {F : FTy → Type} [FloatOps F]
variable {Ix : Type} [DecidableEq Ix] {Name : Type} [DecidableEq Name] {U : Type} [URA U]
variable (O : CellTallies nD τ sig Ix) (B : Set (SemLoc sig × Ix)) (wt : Vec F S64x1000000 .f32) (s0 : Vec F S1000448x128 .f32) (c : Dev nD)

/-- The table is an input: whatever it may hold after the region is what it held. -/
theorem final_wt (G : Vec F S64x1000000 .f32) (h : (rdats (Name := Name) (U := U) O B wt s0 c).ArrAt 0 cfg0.N G) : G = wt := by
  rw [RDat.ArrAt_in _ 0 rfl] at h
  exact h

/-- Which elements of the output array point `t`'s block holds: rows `512 t .. 512 t + 511`, every column. -/
theorem mem_blk1 (t : Fin cfg0.N) (r : Fin 1000448) (l : Fin 128) :
    (ix2 r l : S1000448x128.Idx) ∈ (win0_1.blk t).view.set ↔ 512 * t.val ≤ r.val ∧ r.val < 512 * t.val + 512 := by
  show (ix2 r l : S1000448x128.Idx) ∈ ((View.whole main_v2).slice (win0_1.rect t)).set ↔ _
  rw [View.set_slice_whole, Rect.mem_set_unit, index1]
  have hl := l.isLt
  constructor
  · intro h
    have := h 0
    change t.val * 512 ≤ r.val ∧ r.val < t.val * 512 + 512 at this
    omega
  · intro h a
    match a with
    | ⟨0, _⟩ => show t.val * 512 ≤ r.val ∧ r.val < t.val * 512 + 512; omega
    | ⟨1, _⟩ => show 0 * 128 ≤ l.val ∧ l.val < 0 * 128 + 128; omega

/-- After the write-backs of the points below `n`, every row below `512 n` and inside the table's column count holds
    that column of the table. -/
theorem arrAt1 : ∀ (n : Nat) (G : Vec F S1000448x128 .f32), (rdats (Name := Name) (U := U) O B wt s0 c).ArrAt 1 n G →
    ∀ (r : Fin 1000448) (l : Fin 128) (hr : r.val < 1000000), r.val < 512 * n →
      G (ix2 r l) = wt (ix2 ⟨l.val % 64, Nat.mod_lt _ (by decide)⟩ ⟨r.val, hr⟩)
  | 0, _, _, r, _, _, h => absurd h (by omega)
  | n + 1, G, hG, r, l, hr, h => by
    simp only [RDat.ArrAt] at hG
    by_cases hn : n < cfg0.N
    · rw [dif_pos hn, if_pos (flush0_1 ⟨n, hn⟩)] at hG
      obtain ⟨G₀, X, hG₀, ⟨Y, -, hXY⟩, rfl⟩ := hG
      by_cases hin : 512 * n ≤ r.val
      · -- the row is in point `n`'s block: it holds what the body left there
        have hr2 : r.val - 512 * n < 512 := by omega
        have he : (ix2 r l : S1000448x128.Idx)
            = (win0_1.blk ⟨n, hn⟩).view.emb (ix2 ⟨r.val - 512 * n, hr2⟩ l : S512x128.Idx) := by
          funext a
          apply Fin.ext
          show _ = ((win0_1.rect ⟨n, hn⟩).emb _ a : Nat)
          rw [Window.rect_emb_val, index1]
          match a with
          | ⟨0, _⟩ => show r.val = n * 512 + (r.val - 512 * n); omega
          | ⟨1, _⟩ => show l.val = 0 * 128 + l.val; omega
        have hX := hXY ⟨r.val - 512 * n, hr2⟩ l (by show 512 * n + (r.val - 512 * n) < 1000000; omega)
        rw [he, View.write_emb_of_mem _ _ (Finset.mem_univ _)]
        show X (ix2 ⟨r.val - 512 * n, hr2⟩ l) = _
        rw [hX]
        congr 2
        apply Fin.ext
        show 512 * n + (r.val - 512 * n) = r.val
        omega
      · -- the row is in an earlier point's block: the write-back at point `n` does not touch it
        have hnot : (ix2 r l : S1000448x128.Idx) ∉ (win0_1.blk ⟨n, hn⟩).view.setOn Finset.univ := by
          rw [View.setOn_univ, mem_blk1]
          show ¬(512 * n ≤ r.val ∧ r.val < 512 * n + 512)
          omega
        rw [View.write_of_not_mem _ _ _ hnot]
        exact arrAt1 n G₀ hG₀ r l hr (by omega)
    · rw [dif_neg hn] at hG
      have hN : cfg0.N = 1954 := N_0
      exact arrAt1 n G hG r l hr (by have := r.isLt; omega)

/-- The output array after the region: row `r` below the table's column count holds column `r` of the table, at column
    `l` its row `l mod 64`. -/
theorem final_std (G : Vec F S1000448x128 .f32) (h : (rdats (Name := Name) (U := U) O B wt s0 c).ArrAt 1 cfg0.N G)
    (r : Fin 1000448) (l : Fin 128) (hr : r.val < 1000000) :
    G (ix2 r l) = wt (ix2 ⟨l.val % 64, Nat.mod_lt _ (by decide)⟩ ⟨r.val, hr⟩) :=
  arrAt1 O B wt s0 c cfg0.N G h r l hr (by rw [show cfg0.N = 1954 from N_0]; omega)

end Cert.KernelIdeal.Retile

end
-- ==== Proof.KI.RetileRegion.lean ====
/-
  The retiling kernel's region as one step of the TensorCore's program inside the launch: from the table and the
  output array as the region finds them, the region runs to the table unchanged and the output array holding, in
  every row below the table's column count, that column of the table.
-/
import proofs.«206694_g42322607734994_cont_8to1_b_990_36_alg».proof.Proof.KI.Setup
import proofs.«206694_g42322607734994_cont_8to1_b_990_36_alg».proof.Proof.KI.RetileValue

set_option maxRecDepth 16384

noncomputable section

namespace Cert.KernelIdeal.Retile

open Cert.KernelIdeal Cert.KernelIdeal.Gen Cert.KernelIdeal.Run
open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (HIx 1) (Elt F) ℕ UU ℕ

/-- The pipelines' prefetched tables: there are none. -/
abbrev adm : (p : Fin 1) → (pcfgs (F := F) p).Adm := fun q => (cfgs q).toPCfg_adm

/-- The proof data of the one pipeline, on every core. -/
abbrev rds (O : CellTallies nD τ sig (HIx 1)) (W : Waits sig (HIx 1)) (wt : Vec F S64x1000000 .f32) (s0 : Vec F S1000448x128 .f32) :
    (p : Fin 1) → (c : Dev nD) → RDat τ (Elt F) (HIx 1) ℕ UU ℕ (Pipeline.pin (pcfgs (F := F)) adm p) c :=
  fun _ c => rdats O (↑W) wt s0 c

theorem phinj : Function.Injective (cellOf (nD := nD) (τ := τ) (Pipeline.pin (pcfgs (F := F)) adm)) := Gen.cellOf_inj

/-- What the region leaves: the table, the output array at contents that hold the table's columns, and the core's
    debts with its recorded waits grown by the pipeline's own. -/
def postR (O : CellTallies nD τ sig (HIx 1)) (W : Waits sig (HIx 1)) (wt : Vec F S64x1000000 .f32) (c : Dev nD) : sProp 𝕄 :=
  iprop(∃ (std : Vec F S1000448x128 .f32) (W' : Waits sig (HIx 1)),
    ⌜(∀ (r : Fin 1000448) (l : Fin 128) (hr : r.val < 1000000),
        std (ix2 r l) = wt (ix2 ⟨l.val % 64, Nat.mod_lt _ (by decide)⟩ ⟨r.val, hr⟩)) ∧ (∀ p ∈ W', p ∈ W ∨ p.2 = none)⌝
      ∗ ((SparseCore.T c : Thread nD τ).loc main_v1 ↦{fullShare} wt) ∗ ((SparseCore.T c : Thread nD τ).loc main_v2 ↦{fullShare} std) ∗ owes (SparseCore.T c : Thread nD τ) O W')

/-- The arrays as the region leaves them: the table as it was, the output array at contents that hold the table's
    columns. -/
theorem arraysAt_elim (O : CellTallies nD τ sig (HIx 1)) (W : Waits sig (HIx 1)) (wt : Vec F S64x1000000 .f32) (s0 : Vec F S1000448x128 .f32)
    (c : Dev nD) :
    (rdats (Name := ℕ) (U := UU) O (↑W) wt s0 c).arraysAt cfg0.N
      ⊢ (iprop(∃ std : Vec F S1000448x128 .f32,
          ⌜∀ (r : Fin 1000448) (l : Fin 128) (hr : r.val < 1000000),
            std (ix2 r l) = wt (ix2 ⟨l.val % 64, Nat.mod_lt _ (by decide)⟩ ⟨r.val, hr⟩)⌝
          ∗ ((SparseCore.T c : Thread nD τ).loc main_v1 ↦{fullShare} wt) ∗ ((SparseCore.T c : Thread nD τ).loc main_v2 ↦{fullShare} std)) : sProp 𝕄) := by
  have h0 : (cfg0.win 0).arr.view.set = Finset.univ := (Gen.arr_whole0 0).set_eq_univ
  have h1 : (cfg0.win 1).arr.view.set = Finset.univ := (Gen.arr_whole0 1).set_eq_univ
  have hs0 : (rdats (Name := ℕ) (U := UU) O (↑W) wt s0 c).share 0 = fullShare := by unfold RDat.share; split <;> rfl
  have hs1 : (rdats (Name := ℕ) (U := UU) O (↑W) wt s0 c).share 1 = fullShare := by unfold RDat.share; split <;> rfl
  unfold RDat.arraysAt
  rw [bigSep_W0, h0, h1, hs0, hs1]
  iintro ⟨⟨%G0, %hG0, H0⟩, ⟨%G1, %hG1, H1⟩⟩
  have e0 : G0 = wt := final_wt O (↑W) wt s0 c G0 hG0
  iexists G1
  isplitr
  · ipureintro
    exact fun r l hr => final_std O (↑W) wt s0 c G1 hG1 r l hr
  subst e0
  isplitl [H0]
  · iexact H0
  · iexact H1

/-- The region's exit. -/
theorem exit_retile (O : CellTallies nD τ sig (HIx 1)) (W : Waits sig (HIx 1)) (wt : Vec F S64x1000000 .f32) (s0 : Vec F S1000448x128 .f32)
    (c : Dev nD) :
    iprop((rdats (Name := ℕ) (U := UU) O (↑W) wt s0 c).arraysAt cfg0.N ∗ (rdats (Name := ℕ) (U := UU) O (↑W) wt s0 c).owesAt none (Fin.last cfg0.N))
      ⊢ (postR O W wt c : sProp 𝕄) := by
  refine (sep_mono (arraysAt_elim O W wt s0 c) .rfl).trans ?_
  iintro ⟨⟨%std, %hstd, H1, H2⟩, ⟨%W', %hW', Ho⟩⟩
  unfold postR
  iexists std, W'
  isplitr
  · ipureintro
    refine ⟨hstd, fun p hp => ?_⟩
    rcases hW' hp with h | ⟨w, s, rfl⟩
    · exact .inl h
    · exact .inr rfl
  isplitl [H1]
  · iexact H1
  isplitl [H2]
  · iexact H2
  iexact Ho

/-- Every array of the pipeline is held at the full share. -/
theorem share_full (O : CellTallies nD τ sig (HIx 1)) (W : Waits sig (HIx 1)) (wt : Vec F S64x1000000 .f32) (s0 : Vec F S1000448x128 .f32)
    (c : Dev nD) (w : Fin 2) : (rds O W wt s0 0 c).share w = fullShare := by
  unfold RDat.share; split <;> rfl

/-- The region: no semaphore of the kernel's own, no invariant; it is entered from the two arrays and the core's debts
    and left at `postR`. -/
def region (O : CellTallies nD τ sig (HIx 1)) (hO : ∀ g, O g none = 0) (W : Waits sig (HIx 1))
    (wt : Vec F S64x1000000 .f32) (s0 : Vec F S1000448x128 .f32)
    (lv : GSem nD τ sig → HIx 1 → ℕ) (hlv : (K (F := F)).Refines lv) :
    Pipeline.RDat.RegionSeg (pcfgs (F := F)) adm (rds O W wt s0) none (defs₀ (F := F)) 𝒱₀ (K (F := F)).L lv (0 : Fin 1) where
  win := Gen.winFacts0.to₀
  block_pos := Gen.block_pos0
  stage_whole := Gen.stage_whole0
  K := PEmpty
  osem := fun k => k.elim
  ho := Pipeline.OwnSemFacts.none _
  hbody c := body_obligation O (↑W) wt s0 c none
  hwaits c := Pipeline.RDat.cellsWaits_intro (Pipeline.pin (pcfgs (F := F)) adm) (rds O W wt s0) none 0 c
    fun w s t => (K (F := F)).mayWait_none _ hO lv hlv
  pre c := iprop(((SparseCore.T c : Thread nD τ).loc main_v1 ↦{fullShare} wt) ∗ ((SparseCore.T c : Thread nD τ).loc main_v2 ↦{fullShare} s0)
    ∗ owes (SparseCore.T c : Thread nD τ) O W)
  post c := postR O W wt c
  X _ := iprop(emp)
  Y _ := iprop(emp)
  Z _ := iprop(emp)
  hentry c := by
    rw [Pipeline.RDat.arrays_eq (pcfgs (F := F)) adm (rds O W wt s0) 0 c Gen.arr_whole0 (share_full O W wt s0 c), bigSep_W0]
    iintro ⟨⟨H1, H2, Ho⟩, -, -⟩
    imodintro
    isplitl [H1 H2]
    · isplitl [H1]
      · iexact H1
      · iexact H2
    isplitr
    · unfold Pipeline.prefHeld
      rw [Finset.univ_eq_empty, BI.bigSep_empty]
      iempintro
    isplitl [Ho]
    · iexists W
      isplitr
      · ipureintro; exact Set.subset_union_left
      iexact Ho
    isplitr <;> iempintro
  hin c := by
    iintro -; iempintro
  hout c := by
    rw [scopedRest0_eq, Pipeline.ownSems0_none]
    iintro -
    isplitr
    · iempintro
    isplitr <;> iempintro
  hexit c := by
    iintro ⟨Ha, Ho, -, -⟩
    imodintro
    iapply (exit_retile O W wt s0 c)
    isplitl [Ha]
    · iexact Ha
    · iexact Ho

/-- The program that is the region's call alone, in the signature of the certificate's own table. -/
abbrev callOnly : Prog (TpuEff nD τ sig (Elt F) (ΛP (F := F)) .tc) PUnit :=
  .op (.customCall (Pipeline.entry 0) ()) fun _ => .ret PUnit.unit

set_option maxHeartbeats 1000000 in
/-- THE REGION'S STEP on the TensorCore thread of device `d` inside the launch: from the boundary, the table at `wt`, the
    output array at anything, the core's debts `O` (none at the kernels' own index) with recorded waits `W`, the level
    facts and the pipeline's ghost state, the region's call runs to the boundary and `postR` for the continuation. -/
theorem wp_retile (d : Dev nD) (O : CellTallies nD τ sig (HIx 1)) (hO : ∀ g, O g none = 0) (W : Waits sig (HIx 1))
    (wt : Vec F S64x1000000 .f32) (s0 : Vec F S1000448x128 .f32)
    (lv : GSem nD τ sig → HIx 1 → ℕ) (hlv : (K (F := F)).Refines lv) {α : Type}
    (k : PUnit → Prog (TpuEff nD τ sig (Elt F) (SparseCore.Sig (ΛP (F := F)) 1) .tc) α) (Q : α → sProp 𝕄) :
    iprop(boundary (SparseCore.T d : Thread nD τ) ∗ ((SparseCore.T d : Thread nD τ).loc main_v1 ↦{fullShare} wt)
        ∗ ((SparseCore.T d : Thread nD τ).loc main_v2 ↦{fullShare} s0) ∗ owes (SparseCore.T d : Thread nD τ) O W
        ∗ levAts (K (F := F)).L lv
        ∗ Pipeline.cellsGhost (Pipeline.pin (pcfgs (F := F)) adm) EP 0 d ∗ Pipeline.toksInit (Pipeline.pin (pcfgs (F := F)) adm) EP 0 d
        ∗ (iprop(boundary (SparseCore.T d : Thread nD τ) ∗ postR O W wt d)
            -∗ wp frame (wpE ((K (F := F)).defs (D (F := F))) 𝒱 (SparseCore.T d : Thread nD τ) none) Set.univ (k ⟨⟩) Q))
      ⊢ wp frame (wpE ((K (F := F)).defs (D (F := F))) 𝒱 (SparseCore.T d : Thread nD τ) none) Set.univ
          (.op (.customCall (SparseCore.inner (Pipeline.entry 0)) ()) k) Q := by
  rw [show (Prog.op (.customCall (SparseCore.inner (Pipeline.entry 0)) ()) k
        : Prog (TpuEff nD τ sig (Elt F) (SparseCore.Sig (ΛP (F := F)) 1) .tc) α)
      = (SparseCore.liftProg (callOnly (F := F)) >>= k) from rfl, wp_bind]
  refine BIBase.Entails.trans ?_ ((K (F := F)).wp_liftProg (D (F := F)) 𝒱 (SparseCore.T d : Thread nD τ) Set.univ none (callOnly (F := F)) _)
  refine BIBase.Entails.trans ?_ (Pipeline.RDat.RegionSeg.wp (pcfgs (F := F)) adm (rds O W wt s0) none phinj EP (defs₀ (F := F)) 𝒱₀
    (K (F := F)).L lv (region O hO W wt s0 lv hlv) d none (fun _ h => by cases h) (fun _ => .ret PUnit.unit) _)
  rw [show (region O hO W wt s0 lv hlv).post d = postR O W wt d from rfl,
    show (region O hO W wt s0 lv hlv).pre d
      = iprop(((SparseCore.T d : Thread nD τ).loc main_v1 ↦{fullShare} wt) ∗ ((SparseCore.T d : Thread nD τ).loc main_v2 ↦{fullShare} s0)
        ∗ owes (SparseCore.T d : Thread nD τ) O W) from rfl]
  iintro ⟨Hb, H1, H2, Ho, Hlev, Hg, Ht, Hk⟩
  isplitl [Hk]
  · iintro ⟨Hb, Hpost⟩
    rw [wp_ret]
    imodintro
    iapply Hk
    isplitl [Hb]
    · iexact Hb
    · iexact Hpost
  isplitl [Hb]
  · iexact Hb
  isplitl [H1 H2 Ho]
  · isplitl [H1]
    · iexact H1
    isplitl [H2]
    · iexact H2
    · iexact Ho
  isplitl [Hlev]
  · iexact Hlev
  isplitl [Hg]
  · iexact Hg
  · iexact Ht

/-- What the launch deals the pipeline: from the rounds library's launch element at the pipeline's staging cells, every
    device's cells' ghost state and duty tokens. -/
theorem fund :
    BI.own (EP (initOf (Pipeline.cells (Pipeline.pin (pcfgs (F := F)) adm) phinj) (Pipeline.launchToks (Pipeline.pin (pcfgs (F := F)) adm) phinj)))
      ⊢ (iprop(|==> bigSep Finset.univ fun d : Dev nD =>
          iprop(Pipeline.cellsGhost (Pipeline.pin (pcfgs (F := F)) adm) EP 0 d ∗ Pipeline.toksInit (Pipeline.pin (pcfgs (F := F)) adm) EP 0 d)) : sProp 𝕄) := by
  refine (Pipeline.fund_ghost (Pipeline.pin (pcfgs (F := F)) adm) EP phinj).trans (BI.bupd_mono ?_)
  rw [bigSep_sep']
  refine sep_mono (bigSep_mono fun c _ => ?_) (bigSep_mono fun c _ => ?_)
  · rw [Finset.univ_unique, bigSep_singleton]; exact BI.Entails.refl _
  · rw [Finset.univ_unique, bigSep_singleton]; exact BI.Entails.refl _

end Cert.KernelIdeal.Retile

end
-- ==== Proof.KI.HostValue.lean ====
/-
  The host operations around the two kernels, read at an index. Before the kernels the row numbers `[16384, 50]` are
  flattened to `[819200]` in row-major order (entry 50 b + s is `ids[b, s]`) and the table `[1000000, 64]` is transposed
  to `[64, 1000000]`. After them the result `[819200, 128]` keeps its first 64 columns and is cut back in row-major
  order into `[16384, 50, 64]` (entry (b, s, d) is entry d of flat row 50 b + s). So if flat row n of the kernels' result
  holds, in its first 64 columns, the table's row that the n-th flattened row number names, the final result is the lookup.
-/
import proofs.«206694_g42322607734994_cont_8to1_b_990_36_alg».proof.KernelIdeal
import proofs.«206694_g42322607734994_cont_8to1_b_990_36_alg».proof.Proof.Gen.KernelIdeal
import proofs.«206694_g42322607734994_cont_8to1_b_990_36_alg».proof.Proof.Spec
import Idealize.ShloMosaic.Lib.ValueIdx
import Idealize.ShloMosaic.Lib.Pipeline.Value

noncomputable section

namespace Cert.KernelIdeal.HostValue

open Cert.KernelIdeal Idealize.ShloMosaic Idealize.ShloMosaic.ValueIdx
open Cert.KernelIdeal.Facts₀

variable {F : FTy → Type} [FloatOps F] [Facts]

/-- The flattened row numbers: `[16384, 50]` in row-major order as `[819200]`. -/
abbrev flat (ids2 : IVec S16384x50 32) : IVec S819200 32 := shapeCast S819200 ids2 shapeCasts_S16384x50_S819200

/-- Entry 50 b + s of the flattened row numbers is `ids[b, s]`. -/
theorem flat_at (ids2 : IVec S16384x50 32) (b : Fin 16384) (s : Fin 50) (n : Fin 819200) (hn : n.val = 50 * b.val + s.val) :
    flat ids2 (ix1 n) = ids2 (ix2 b s) := by
  refine shapeCast_apply ids2 shapeCasts_S16384x50_S819200 (ix1 n) (ix2 b s) ?_
  rw [Shape.rowMajor_val_two, Shape.rowMajor_val_one]
  show b.val * 50 + s.val = n.val
  omega

/-- Every flattened row number is a row number, so it is in range when they all are. -/
theorem flat_lt (ids2 : IVec S16384x50 32) (h : ∀ j, (ids2 j).toNat < 1000000) : ∀ j, (flat ids2 j).toNat < 1000000 :=
  fun j => h (Shape.reshapeEquiv shapeCasts_S16384x50_S819200 j)

/-- The transposed table at (l, r) is the table at (r, l). -/
theorem transpose_at (w : FVec F S1000000x64 .f32) (l : Fin 64) (r : Fin 1000000) :
    (transpose S64x1000000 [1, 0] w transposes_S1000000x64_S64x1000000_1_0) (ix2 l r) = w (ix2 r l) :=
  transpose_apply [1, 0] w transposes_S1000000x64_S64x1000000_1_0 (ix2 l r) (ix2 r l)
    (fun b => match b with | ⟨0, _⟩ => rfl | ⟨1, _⟩ => rfl)

/-- The first 64 columns of `[819200, 128]` at (n, d) are the array at (n, d). -/
theorem slice_at (out : FVec F S819200x128 .f32) (n : Fin 819200) (d : Fin 64) :
    extractStridedSlice S819200x64 ![0, 0] out slices_S819200x128_S819200x64_0_0 (ix2 n d)
      = out (ix2 n ⟨d.val, by omega⟩) :=
  extractStridedSlice_apply ![0, 0] out slices_S819200x128_S819200x64_0_0 (ix2 n d) (ix2 n ⟨d.val, by omega⟩)
    (fun a => match a with | ⟨0, _⟩ => (Nat.zero_add _).symm | ⟨1, _⟩ => (Nat.zero_add _).symm)

/-- `[819200, 64]` cut in row-major order into `[16384, 50, 64]`: entry (b, s, d) is entry (50 b + s, d). -/
theorem unflat_at (v : FVec F S819200x64 .f32) (b : Fin 16384) (s : Fin 50) (d : Fin 64) (n : Fin 819200)
    (hn : n.val = 50 * b.val + s.val) :
    shapeCast S16384x50x64 v shapeCasts_S819200x64_S16384x50x64 (ix3 b s d) = v (ix2 n d) := by
  refine shapeCast_apply v shapeCasts_S819200x64_S16384x50x64 (ix3 b s d) (ix2 n d) ?_
  rw [Shape.rowMajor_val_two, Shape.rowMajor_val_three]
  show n.val * 64 + d.val = (b.val * 50 + s.val) * 64 + d.val
  rw [hn]; ring

/-- The result of the host operations after the kernels, when flat row n of the kernels' result holds in column c the
    table's entry c mod 64 of the row that the n-th flattened row number names: the lookup. -/
theorem result_eq (ids2 : IVec S16384x50 32) (w : FVec F S1000000x64 .f32) (out : FVec F S819200x128 .f32)
    (hout : ∀ j, out j = w (ix2 (Cert.Lookup.rowOf ((shapeCast S819200 ids2 shapeCasts_S16384x50_S819200 : IVec S819200 32) (ix1 (j 0))))
      (⟨(j 1).val % 64, Nat.mod_lt _ (by decide)⟩ : Fin 64))) :
    shapeCast S16384x50x64 (extractStridedSlice S819200x64 ![0, 0] out slices_S819200x128_S819200x64_0_0)
        shapeCasts_S819200x64_S16384x50x64
      = Cert.Lookup.rows (F := F) ids2 w := by
  funext j
  obtain ⟨b, s, d, rfl⟩ : ∃ (b : Fin 16384) (s : Fin 50) (d : Fin 64), j = ix3 b s d := ⟨j 0, j 1, j 2, eq_ix3 j⟩
  have hb := b.isLt
  have hs := s.isLt
  have hd := d.isLt
  let n : Fin 819200 := ⟨50 * b.val + s.val, by omega⟩
  rw [unflat_at _ b s d n rfl, slice_at out n d, hout]
  show w (ix2 (Cert.Lookup.rowOf (flat ids2 (ix1 n))) (⟨d.val % 64, _⟩ : Fin 64)) = w (ix2 (Cert.Lookup.rowOf (ids2 (ix2 b s))) d)
  rw [flat_at ids2 b s n rfl]
  refine congrArg (fun c => w (ix2 (Cert.Lookup.rowOf (ids2 (ix2 b s))) c)) (Fin.ext ?_)
  show d.val % 64 = d.val
  exact Nat.mod_eq_of_lt hd

end Cert.KernelIdeal.HostValue

end
-- ==== Proof.KI.Main.lean ====
/-
  The program on the TensorCore thread inside the launch: the row numbers flattened and the table transposed by the
  host, the transposed table retiled by the first kernel's region, the rows gathered by the call to the SparseCores,
  and the result cut back to its first 64 columns and to three axes by the host. The thread ends holding the two
  arguments as they were and the result at the lookup.
-/
import proofs.«206694_g42322607734994_cont_8to1_b_990_36_alg».proof.Proof.KI.Deal
import proofs.«206694_g42322607734994_cont_8to1_b_990_36_alg».proof.Proof.KI.RetileRegion
import proofs.«206694_g42322607734994_cont_8to1_b_990_36_alg».proof.Proof.KI.HostValue

set_option maxRecDepth 16384

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-- The flat list of row numbers the call reads: the argument's, flattened by the host. -/
abbrev idsOf : (d : Dev nD) → Buf (Elt F) (iLoc d) := fun d => Cert.KernelIdeal.HostValue.flat (m (a0Loc d))

/-- The retiling pipeline's ghost state on device `d`, as the launch deals it. -/
abbrev G (d : Dev nD) : sProp 𝕄 :=
  iprop(Pipeline.cellsGhost (Pipeline.pin (pcfgs (F := F)) Retile.adm) EP 0 d ∗ Pipeline.toksInit (Pipeline.pin (pcfgs (F := F)) Retile.adm) EP 0 d)

/-- What the thread ends holding: the arguments as they were, the result at the lookup. -/
abbrev FIN (d : Dev nD) : sProp 𝕄 :=
  iprop((a0Loc d ↦{fullShare} m (a0Loc d)) ∗ (a1Loc d ↦{fullShare} m (a1Loc d))
    ∗ ((SparseCore.T d : Thread nD τ).loc main_v5 ↦{fullShare} Cert.Lookup.rows (F := F) (m (a0Loc d)) (m (a1Loc d))))

/-- The TensorCore owes nothing at the kernels' own index. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this
  omega

omit [FloatOps F] in
/-- The TensorCore's unscoped buffers are @main's eight arrays. -/
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (iLoc d ↦{fullShare} W main_v0)
      ∗ (wtLoc d ↦{fullShare} W main_v1) ∗ (tLoc d ↦{fullShare} W main_v2) ∗ (oLoc d ↦{fullShare} W main_v3)
      ∗ ((SparseCore.T d : Thread nD τ).loc main_v4 ↦{fullShare} W main_v4) ∗ ((SparseCore.T d : Thread nD τ).loc main_v5 ↦{fullShare} W main_v5)) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The host operations -/

abbrev a0' : DevRef τ sig := Proc.devRef .tc (main_arg0 : Ref sig .tc)
abbrev a1' : DevRef τ sig := Proc.devRef .tc (main_arg1 : Ref sig .tc)
abbrev i' : DevRef τ sig := Proc.devRef .tc (main_v0 : Ref sig .tc)
abbrev wt' : DevRef τ sig := Proc.devRef .tc (main_v1 : Ref sig .tc)
abbrev o' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev opFlat : HloOp τ sig (Elt F) := StableHlo.reshape main_arg0 main_v0 rfl Facts₀.shapeCasts_S16384x50_S819200
abbrev opTr : HloOp τ sig (Elt F) :=
  StableHlo.unary main_arg1 main_v1 ((transpose S64x1000000 [1, 0] · Facts₀.transposes_S1000000x64_S64x1000000_1_0) : (⟨S1000000x64, .f32⟩ : BufTy).Contents (Elt F) → (⟨S64x1000000, .f32⟩ : BufTy).Contents (Elt F))
abbrev opSl : HloOp τ sig (Elt F) :=
  StableHlo.unary main_v3 main_v4 ((extractStridedSlice S819200x64 ![0, 0] · Facts₀.slices_S819200x128_S819200x64_0_0) : (⟨S819200x128, .f32⟩ : BufTy).Contents (Elt F) → (⟨S819200x64, .f32⟩ : BufTy).Contents (Elt F))
abbrev opCut : HloOp τ sig (Elt F) := StableHlo.reshape main_v4 main_v5 rfl Facts₀.shapeCasts_S819200x64_S16384x50x64

omit [FloatOps F] in
/-- Two distinct arrays held. -/
theorem held_pair (d : Dev nD) (x y : DevRef τ sig) (hxy : x ≠ y) (W : Valuation τ sig (Elt F)) :
    (held (SparseCore.T d : Thread nD τ) {x, y} W : sProp 𝕄) = iprop(((d, x) ↦{fullShare} W x) ∗ ((d, y) ↦{fullShare} W y)) := by
  unfold held
  rw [SparseCore.bigSep_insert' (by rw [Finset.mem_singleton]; exact hxy), bigSep_singleton]

/-- The launch valuation, -/
def V0 (d : Dev nD) : Valuation τ sig (Elt F) := fun b => m (d, b)
/-- and the same with one array at other contents. -/
def V1 (d : Dev nD) (b : DevRef τ sig) (f : b.ty.Contents (Elt F)) : Valuation τ sig (Elt F) := Function.update (V0 m d) b f

/-! ### What each host operation leaves -/

theorem flat_a0 (d : Dev nD) : (opFlat (F := F)).result (V0 m d) a0' = m (a0Loc d) :=
  StableHlo.reshape_result_ne _ _ _ _ _ _ (V0 m d) (r := main_arg0) (by decide)
theorem flat_i (d : Dev nD) : (opFlat (F := F)).result (V0 m d) i' = idsOf m d :=
  StableHlo.reshape_result main_arg0 main_v0 rfl _ _ _ (V0 m d)

theorem tr_a1 (d : Dev nD) : (opTr (F := F)).result (V0 m d) a1' = m (a1Loc d) :=
  StableHlo.unary_result_ne _ _ _ _ _ (V0 m d) (r := main_arg1) (by decide)
/-- The transposed table. -/
abbrev wtOf (d : Dev nD) : Vec F S64x1000000 .f32 :=
  transpose S64x1000000 [1, 0] (m (a1Loc d)) Facts₀.transposes_S1000000x64_S64x1000000_1_0
theorem tr_wt (d : Dev nD) : (opTr (F := F)).result (V0 m d) wt' = wtOf m d :=
  StableHlo.unary_result main_arg1 main_v1 _ _ _ (V0 m d)

theorem sl_o (d : Dev nD) (f : Buf (Elt F) (oLoc d)) : (opSl (F := F)).result (V1 m d o' f) o' = f :=
  (StableHlo.unary_result_ne _ _ _ _ _ (V1 m d o' f) (r := main_v3) (by decide)).trans (Function.update_self _ _ _)
theorem sl_v4 (d : Dev nD) (f : Buf (Elt F) (oLoc d)) :
    (opSl (F := F)).result (V1 m d o' f) v4' = extractStridedSlice S819200x64 ![0, 0] f Facts₀.slices_S819200x128_S819200x64_0_0 :=
  (StableHlo.unary_result main_v3 main_v4 _ _ _ (V1 m d o' f)).trans (by rw [show V1 m d o' f o' = f from Function.update_self _ _ _])

theorem cut_v5 (d : Dev nD) (g : Vec F S819200x64 .f32) :
    (opCut (F := F)).result (V1 m d v4' g) v5' = shapeCast S16384x50x64 g Facts₀.shapeCasts_S819200x64_S16384x50x64 :=
  (StableHlo.reshape_result main_v4 main_v5 rfl _ _ _ (V1 m d v4' g)).trans (by rw [show V1 m d v4' g v4' = g from Function.update_self _ _ _]; rfl)

/-! ### The pairs of arrays the host operations hold, before and after -/

theorem held_flat (d : Dev nD) :
    (held (SparseCore.T d : Thread nD τ) {a0', i'} ((opFlat (F := F)).result (V0 m d)) : sProp 𝕄)
      = iprop((a0Loc d ↦{fullShare} m (a0Loc d)) ∗ (iLoc d ↦{fullShare} idsOf m d)) := by
  rw [held_pair d a0' i' (by decide), flat_a0, flat_i]
theorem held_tr (d : Dev nD) :
    (held (SparseCore.T d : Thread nD τ) {a1', wt'} ((opTr (F := F)).result (V0 m d)) : sProp 𝕄)
      = iprop((a1Loc d ↦{fullShare} m (a1Loc d)) ∗ (wtLoc d ↦{fullShare} wtOf m d)) := by
  rw [held_pair d a1' wt' (by decide), tr_a1, tr_wt]
theorem held_sl0 (d : Dev nD) (f : Buf (Elt F) (oLoc d)) :
    (held (SparseCore.T d : Thread nD τ) {o', v4'} (V1 m d o' f) : sProp 𝕄)
      = iprop((oLoc d ↦{fullShare} f) ∗ ((SparseCore.T d : Thread nD τ).loc main_v4 ↦{fullShare} m ((SparseCore.T d : Thread nD τ).loc main_v4))) := by
  rw [held_pair d o' v4' (by decide), show V1 m d o' f o' = f from Function.update_self _ _ _,
    show V1 m d o' f v4' = m (d, v4') from Function.update_of_ne (show v4' ≠ o' by decide) _ _]
theorem held_sl (d : Dev nD) (f : Buf (Elt F) (oLoc d)) :
    (held (SparseCore.T d : Thread nD τ) {o', v4'} ((opSl (F := F)).result (V1 m d o' f)) : sProp 𝕄)
      = iprop((oLoc d ↦{fullShare} f)
        ∗ ((SparseCore.T d : Thread nD τ).loc main_v4 ↦{fullShare} extractStridedSlice S819200x64 ![0, 0] f Facts₀.slices_S819200x128_S819200x64_0_0)) := by
  rw [held_pair d o' v4' (by decide), sl_o, sl_v4]
theorem held_cut0 (d : Dev nD) (g : Vec F S819200x64 .f32) :
    (held (SparseCore.T d : Thread nD τ) {v4', v5'} (V1 m d v4' g) : sProp 𝕄)
      = iprop(((SparseCore.T d : Thread nD τ).loc main_v4 ↦{fullShare} g)
        ∗ ((SparseCore.T d : Thread nD τ).loc main_v5 ↦{fullShare} m ((SparseCore.T d : Thread nD τ).loc main_v5))) := by
  rw [held_pair d v4' v5' (by decide), show V1 m d v4' g v4' = g from Function.update_self _ _ _,
    show V1 m d v4' g v5' = m (d, v5') from Function.update_of_ne (show v5' ≠ v4' by decide) _ _]
theorem held_cut (d : Dev nD) (g : Vec F S819200x64 .f32) :
    (held (SparseCore.T d : Thread nD τ) {v4', v5'} ((opCut (F := F)).result (V1 m d v4' g)) : sProp 𝕄)
      ⊢ ((SparseCore.T d : Thread nD τ).loc main_v5 ↦{fullShare} shapeCast S16384x50x64 g Facts₀.shapeCasts_S819200x64_S16384x50x64 : sProp 𝕄) := by
  rw [held_pair d v4' v5' (by decide), cut_v5]
  exact sep_elim_right

/-- What the TensorCore owes and has recorded, taken out of its state before the call and put back. -/
theorem tcSt_owes (d : Dev nD) :
    (K (F := F)).tcSt EH d 0 ⊢ (iprop(∃ W, ⌜(K (F := F)).WBelow (SparseCore.T d) W 0⌝ ∗ owes (SparseCore.T d : Thread nD τ) ((K (F := F)).Otc d 0) W
        ∗ ((∃ W', ⌜(K (F := F)).WBelow (SparseCore.T d) W' 0⌝ ∗ owes (SparseCore.T d : Thread nD τ) ((K (F := F)).Otc d 0) W') -∗ (K (F := F)).tcSt EH d 0)) : sProp 𝕄) := by
  unfold SparseCore.Cfg.tcSt
  iintro ⟨⟨%W, %hW, Ho⟩, Hrest⟩
  iexists W
  isplitr
  · ipureintro; exact hW
  isplitl [Ho]
  · iexact Ho
  iintro ⟨%W', %hW', Ho⟩
  isplitl [Ho]
  · iexists W'
    isplitr
    · ipureintro; exact hW'
    · iexact Ho
  · iexact Hrest

theorem hmain (hids : ∀ d j, (m (a0Loc d) j).toNat < 1000000) (κ : GSem nD τ sig → ℕ) (d : Dev nD) :
    iprop((K (F := F)).ctx EH (P m (idsOf m)) κ ∗ (K (F := F)).tcSt EH d 0 ∗ (K (F := F)).tcRes m ρ d ∗ G d)
      ⊢ wp frame (wpE ((K (F := F)).defs (D (F := F))) 𝒱 (SparseCore.T d : Thread nD τ) none) Set.univ (main d)
          fun _ => iprop((K (F := F)).tcSt EH d 1 ∗ FIN m d) := by
  unfold SparseCore.Cfg.tcRes
  rw [unscopedBufs_eq]
  simp only [main, wp_bind, wp_pure, Prog.lift]
  iintro ⟨#Hctx, Hst, ⟨Hb, ⟨Ha0, Ha1, Hi, Hwt, Ht, Ho, H4, H5⟩, -, -⟩, ⟨Hg, Htk⟩⟩
  -- the row numbers flattened
  iapply (wp_hlo_within 𝒱 (SparseCore.T d) none Set.univ (op := opFlat) (S := {a0', i'}) (Finset.Subset.refl _) (V := V0 m d)) $$ [Hb Ha0 Hi]
  · isplitl [Hb]; · iexact Hb
    rw [held_pair d a0' i' (by decide)]
    isplitl [Ha0]; · iexact Ha0
    iexact Hi
  iintro ⟨Hb, Hh⟩
  ihave Hh' := (Entails.of_eq (held_flat m d)) $$ Hh
  icases Hh' with ⟨Ha0, Hi⟩
  rw [wp_ret]; imodintro
  -- the table transposed
  iapply (wp_hlo_within 𝒱 (SparseCore.T d) none Set.univ (op := opTr) (S := {a1', wt'}) (Finset.Subset.refl _) (V := V0 m d)) $$ [Hb Ha1 Hwt]
  · isplitl [Hb]; · iexact Hb
    rw [held_pair d a1' wt' (by decide)]
    isplitl [Ha1]; · iexact Ha1
    iexact Hwt
  iintro ⟨Hb, Hh⟩
  ihave Hh' := (Entails.of_eq (held_tr m d)) $$ Hh
  icases Hh' with ⟨Ha1, Hwt⟩
  rw [wp_ret]; imodintro
  -- the retiling region, the core's debts taken out of its state and put back
  ihave Hst' := (tcSt_owes d) $$ Hst
  icases Hst' with ⟨%W, %hW, Howes, Hback⟩
  iapply (Retile.wp_retile d ((K (F := F)).Otc d 0) (Otc_none d 0) W (wtOf m d) (m (tLoc d)) (K (F := F)).lev (K (F := F)).refines_self Prog.ret _)
  isplitl [Hb]; · iexact Hb
  isplitl [Hwt]; · iexact Hwt
  isplitl [Ht]; · iexact Ht
  isplitl [Howes]; · iexact Howes
  isplitr; · iapply (SparseCore.Cfg.ctx_levAts κ); iexact Hctx
  isplitl [Hg]; · iexact Hg
  isplitl [Htk]; · iexact Htk
  iintro ⟨Hb, Hpost⟩
  unfold Retile.postR
  icases Hpost with ⟨%std, %W', %hpost, Hwt, Ht, Howes⟩
  rw [wp_ret]; imodintro
  have hstd : IsTable m d std := fun r l hr =>
    (hpost.1 r l hr).trans (Cert.KernelIdeal.HostValue.transpose_at (m (a1Loc d)) _ _)
  have hW' : (K (F := F)).WBelow (SparseCore.T d) W' 0 := fun p hp => by
    rcases hpost.2 p hp with h | h
    · exact hW p h
    · rw [h, SparseCore.Cfg.lev_none]
  -- the call
  iapply ((K (F := F)).wp_run (D (F := F)) 𝒱 (EH := EH) (P := P m (idsOf m)) κ d 0)
  isplitr; · iexact Hctx
  isplitl [Hback Howes]
  · iapply Hback
    iexists W'
    isplitr
    · ipureintro; exact hW'
    · iexact Howes
  isplitl [Hi Ho Ht]
  · iapply (deal m (idsOf m) d std hstd)
    isplitl [Hi]; · iexact Hi
    isplitl [Ho]; · iexists _; iexact Ho
    iexact Ht
  iintro ⟨Hst, Hdn⟩
  ihave Hdn' := (undeal m (idsOf m) d) $$ Hdn
  icases Hdn' with ⟨Hi, Ho⟩
  -- the first 64 columns
  iapply (wp_hlo_within 𝒱 (SparseCore.T d) none Set.univ (op := opSl) (S := {o', v4'}) (Finset.Subset.refl _) (V := V1 m d o' (outG m (idsOf m) d))) $$ [Hb Ho H4]
  · isplitl [Hb]; · iexact Hb
    rw [held_sl0]
    isplitl [Ho]; · iexact Ho
    iexact H4
  iintro ⟨Hb, Hh⟩
  ihave Hh' := (Entails.of_eq (held_sl m d (outG m (idsOf m) d))) $$ Hh
  icases Hh' with ⟨Ho, H4⟩
  rw [wp_ret]; imodintro
  -- cut back to three axes
  iapply (wp_hlo_within 𝒱 (SparseCore.T d) none Set.univ (op := opCut) (S := {v4', v5'}) (Finset.Subset.refl _)
    (V := V1 m d v4' (extractStridedSlice S819200x64 ![0, 0] (outG m (idsOf m) d) Facts₀.slices_S819200x128_S819200x64_0_0))) $$ [Hb H4 H5]
  · isplitl [Hb]; · iexact Hb
    rw [held_cut0]
    isplitl [H4]; · iexact H4
    iexact H5
  iintro ⟨Hb, Hh⟩
  ihave H5 := (held_cut m d _) $$ Hh
  rw [wp_ret]; imodintro; imodintro
  isplitl [Hst]; · iexact Hst
  isplitl [Ha0]; · iexact Ha0
  isplitl [Ha1]; · iexact Ha1
  rw [← Cert.KernelIdeal.HostValue.result_eq (m (a0Loc d)) (m (a1Loc d)) (outG m (idsOf m) d) (fun j => rfl)]
  iexact H5

end Cert.KernelIdeal.Run

end
-- ==== Proof.KI.LaunchElem.lean ====
/-
  The launch's ghost element and the reading of the final memory. The element pairs the rounds of the call's handshakes
  with the rounds of the TensorCore pipeline's staging cells (and the tiles' transfer counters, at their unit): the first
  is kept for the call's protocol, the second funds every device's staging cells at round 0 with their first tokens, and
  the payload's extra per-thread part is empty. At the end, the two arguments held at their launch contents and the
  result buffer held at the lookup say, against the physical state, that the memory holds exactly those contents.
-/
import proofs.«206694_g42322607734994_cont_8to1_b_990_36_alg».proof.Proof.KI.Pay
import proofs.«206694_g42322607734994_cont_8to1_b_990_36_alg».proof.Proof.KI.RetileRegion

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)
variable (ids : (d : Dev nD) → Buf (Elt F) (iLoc d))

/-! ## The launch element -/

/-- The handshakes' rounds at their start, the staging cells' rounds at their start with the launch's tokens, the
    transfer counters at their unit. -/
def u₀ : UU :=
  (initOf (K (F := F)).hsCells (K (F := F)).hsToks,
    (initOf (Pipeline.cells (Pipeline.pin (pcfgs (F := F)) Retile.adm) Retile.phinj)
      (Pipeline.launchToks (Pipeline.pin (pcfgs (F := F)) Retile.adm) Retile.phinj), 1))

omit m ids in
theorem bigSep_emp' {I : Type} (s : Finset I) : (bigSep s fun _ => iprop(emp)) = (iprop(emp) : sProp 𝕄) := bigSep_emp_const s

/-- The element splits into the handshakes' rounds, every device's staging cells at round 0 with their first tokens,
    and the payload's (empty) per-thread part. -/
theorem hu₀ : (ownU (u₀ (F := F)) : sProp 𝕄)
    ⊢ |={Set.univ}=> iprop(BI.own (EH (initOf (K (F := F)).hsCells (K (F := F)).hsToks))
        ∗ (bigSep Finset.univ fun d : Dev nD =>
            iprop(Pipeline.cellsGhost (Pipeline.pin (pcfgs (F := F)) Retile.adm) EP 0 d ∗ Pipeline.toksInit (Pipeline.pin (pcfgs (F := F)) Retile.adm) EP 0 d))
        ∗ bigSep Finset.univ fun thr : Thread nD τ => bigSep Finset.univ fun q : Fin 1 => (P m ids).x q thr) := by
  unfold u₀
  iintro Hu
  ihave H := (ownU_triple (F := F) (initOf (K (F := F)).hsCells (K (F := F)).hsToks)
    (initOf (Pipeline.cells (Pipeline.pin (pcfgs (F := F)) Retile.adm) Retile.phinj)
      (Pipeline.launchToks (Pipeline.pin (pcfgs (F := F)) Retile.adm) Retile.phinj)) (1 : Counters)) $$ Hu
  icases H with ⟨HH, HP⟩
  imod (Retile.fund (F := F)) $$ HP with Hg
  imodintro
  isplitl [HH]; · iexact HH
  isplitl [Hg]; · iexact Hg
  rw [show (bigSep Finset.univ fun thr : Thread nD τ => bigSep Finset.univ fun q : Fin 1 => (P (F := F) m ids).x q thr) = bigSep Finset.univ fun _ => iprop(emp) from
    bigSep_congr fun _ _ => bigSep_univ_of_subsingleton (0 : Fin 1), bigSep_emp']
  iempintro

/-! ## The final memory -/

/-- The final state holds the two arguments as launched and the lookup in the result buffer. -/
def fq (d : Dev nD) (s' : Phys nD τ sig (Elt F)) : Prop :=
  s'.mem.mem (a0Loc d) = m (a0Loc d) ∧ s'.mem.mem (a1Loc d) = m (a1Loc d)
    ∧ s'.mem.mem ((SparseCore.T d).loc main_v5) = Cert.Lookup.rows (F := F) (m (a0Loc d)) (m (a1Loc d))

omit ids in
set_option maxRecDepth 16384 in
/-- The three buffers held whole agree with the physical state, element by element. -/
theorem hfin (d : Dev nD) (s' : Phys nD τ sig (Elt F)) :
    iprop(((a0Loc d ↦{fullShare} m (a0Loc d)) ∗ (a1Loc d ↦{fullShare} m (a1Loc d))
        ∗ ((SparseCore.T d).loc main_v5 ↦{fullShare} Cert.Lookup.rows (F := F) (m (a0Loc d)) (m (a1Loc d)))) ∗ SI s')
      ⊢ (⌜fq m d s'⌝ : sProp 𝕄) := by
  iintro ⟨⟨H0, H1, H5⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := (SparseCore.T d).loc main_v5) (I := Finset.univ) (q := fullShare)
    (f := Cert.Lookup.rows (F := F) (m (a0Loc d)) (m (a1Loc d)))) $$ [HSI H5]
  · isplitl [HSI] <;> iassumption
  icases H with %h5
  ipureintro
  exact ⟨funext fun i => h0 i (Finset.mem_univ i), funext fun i => h1 i (Finset.mem_univ i), funext fun i => h5 i (Finset.mem_univ i)⟩

/-! ## The claim's post -/

/-- On every device: the result buffer holds the lookup, the arguments what they held. -/
def QC : PUnit × MemSt nD τ sig (Elt F) → Prop := fun r => ∀ c : Dev nD,
  r.2.mem ((SparseCore.T c).loc main_v5) = Cert.Lookup.rows (F := F) (m (a0Loc c)) (m (a1Loc c))
    ∧ r.2.mem (a0Loc c) = m (a0Loc c) ∧ r.2.mem (a1Loc c) = m (a1Loc c)

omit ids in
theorem hQ (s' : Phys nD τ sig (Elt F)) (h : ∀ d, fq m d s') : QC m (⟨⟩, s'.mem) :=
  fun c => ⟨(h c).2.2, (h c).1, (h c).2.1⟩

end Cert.KernelIdeal.Run

end
-- ==== Proof.KI.Frame.lean ====
/-
  The program's run: every weakly fair execution of the device's thirty-five threads — @main on the TensorCore, the
  two sequencers, the thirty-two tiles — ends, nothing faulting, with the result array holding the looked-up rows
  and the two arguments as they were. The launch theorem of a SparseCore program, at one vector-subcore call: the
  tile's task, how the call's operands split among the tiles, @main's proof, the launch element, and how the final
  memory reads.
-/
import proofs.«206694_g42322607734994_cont_8to1_b_990_36_alg».proof.Proof.KI.TileObl
import proofs.«206694_g42322607734994_cont_8to1_b_990_36_alg».proof.Proof.KI.Main
import proofs.«206694_g42322607734994_cont_8to1_b_990_36_alg».proof.Proof.KI.LaunchElem

noncomputable section

namespace Cert.KernelIdeal.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

theorem run_main [∀ e, Nonempty (Elt F e)] (hids : ∀ d j, (m (a0Loc d) j).toNat < 1000000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (idsOf m)) facts v₀
    (fun q hq => match q with | 0 => nomatch hq)
    (fun q _ => match q with | 0 => tileObl m (idsOf m) facts (fun d => Cert.KernelIdeal.HostValue.flat_lt (m (a0Loc d)) (hids d)))
    (fun q _ => match q with | 0 => SparseCore.Cfg.VecSplit.of_plain (vecSplit m (idsOf m)))
    m ρ main G (FIN m) (u₀ (F := F)) (sep_elim_left.trans (hu₀ m (idsOf m))) (hmain m ρ hids) (fq m) (hfin m) (QC m) (hQ m)

end Cert.KernelIdeal.Run

end
-- ==== Proof.KB.Setup.lean ====
/-
  The program as the launch of its SparseCore call sees it, and the ghost state of its proof: the rounds of the
  launch's handshakes, the rounds of the TensorCore pipeline's staging cells, and the counters of the tiles' own
  copies (which need no schedule: each is issued and waited for by one thread on a semaphore of its own).
-/
import proofs.«206694_g42322607734994_cont_8to1_b_990_36_alg».proof.Kernel
import proofs.«206694_g42322607734994_cont_8to1_b_990_36_alg».proof.Proof.Gen.Kernel
import proofs.«206694_g42322607734994_cont_8to1_b_990_36_alg».proof.Proof.Gen.Kernel.Skeleton
import proofs.«206694_g42322607734994_cont_8to1_b_990_36_alg».proof.Proof.Gen.Kernel.Launch
import proofs.«206694_g42322607734994_cont_8to1_b_990_36_alg».proof.Proof.Gen.Kernel.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.Run

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline's staging cells' rounds: the left factor of the right factor. (The counters are found by instance.) -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

/-- The launch element splits into its three parts. -/
theorem ownU_triple (a : UH) (b : UP) (c : Counters) :
    (ownU ((a, (b, c)) : UU) : sProp 𝕄) ⊢ iprop(BI.own (EH a) ∗ BI.own (EP b)) := by
  iintro H
  ihave H' := (ownU_pair a (b, c)) $$ H
  icases H' with ⟨Ha, Hbc⟩
  ihave H'' := (own_pair_emb (embR : Emb (UP × Counters) 𝕄) b c) $$ Hbc
  icases H'' with ⟨Hb, -⟩
  isplitl [Ha]; · iexact Ha
  iexact Hb

end Cert.Kernel.Run

end
-- ==== Proof.KB.Pay.lean ====
/-
  What the SparseCore call's handshakes carry. The call gathers, for each of the 819200 row numbers of the flat list
  `ids`, that row of the table into the matching row of the output. The thirty-two tiles (two SparseCores of sixteen)
  divide the list: tile (c, s) is worker 2 s + c and owns rows 25600 w .. 25600 (w + 1) of the list and of the output.
  Every tile reads the whole table, so each is handed a read share of it. A tile gives back its rows of the list
  unchanged and its rows of the output holding the looked-up table rows (`outG`).
-/
import proofs.«206694_g42322607734994_cont_8to1_b_990_36_alg».proof.Proof.KB.Setup
import proofs.«206694_g42322607734994_cont_8to1_b_990_36_alg».proof.Proof.Spec

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The arrays -/

abbrev a0Loc (d : Dev nD) : Loc nD τ sig := (SparseCore.T d).loc main_arg0
abbrev a1Loc (d : Dev nD) : Loc nD τ sig := (SparseCore.T d).loc main_arg1
abbrev iLoc (d : Dev nD) : Loc nD τ sig := (SparseCore.T d).loc main_v0
abbrev wtLoc (d : Dev nD) : Loc nD τ sig := (SparseCore.T d).loc main_v1
abbrev tLoc (d : Dev nD) : Loc nD τ sig := (SparseCore.T d).loc main_v2
abbrev oLoc (d : Dev nD) : Loc nD τ sig := (SparseCore.T d).loc main_v3

-- The flat list of row numbers the call reads (a parameter: @main computes it before the call).
variable (ids : (d : Dev nD) → Buf (Elt F) (iLoc d))

/-- The table as the call finds it agrees with the argument table on the argument's rows: lanes 0..63 and again
    lanes 64..127 of row r are row r of the argument. (Rows past the argument's height hold nothing the proof names.) -/
def IsTable (d : Dev nD) (std : Buf (Elt F) (tLoc d)) : Prop :=
  ∀ (r : Fin 1000448) (l : Fin 128) (hr : r.val < 1000000),
    std (ix2 r l) = m (a1Loc d) (ix2 (⟨r.val, hr⟩ : Fin 1000000) (⟨l.val % 64, Nat.mod_lt _ (by decide)⟩ : Fin 64))

/-- What the call leaves in the output: row i holds (twice over, as the table does) the argument table's row `ids[i]`. -/
def outG (d : Dev nD) : Buf (Elt F) (oLoc d) :=
  fun j => m (a1Loc d) (ix2 (Cert.Lookup.rowOf (ids d (ix1 (j 0)))) (⟨(j 1).val % 64, Nat.mod_lt _ (by decide)⟩ : Fin 64))

/-! ## The workers' rows -/

theorem idiv : 32 ∣ S819200.size 0 := ⟨25600, rfl⟩
theorem odiv : 32 ∣ S819200x128.size 0 := ⟨25600, rfl⟩
abbrev iPart (w : Fin 32) : Rect S819200 := Rect.part (s := S819200) (a₀ := 0) idiv w
abbrev oPart (w : Fin 32) : Rect S819200x128 := Rect.part (s := S819200x128) (a₀ := 0) odiv w
abbrev iSet (w : Fin 32) : Finset S819200.Idx := (iPart w).set
abbrev oSet (w : Fin 32) : Finset S819200x128.Idx := (oPart w).set

omit m ids in
theorem mem_iSet {w : Fin 32} {j : S819200.Idx} : j ∈ iSet w ↔ 25600 * w.val ≤ (j 0).val ∧ (j 0).val < 25600 * w.val + 25600 := by
  unfold iSet iPart Rect.part Rect.block
  rw [Rect.mem_set_unit]
  constructor
  · intro h; have := h 0; simp [Shape.partIx, Shape.partSize] at this; omega
  · intro h a
    match a with
    | ⟨0, _⟩ => simp [Shape.partIx, Shape.partSize]; omega
omit m ids in
theorem mem_oSet {w : Fin 32} {j : S819200x128.Idx} : j ∈ oSet w ↔ 25600 * w.val ≤ (j 0).val ∧ (j 0).val < 25600 * w.val + 25600 := by
  unfold oSet oPart Rect.part Rect.block
  rw [Rect.mem_set_unit]
  constructor
  · intro h; have := h 0; simp [Shape.partIx, Shape.partSize] at this; omega
  · intro h a
    match a with
    | ⟨0, _⟩ => simp [Shape.partIx, Shape.partSize]; omega
    | ⟨1, _⟩ => simp [Shape.partIx, Shape.partSize]; exact (j 1).isLt

/-- Tile (c, s) is worker 2 s + c. -/
def wid (c : Fin 2) (s : Fin 16) : Fin 32 := ⟨2 * s.val + c.val, by omega⟩

/-- Worker w's read share of the table. -/
abbrev tq (w : Fin 32) : PosShare TreeShare := Transfers.shareTok fullShare 32 w

/-! ## What the handshakes carry -/

/-- A tile's task: its rows of the list, its rows of the output at anything, its share of the table. -/
def goR (d : Dev nD) (w : Fin 32) : sProp 𝕄 :=
  iprop((iLoc d ↦[iSet w]{fullShare} ids d) ∗ (∃ f, oLoc d ↦[oSet w]{fullShare} f)
    ∗ ∃ std, ⌜IsTable m d std⌝ ∗ tLoc d ↦{tq w} std)
/-- What it gives back: its rows of the list, its rows of the output looked up. -/
def tdR (d : Dev nD) (w : Fin 32) : sProp 𝕄 :=
  iprop((iLoc d ↦[iSet w]{fullShare} ids d) ∗ oLoc d ↦[oSet w]{fullShare} outG m ids d)

instance goR_storable (d : Dev nD) (w : Fin 32) : BI.Storable (upEmb : UEmb _ 𝕄) (goR m ids d w) := by unfold goR; infer_instance
instance tdR_storable (d : Dev nD) (w : Fin 32) : BI.Storable (upEmb : UEmb _ 𝕄) (tdR m ids d w) := by unfold tdR; infer_instance

/-- The one call hands each SparseCore its sixteen tiles' tasks, and takes their results back. -/
def P : (K (F := F)).Pay (nD := nD) (Val := Elt F) (Name := ℕ) (U := UU) where
  st := fun q d c => match q with | 0 => bigSep Finset.univ fun s : Fin 16 => goR m ids d (wid (Fin.cast nCore_zero c) s)
  dn := fun q d c => match q with | 0 => bigSep Finset.univ fun s : Fin 16 => tdR m ids d (wid (Fin.cast nCore_zero c) s)
  go := fun q d c i => match q with | 0 => goR m ids d (wid (Fin.cast nCore_zero c) (Fin.cast nSub_zero i))
  td := fun q d c i => match q with | 0 => tdR m ids d (wid (Fin.cast nCore_zero c) (Fin.cast nSub_zero i))
  x := fun _ _ => iprop(emp)

instance P_storable : (P (F := F) m ids).IsStorable where
  st q d c := match q with
    | 0 => (inferInstance : BI.Storable (upEmb : UEmb _ 𝕄) (bigSep Finset.univ fun s : Fin 16 => goR m ids d (wid (Fin.cast nCore_zero c) s)))
  dn q d c := match q with
    | 0 => (inferInstance : BI.Storable (upEmb : UEmb _ 𝕄) (bigSep Finset.univ fun s : Fin 16 => tdR m ids d (wid (Fin.cast nCore_zero c) s)))
  go q d c i := match q with
    | 0 => (inferInstance : BI.Storable (upEmb : UEmb _ 𝕄) (goR m ids d (wid (Fin.cast nCore_zero c) (Fin.cast nSub_zero i))))
  td q d c i := match q with
    | 0 => (inferInstance : BI.Storable (upEmb : UEmb _ 𝕄) (tdR m ids d (wid (Fin.cast nCore_zero c) (Fin.cast nSub_zero i))))

end Cert.Kernel.Run

end
-- ==== Proof.KB.Chunks.lean ====
/-
  The geometry of a tile's task: which worker a tile is, and the fifty chunks of 512 rows its 25600 rows fall into —
  chunk k of worker w is rows 25600 w + 512 k .. 25600 w + 512 k + 511 of the list and of the output, inside the
  worker's own rows.
-/
import proofs.«206694_g42322607734994_cont_8to1_b_990_36_alg».proof.Proof.KB.Pay

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S819200 EltTy.i32)
local notation "tV" => (Memref.whole Cert.Kernel.main_v2_scv : Memref Cert.Kernel.sig Kind.scVector Space.hbm Cert.Kernel.S1000448x128 EltTy.f32)
local notation "oV" => (Memref.whole Cert.Kernel.main_v3_scv : Memref Cert.Kernel.sig Kind.scVector Space.hbm Cert.Kernel.S819200x128 EltTy.f32)
local notation "sV" => (Memref.whole Cert.Kernel.cc1_scratch0 : Memref Cert.Kernel.sig Kind.scVector Space.vmem Cert.Kernel.S512 EltTy.i32)
local notation "rV" => (Memref.whole Cert.Kernel.cc1_scratch1 : Memref Cert.Kernel.sig Kind.scVector Space.vmem Cert.Kernel.S512x128 EltTy.f32)

variable (m : (ℓ : Loc nD τ sig) → Buf (Elt F) ℓ) (ids : (d : Dev nD) → Buf (Elt F) (iLoc d))

section Tile

variable (d : Dev nD) (L : grid1.Coords)

abbrev cV (L : grid1.Coords) : Fin τ.nSC := (L 0).castLE hcore1
abbrev jV (L : grid1.Coords) : Fin τ.nSub := (L 1).castLE hsub1
omit m ids in
theorem bound_zero : grid1.bound 0 = 2 := rfl
omit m ids in
theorem bound_one : grid1.bound 1 = 16 := rfl
/-- The worker a tile's coordinates name. -/
abbrev wL (L : grid1.Coords) : Fin 32 := wid (Fin.cast bound_zero (L 0)) (Fin.cast bound_one (L 1))
omit m ids in
theorem wL_val : (wL L).val = 2 * (L 1).val + (L 0).val := rfl

/-- Chunk k of the list and of the output, and the whole table, as the task addresses them. -/
abbrev iChunk (L : grid1.Coords) (k : Fin k1_t1_loop.trips) : Memref sig .scVector .hbm S512 .i32 :=
  (iV).slice (Rect.unit (s := S819200) (k1_off1 L k) S512.size (k1_off1_inb L k)) (fun _ => rfl)
abbrev oChunk (L : grid1.Coords) (k : Fin k1_t1_loop.trips) : Memref sig .scVector .hbm S512x128 .f32 :=
  (oV).slice (Rect.unit (s := S819200x128) (k1_off2 L k) S512x128.size (k1_off2_inb L k)) (fun _ => rfl)
abbrev tAll : Memref sig .scVector .hbm S1000448x128 .f32 :=
  (tV).slice (Rect.unit (s := S1000448x128) ![0, 0] S1000448x128.size inb_S1000448x128_S1000448x128_0_0) (fun _ => rfl)

omit m ids in
theorem trips_le (k : Fin k1_t1_loop.trips) : k.val < 50 := lt_of_lt_of_le k.isLt k1_t1_abs.2.1

omit m ids in
/-- Where a chunk's own index sits in the list: row 25600 w + 512 k + y. -/
theorem iChunk_emb (k : Fin k1_t1_loop.trips) (y : S512.Idx) :
    ((iChunk L k).view.emb y 0).val = 25600 * (wL L).val + 512 * k.val + (y 0).val := by
  show (((View.whole (main_v0_scv : Ref sig .scVector)).slice (Rect.unit (s := S819200) (k1_off1 L k) S512.size (k1_off1_inb L k))).emb y 0).val = _
  rw [View.emb_slice]
  show ((Rect.unit (s := S819200) (k1_off1 L k) S512.size (k1_off1_inb L k)).emb y 0).val = _
  rw [Rect.emb_apply, Rect.off_unit, Rect.stride_unit, wL_val]
  have h := congrFun (k1_off1_eq L k) 0
  simp only [Matrix.cons_val_zero] at h
  rw [h]; omega
omit m ids in
theorem oChunk_emb0 (k : Fin k1_t1_loop.trips) (y : S512x128.Idx) :
    ((oChunk L k).view.emb y 0).val = 25600 * (wL L).val + 512 * k.val + (y 0).val := by
  show (((View.whole (main_v3_scv : Ref sig .scVector)).slice (Rect.unit (s := S819200x128) (k1_off2 L k) S512x128.size (k1_off2_inb L k))).emb y 0).val = _
  rw [View.emb_slice]
  show ((Rect.unit (s := S819200x128) (k1_off2 L k) S512x128.size (k1_off2_inb L k)).emb y 0).val = _
  rw [Rect.emb_apply, Rect.off_unit, Rect.stride_unit, wL_val]
  have h := congrFun (k1_off2_eq L k) 0
  simp only [Matrix.cons_val_zero] at h
  rw [h]; omega
omit m ids in
theorem oChunk_emb1 (k : Fin k1_t1_loop.trips) (y : S512x128.Idx) :
    ((oChunk L k).view.emb y 1).val = (y 1).val := by
  show (((View.whole (main_v3_scv : Ref sig .scVector)).slice (Rect.unit (s := S819200x128) (k1_off2 L k) S512x128.size (k1_off2_inb L k))).emb y 1).val = _
  rw [View.emb_slice]
  show ((Rect.unit (s := S819200x128) (k1_off2 L k) S512x128.size (k1_off2_inb L k)).emb y 1).val = _
  rw [Rect.emb_apply, Rect.off_unit, Rect.stride_unit]
  have h := congrFun (k1_off2_eq L k) 1
  simp only [Matrix.cons_val_one, Matrix.cons_val_zero] at h
  rw [h]; omega

omit m ids in
theorem mem_iChunk {k : Fin k1_t1_loop.trips} {j : S819200.Idx} :
    j ∈ (iChunk L k).view.set ↔ 25600 * (wL L).val + 512 * k.val ≤ (j 0).val ∧ (j 0).val < 25600 * (wL L).val + 512 * k.val + 512 := by
  show j ∈ ((View.whole (main_v0_scv : Ref sig .scVector)).slice (Rect.unit (s := S819200) (k1_off1 L k) S512.size (k1_off1_inb L k))).set ↔ _
  rw [View.set_slice_whole, Rect.mem_set_unit, k1_off1_eq, wL_val]
  constructor
  · intro h; have := h 0; simp only [Matrix.cons_val_zero] at this; change _ ∧ _ < _ + 512 at this; omega
  · intro h a
    match a with
    | ⟨0, _⟩ => simp only [Fin.zero_eta, Matrix.cons_val_zero]; change _ ∧ _ < _ + 512; omega
omit m ids in
theorem mem_oChunk {k : Fin k1_t1_loop.trips} {j : S819200x128.Idx} :
    j ∈ (oChunk L k).view.set ↔ 25600 * (wL L).val + 512 * k.val ≤ (j 0).val ∧ (j 0).val < 25600 * (wL L).val + 512 * k.val + 512 := by
  show j ∈ ((View.whole (main_v3_scv : Ref sig .scVector)).slice (Rect.unit (s := S819200x128) (k1_off2 L k) S512x128.size (k1_off2_inb L k))).set ↔ _
  rw [View.set_slice_whole, Rect.mem_set_unit, k1_off2_eq, wL_val]
  constructor
  · intro h; have := h 0; simp only [Matrix.cons_val_zero] at this; change _ ∧ _ < _ + 512 at this; omega
  · intro h a
    match a with
    | ⟨0, _⟩ => simp only [Fin.zero_eta, Matrix.cons_val_zero]; change _ ∧ _ < _ + 512; omega
    | ⟨1, _⟩ => simp only [Fin.mk_one, Matrix.cons_val_one, Matrix.cons_val_zero]; change _ ∧ _ < _ + 128; exact ⟨Nat.zero_le _, by have h1 : (j 1).val < 128 := (j 1).isLt; omega⟩

omit m ids in
theorem iChunk_sub (k : Fin k1_t1_loop.trips) : (iChunk L k).view.set ⊆ iSet (wL L) := by
  intro j hj; have := (mem_iChunk L).mp hj; have hk := trips_le k; exact mem_iSet.mpr (by omega)
omit m ids in
theorem oChunk_sub (k : Fin k1_t1_loop.trips) : (oChunk L k).view.set ⊆ oSet (wL L) := by
  intro j hj; have := (mem_oChunk L).mp hj; have hk := trips_le k; exact mem_oSet.mpr (by omega)

/-- The output rows of the chunks before trip k hold the looked-up rows. -/
def DoneTo (k : Nat) (f : Buf (Elt F) (oLoc d)) : Prop :=
  ∀ j ∈ oSet (wL L), (j 0).val < 25600 * (wL L).val + 512 * k → f j = outG m ids d j

end Tile

end Cert.Kernel.Run

end
-- ==== Proof.KB.TileValue.lean ====
/-
  What one trip of a tile's loop leaves on its chunk of the output. The copy of the chunk of row numbers puts
  ids[25600 w + 512 k + y] in entry y of the index scratch; the gather puts row ids[…] of the table in row y of the
  row scratch; the copy out puts that on row 25600 w + 512 k + y of the output. Where the table agrees with the
  argument table (every row number names one of its rows), that row of the output is the looked-up row.
-/
import proofs.«206694_g42322607734994_cont_8to1_b_990_36_alg».proof.Proof.KB.Chunks

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S819200 EltTy.i32)
local notation "tV" => (Memref.whole Cert.Kernel.main_v2_scv : Memref Cert.Kernel.sig Kind.scVector Space.hbm Cert.Kernel.S1000448x128 EltTy.f32)
local notation "oV" => (Memref.whole Cert.Kernel.main_v3_scv : Memref Cert.Kernel.sig Kind.scVector Space.hbm Cert.Kernel.S819200x128 EltTy.f32)
local notation "sV" => (Memref.whole Cert.Kernel.cc1_scratch0 : Memref Cert.Kernel.sig Kind.scVector Space.vmem Cert.Kernel.S512 EltTy.i32)
local notation "rV" => (Memref.whole Cert.Kernel.cc1_scratch1 : Memref Cert.Kernel.sig Kind.scVector Space.vmem Cert.Kernel.S512x128 EltTy.f32)

variable (m : (ℓ : Loc nD τ sig) → Buf (Elt F) ℓ) (ids : (d : Dev nD) → Buf (Elt F) (iLoc d))

section Tile

variable (d : Dev nD) (L : grid1.Coords)

omit m ids in
/-- The whole table addressed as a slice at offset zero is the table. -/
theorem tAll_emb (z : S1000448x128.Idx) : (tAll).view.emb z = z := by
  show ((View.whole (main_v2_scv : Ref sig .scVector)).slice (Rect.unit (s := S1000448x128) ![0, 0] S1000448x128.size inb_S1000448x128_S1000448x128_0_0)).emb z = z
  rw [View.emb_slice]
  funext a
  refine Fin.ext ?_
  show ((Rect.unit (s := S1000448x128) ![0, 0] S1000448x128.size inb_S1000448x128_S1000448x128_0_0).emb z a).val = _
  rw [Rect.emb_apply, Rect.off_unit, Rect.stride_unit]
  match a with
  | ⟨0, _⟩ => simp
  | ⟨1, _⟩ => simp

omit m ids in
/-- A gathered index: row y of the target reads row r(y) of the source, lane for lane. -/
theorem gather_idx (r : Fin (S512x128.size gathers_S1000448x128_S512x128.axis') → Fin (S1000448x128.size gathers_S1000448x128_S512x128.axis))
    (y : S512x128.Idx) (a : Fin 2) :
    ((gathers_S1000448x128_S512x128).idx r y a).val = if a.val = 0 then (r (y 0)).val else (y 1).val := by
  match a with
  | ⟨0, _⟩ => exact congrArg Fin.val (Shape.Gathers.idx_axis gathers_S1000448x128_S512x128 r y)
  | ⟨1, _⟩ => exact Shape.Gathers.idx_of_ne gathers_S1000448x128_S512x128 r y ⟨1, by decide⟩ (by decide)

omit m ids in
/-- Entry y of a list of 512 words, in row-major order, is the word at index y. -/
theorem rows_val (idx : S512.Idx → Elt F .i32) (hn : S512.numel = S512x128.size gathers_S1000448x128_S512x128.axis')
    (h : ∀ x, (idx x).toNat < S1000448x128.size gathers_S1000448x128_S512x128.axis) (y0 : Fin (S512x128.size gathers_S1000448x128_S512x128.axis')) :
    (SparseCore.rows idx hn h y0).val = (idx (ix1 (⟨y0.val, y0.isLt⟩ : Fin 512))).toNat := by
  unfold SparseCore.rows
  show (idx (S512.rowMajor.symm (y0.cast hn.symm))).toNat = _
  refine congrArg (fun z => (idx z).toNat) ?_
  refine (Equiv.symm_apply_eq _).mpr (Fin.ext ?_)
  rw [Shape.rowMajor_val_one]; rfl

omit m ids in
/-- One store through the whole of a view reads back, through the view, as what was stored. -/
theorem read_whole_write {κ : Kind} {sp : Space} {s : Shape} {e : EltTy} (v : View sig κ sp s e) (f : v.ty.Contents (Elt F))
    (P : s.Idx → Elt F e) (y : s.Idx) : v.read (Elt F) (v.writes (Elt F) f [⟨Rect.whole s, P⟩]) y = P y := by
  have h := View.read_writes_cons_emb v f (Rect.whole s) P [] y
  rwa [Rect.emb_whole_apply] at h

omit m ids in
/-- The chunk of the output written whole holds, at its own index y, what was written at y. -/
theorem chunk_written (k : Fin k1_t1_loop.trips) (f : Buf (Elt F) (oLoc d)) (P : S512x128.Idx → Elt F .f32) (y : S512x128.Idx) :
    (oChunk L k).view.writes (Elt F) f [⟨Rect.whole S512x128, P⟩] ((oChunk L k).view.emb y) = P y := by
  have h := read_whole_write (oChunk L k).view f P y
  rw [View.read_apply] at h
  exact (cast_eq _ _).symm.trans h

omit m in
/-- The index scratch after the chunk's copy holds the chunk of the list. -/
theorem landed_at (k : Fin k1_t1_loop.trips) (fs : Buf (Elt F) ((V d (cV L) (jV L)).loc cc1_scratch0)) (x : S512.Idx) :
    (sV).view.read (Elt F) (View.write (Elt F) (sV).view fs ((iChunk L k).view.read (Elt F) (ids d)) Finset.univ) x
      = ids d ((iChunk L k).view.emb x) := by
  rw [View.write_whole_univ]
  simp only [Memref.view_whole, View.read_whole]
  exact (View.read_apply _ _).trans (cast_eq _ _)

omit m ids in
/-- The gather's payload at (y, l): lane l of the table's row named by entry y of the list. -/
theorem gathered_at (std : Buf (Elt F) (tLoc d)) (idx : S512.Idx → Elt F .i32)
    (hn : S512.numel = S512x128.size gathers_S1000448x128_S512x128.axis')
    (h : ∀ x, (idx x).toNat < S1000448x128.size gathers_S1000448x128_S512x128.axis) (y : S512x128.Idx) :
    SparseCore.gatherPayload gathers_S1000448x128_S512x128 ((tAll).view.read (Elt F) std) (SparseCore.rows idx hn h) y
      = std (ix2 (⟨(idx (ix1 (⟨(y 0).val, (y 0).isLt⟩ : Fin 512))).toNat, h _⟩ : Fin 1000448) (⟨(y 1).val, (y 1).isLt⟩ : Fin 128)) := by
  unfold SparseCore.gatherPayload
  rw [View.read_apply, tAll_emb]
  refine (cast_eq _ _).trans (congrArg std ?_)
  funext a
  refine Fin.ext ?_
  rw [gather_idx]
  match a with
  | ⟨0, _⟩ => exact rows_val idx hn h (y 0)
  | ⟨1, _⟩ => rfl

/-- What a trip leaves on its chunk of the output is the looked-up rows. -/
theorem chunk_value (hids : ∀ d j, (ids d j).toNat < 1000000) (std : Buf (Elt F) (tLoc d)) (hstd : IsTable m d std)
    (k : Fin k1_t1_loop.trips) (f : Buf (Elt F) (oLoc d))
    (fs : Buf (Elt F) ((V d (cV L) (jV L)).loc cc1_scratch0)) (fr : Buf (Elt F) ((V d (cV L) (jV L)).loc cc1_scratch1))
    (hn : S512.numel = S512x128.size gathers_S1000448x128_S512x128.axis')
    (hin : ∀ x, ((sV).view.read (Elt F) (View.write (Elt F) (sV).view fs ((iChunk L k).view.read (Elt F) (ids d)) Finset.univ) x).toNat
      < S1000448x128.size gathers_S1000448x128_S512x128.axis) :
    ∀ j ∈ (oChunk L k).view.set,
      (oChunk L k).view.writes (Elt F) f [⟨Rect.whole S512x128,
        (rV).view.read (Elt F) ((rV).view.writes (Elt F) fr [⟨Rect.whole S512x128,
          SparseCore.gatherPayload gathers_S1000448x128_S512x128 ((tAll).view.read (Elt F) std)
            (SparseCore.rows ((sV).view.read (Elt F) (View.write (Elt F) (sV).view fs ((iChunk L k).view.read (Elt F) (ids d)) Finset.univ)) hn hin)⟩])⟩] j
      = outG m ids d j := by
  intro j hj
  obtain ⟨y, -, rfl⟩ := Finset.mem_map.mp hj
  rw [chunk_written]
  refine (read_whole_write (F := F) (rV).view fr _ y).trans ?_
  rw [gathered_at]
  -- the row the list names: ids at the chunk's place of y, below the argument table's height
  have hrow : (sV).view.read (Elt F) (View.write (Elt F) (sV).view fs ((iChunk L k).view.read (Elt F) (ids d)) Finset.univ) (ix1 (⟨(y 0).val, (y 0).isLt⟩ : Fin 512))
      = ids d (ix1 ((oChunk L k).view.emb y 0)) := by
    rw [landed_at]
    refine congrArg (ids d) ?_
    funext a
    match a with
    | ⟨0, _⟩ => exact Fin.ext ((iChunk_emb L k (ix1 (⟨(y 0).val, (y 0).isLt⟩ : Fin 512))).trans (oChunk_emb0 L k y).symm)
  have hlt := hids d (ix1 ((oChunk L k).view.emb y 0))
  rw [hstd _ _ (lt_of_eq_of_lt (congrArg BitVec.toNat hrow) hlt)]
  unfold outG
  refine congrArg (m (a1Loc d)) ?_
  funext a
  match a with
  | ⟨0, _⟩ =>
    refine Fin.ext ?_
    show (BitVec.toNat _) = (Cert.Lookup.rowOf _).val
    rw [Cert.Lookup.rowOf_val hlt, hrow]
  | ⟨1, _⟩ =>
    refine Fin.ext ?_
    show (y 1).val % 64 = ((oChunk L k).view.emb y 1).val % 64
    rw [oChunk_emb1]

end Tile

end Cert.Kernel.Run

end
-- ==== Proof.KB.Tile.lean ====
/-
  One tile's task. Worker w = 2 s + c walks its 25600 rows of the list in fifty chunks of 512: it copies the chunk
  of row numbers into its index scratch, gathers those rows of the table into its row scratch, and copies the row
  scratch out onto the chunk's rows of the output. Each copy is waited for before the next is issued, each on a
  semaphore of its own. The loop's invariant: the output rows of the chunks already walked hold the looked-up rows.
-/
import proofs.«206694_g42322607734994_cont_8to1_b_990_36_alg».proof.Proof.KB.TileValue

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S819200 EltTy.i32)
local notation "tV" => (Memref.whole Cert.Kernel.main_v2_scv : Memref Cert.Kernel.sig Kind.scVector Space.hbm Cert.Kernel.S1000448x128 EltTy.f32)
local notation "oV" => (Memref.whole Cert.Kernel.main_v3_scv : Memref Cert.Kernel.sig Kind.scVector Space.hbm Cert.Kernel.S819200x128 EltTy.f32)
local notation "sV" => (Memref.whole Cert.Kernel.cc1_scratch0 : Memref Cert.Kernel.sig Kind.scVector Space.vmem Cert.Kernel.S512 EltTy.i32)
local notation "rV" => (Memref.whole Cert.Kernel.cc1_scratch1 : Memref Cert.Kernel.sig Kind.scVector Space.vmem Cert.Kernel.S512x128 EltTy.f32)

variable (m : (ℓ : Loc nD τ sig) → Buf (Elt F) ℓ) (ids : (d : Dev nD) → Buf (Elt F) (iLoc d))

section Tile

variable (d : Dev nD) (L : grid1.Coords)

abbrev cGcell (d : Dev nD) (c : Fin τ.nSC) (i : Fin τ.nSub) : GSem nD τ sig := (V d c i, .dma cc1_scratch2.sem)
abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)

omit m ids in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc1_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc1_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc1_scoped1.sem : SemLoc sig).isScoped .scVector = true; decide⟩⟩⟩)]

omit m ids in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

omit m ids in
theorem pts_iChunk (k : Fin k1_t1_loop.trips) (f : Buf (Elt F) (iLoc d)) :
    ((iChunk L k).view.loc (V d (cV L) (jV L)) ↦[(iChunk L k).view.set]{fullShare} f : sProp 𝕄) = iLoc d ↦[(iChunk L k).view.set]{fullShare} f := rfl
omit m ids in
theorem pts_oChunk (k : Fin k1_t1_loop.trips) (f : Buf (Elt F) (oLoc d)) :
    ((oChunk L k).view.loc (V d (cV L) (jV L)) ↦[(oChunk L k).view.set]{fullShare} f : sProp 𝕄) = oLoc d ↦[(oChunk L k).view.set]{fullShare} f := rfl
omit m ids in
theorem pts_tV (q : PosShare TreeShare) (f : Buf (Elt F) (tLoc d)) :
    ((tV).view.loc (V d (cV L) (jV L)) ↦{q} f : sProp 𝕄) = tLoc d ↦{q} f := rfl
omit m ids in
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
omit m ids in
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

/-- A resource set aside: held, and not looked at until it is taken up again. -/
def aside (R : sProp 𝕄) : sProp 𝕄 := R
omit m ids in
theorem aside_eq (R : sProp 𝕄) : aside R = R := rfl

omit m in
/-- The row numbers a chunk's copy lands in the index scratch all name rows of the table. -/
theorem landed_in_range (hids : ∀ d j, (ids d j).toNat < 1000000) (k : Fin k1_t1_loop.trips)
    (fs : Buf (Elt F) ((V d (cV L) (jV L)).loc cc1_scratch0)) (pay : S512.Idx → Elt F .i32)
    (hpay : pay = (iChunk L k).view.read (Elt F) (ids d)) :
    ∀ x, ((sV).view.read (Elt F) (View.write (Elt F) (sV).view fs pay Finset.univ) x).toNat < 1000448 := by
  intro x
  rw [hpay, landed_at]
  exact lt_trans (hids d _) (by decide : 1000000 < 1000448)

/-- A trip that writes the looked-up rows on its chunk and nothing else extends what is done by that chunk. -/
theorem doneTo_step (k : Fin k1_t1_loop.trips) (f f' : Buf (Elt F) (oLoc d)) (hf : DoneTo m ids d L k.val f)
    (hon : ∀ j ∈ (oChunk L k).view.set, f' j = outG m ids d j) (hoff : ∀ j, j ∉ (oChunk L k).view.set → f' j = f j) :
    DoneTo m ids d L (k.val + 1) f' := by
  intro j hj hlt
  by_cases hc : j ∈ (oChunk L k).view.set
  · exact hon j hc
  · rw [hoff j hc]
    refine hf j hj ?_
    have h1 := (mem_oChunk L (k := k) (j := j)).not.mp hc
    have h2 := mem_oSet.mp hj
    omega

omit m ids in
/-- Off its chunk a write through the chunk changes nothing. -/
theorem chunk_off (k : Fin k1_t1_loop.trips) (f : Buf (Elt F) (oLoc d)) (P : S512x128.Idx → Elt F .f32)
    (j : S819200x128.Idx) (hj : j ∉ (oChunk L k).view.set) :
    (oChunk L k).view.writes (Elt F) f [⟨Rect.whole S512x128, P⟩] j = f j :=
  View.writes_apply_of_forall_ne (oChunk L k).view f _ fun y hy => hj (hy ▸ View.emb_mem_set _ y)

/-- After the last trip every row of the worker's is done. -/
theorem doneTo_all (f : Buf (Elt F) (oLoc d)) (hf : DoneTo m ids d L 50 f) : ∀ j ∈ oSet (wL L), f j = outG m ids d j := by
  intro j hj
  refine hf j hj ?_
  have := mem_oSet.mp hj; omega

variable [FloatOps F]

/-- The loop's invariant before trip k. -/
def inv (O : CellTallies nD τ sig (HIx 1)) (W : Waits sig (HIx 1)) (std : Buf (Elt F) (tLoc d)) (k : Nat) (_ : PUnit) : sProp 𝕄 :=
  iprop(Transfers.MayWaits (V d (cV L) (jV L)) (none : HIx 1) O
    ∗ (iLoc d ↦[iSet (wL L)]{fullShare} ids d)
    ∗ (∃ f, ⌜DoneTo m ids d L k f⌝ ∗ oLoc d ↦[oSet (wL L)]{fullShare} f)
    ∗ ((tV).view.loc (V d (cV L) (jV L)) ↦{tq (wL L)} std)
    ∗ (∃ fs, (sV).view.loc (V d (cV L) (jV L)) ↦{fullShare} fs) ∗ (∃ fr, (rV).view.loc (V d (cV L) (jV L)) ↦{fullShare} fr)
    ∗ semVal (cGcell d (cV L) (jV L)) 0 ∗ semVal (cAcell d (cV L) (jV L)) 0 ∗ semVal (cBcell d (cV L) (jV L)) 0
    ∗ ∃ W', ⌜∀ p ∈ W', p ∈ W ∨ p.2 = none⌝ ∗ owes (V d (cV L) (jV L)) O W')

omit m ids [FloatOps F] in
theorem trips_eq : k1_t1_loop.trips = 50 := by decide

set_option maxHeartbeats 4000000 in
/-- The task on tile (L 0, L 1) of device d. -/
theorem tile_body (hF : (K (F := F)).Facts) (hids : ∀ d j, (ids d j).toNat < 1000000)
    (O : CellTallies nD τ sig (HIx 1)) (W : Waits sig (HIx 1)) (hO : ∀ g, O g none = 0) :
    iprop(levAts (K (F := F)).L (K (F := F)).lev ∗ emp
        ∗ goR m ids d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather L tV (Memref.isWhole_whole _) iV (Memref.isWhole_whole _) oV (Memref.isWhole_whole _)
            sV (Memref.isWhole_whole _) rV (Memref.isWhole_whole _) cc1_scratch2 cc1_scoped0 cc1_scoped1)
          fun _ => iprop(tdR m ids d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_eq_skeleton]; unfold cc1_gather_skel
  rw [(K (F := F)).scopedBufs_V hF d (cV L) (jV L), SparseCore.Cfg.scopedSems0_V (Val := Elt F) d (cV L) (jV L), ownSems0_V, ownBufs_V]
  unfold goR tdR
  iintro ⟨#Hlv, -, ⟨Hi, ⟨%fo, Ho⟩, %std, %hstd, Ht⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_for (inv m ids d L O W std) $$ [Hmw Hi Ho Ht Hs Hr HsemG HsemA HsemB HO]
  case region =>
    intro k _
    unfold inv
    iintro ⟨Hmw, Hi, ⟨%f, %hf, Ho⟩, Ht, ⟨%fs, Hs⟩, ⟨%fr, Hr⟩, HsemG, HsemA, HsemB, %W', %hW', HO⟩
    -- the chunk's rows of the list and of the output, taken out of the worker's rows
    ihave Hi2 := (pointsTo_split_subset (q := fullShare) (f := ids d) (S := iSet (wL L)) (iChunk_sub L k)).1 $$ Hi
    icases Hi2 with ⟨Hic, Hir⟩
    ihave Ho2 := (pointsTo_split_subset (q := fullShare) (f := f) (S := oSet (wL L)) (oChunk_sub L k)).1 $$ Ho
    icases Ho2 with ⟨Hoc, Hor⟩
    ihave Hic' := (Entails.of_eq (pts_iChunk (F := F) d L k _).symm) $$ Hic
    ihave Hoc' := (Entails.of_eq (pts_oChunk (F := F) d L k _).symm) $$ Hoc
    ihave Hir' := (Entails.of_eq (aside_eq (F := F) _).symm) $$ Hir
    ihave Hor' := (Entails.of_eq (aside_eq (F := F) _).symm) $$ Hor
    -- the chunk of row numbers into the index scratch
    sl_exec
    -- every row number it landed names a row of the table: the gather, the copy out
    have hin := landed_in_range ids d L hids k fs (tile_body.sl.dma0 ids d L k) rfl
    sl_exec
    sl_step
    have hon := chunk_value m ids d L hids std hstd k f fs fr k1_t1_body._proof_6 hin
    isplitl [Hmw]; · iexact Hmw
    isplitl [Hic' Hir']
    · ihave Hic := (Entails.of_eq (pts_iChunk (F := F) d L k _)) $$ Hic'
      ihave Hir := (Entails.of_eq (aside_eq (F := F) _)) $$ Hir'
      iapply (pointsTo_split_subset (q := fullShare) (f := ids d) (S := iSet (wL L)) (iChunk_sub L k)).2
      isplitl [Hic] <;> iassumption
    isplitl [Hoc' Hor']
    · iexists ((oChunk L k).view.writes (Elt F) f [⟨Rect.whole S512x128, tile_body.sl.dma0_1 ids d L std k fs fr hin⟩])
      isplitr
      · ipureintro
        exact doneTo_step m ids d L k f _ hf hon (chunk_off d L k f _)
      ihave Hoc := (Entails.of_eq (pts_oChunk (F := F) d L k _)) $$ Hoc'
      ihave Hor := (Entails.of_eq (aside_eq (F := F) _)) $$ Hor'
      ihave Hor2 := (Entails.of_eq (pointsTo_congr (q := fullShare) (f := f)
        (g := (oChunk L k).view.writes (Elt F) f [⟨Rect.whole S512x128, tile_body.sl.dma0_1 ids d L std k fs fr hin⟩])
        (I := oSet (wL L) \ (oChunk L k).view.set)
        (fun i hi => (chunk_off d L k f _ i (Finset.mem_sdiff.mp hi).2).symm))) $$ Hor
      iapply (pointsTo_split_subset (q := fullShare) (S := oSet (wL L)) (oChunk_sub L k)).2
      isplitl [Hoc] <;> iassumption
    isplitl [Ht]; · iexact Ht
    isplitl [Hs]; · iexists _; iexact Hs
    isplitl [Hr]; · iexists _; iexact Hr
    isplitl [HsemG]; · iexact HsemG
    isplitl [HsemA]; · iexact HsemA
    isplitl [HsemB]; · iexact HsemB
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · unfold inv
    isplitl [Hmw]; · iexact Hmw
    isplitl [Hi]; · iexact Hi
    isplitl [Ho]
    · iexists fo; isplitr
      · ipureintro; intro j hj hlt; have := mem_oSet.mp hj; omega
      iexact Ho
    isplitl [Ht]; · iexact Ht
    isplitl [Hs]; · iexists _; iexact Hs
    isplitl [Hr]; · iexists _; iexact Hr
    isplitl [HsemG]; · iexact HsemG
    isplitl [HsemA]; · iexact HsemA
    isplitl [HsemB]; · iexact HsemB
    iexists W; isplitr
    · ipureintro; exact fun p hp => .inl hp
    · iexact HO
  iintro %_ HI
  unfold inv
  icases HI with ⟨-, Hi, ⟨%f, %hf, Ho⟩, Ht, ⟨%fs', Hs⟩, ⟨%fr', Hr⟩, HsemG, HsemA, HsemB, %W', %hW', HO⟩
  sl_exec
  sl_step
  isplitl [Hi Ho]
  · isplitl [Hi]; · iexact Hi
    rw [← pointsTo_congr (q := fullShare) (f := f) (g := outG m ids d) (doneTo_all m ids d L f (trips_eq ▸ hf))]
    iexact Ho
  isplitl [Hs Hr Hbufs]
  · isplitl [Hs]; · iexists _; iexact Hs
    isplitl [Hr]; · iexists _; iexact Hr
    iexact Hbufs
  isplitl [HsemG HsemA HsemB Hsems]
  · isplitl [HsemG]; · iexact HsemG
    isplitl [HsemA]; · iexact HsemA
    isplitl [HsemB]; · iexact HsemB
    iexact Hsems
  iexists W'; isplitr
  · ipureintro; exact hW'
  · iexact HO

end Tile

end Cert.Kernel.Run

end
-- ==== Proof.KB.TileObl.lean ====
/-
  The tile's task as the launch theorem asks for it: the task proved for any tile's coordinates is the obligation
  of the call, for every SparseCore of its grid and every tile of each.
-/
import proofs.«206694_g42322607734994_cont_8to1_b_990_36_alg».proof.Proof.KB.Tile

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S819200 EltTy.i32)
local notation "tV" => (Memref.whole Cert.Kernel.main_v2_scv : Memref Cert.Kernel.sig Kind.scVector Space.hbm Cert.Kernel.S1000448x128 EltTy.f32)
local notation "oV" => (Memref.whole Cert.Kernel.main_v3_scv : Memref Cert.Kernel.sig Kind.scVector Space.hbm Cert.Kernel.S819200x128 EltTy.f32)
local notation "sV" => (Memref.whole Cert.Kernel.cc1_scratch0 : Memref Cert.Kernel.sig Kind.scVector Space.vmem Cert.Kernel.S512 EltTy.i32)
local notation "rV" => (Memref.whole Cert.Kernel.cc1_scratch1 : Memref Cert.Kernel.sig Kind.scVector Space.vmem Cert.Kernel.S512x128 EltTy.f32)

variable (m : (ℓ : Loc nD τ sig) → Buf (Elt F) ℓ) (ids : (d : Dev nD) → Buf (Elt F) (iLoc d))

variable [FloatOps F]

/-- A tile's coordinates in the call's grid. -/
def coordsV (c : Fin (grid1.bound 0)) (s : Fin (grid1.bound 1)) : grid1.Coords :=
  fun | 0 => c | 1 => s | ⟨_ + 2, h⟩ => absurd h (Nat.not_lt.2 (Nat.le_add_left _ _))

omit m ids in
theorem defs₀_vector (c : Fin τ.nSC) (s : Fin τ.nSub) :
    defs₀ (F := F) (.scVector c s) 1 ()
      = SparseCore.onTile hcore1 hsub1 (fun c s => cc1_gather (coordsV c s)
          tV (Memref.isWhole_whole _) iV (Memref.isWhole_whole _) oV (Memref.isWhole_whole _)
          sV (Memref.isWhole_whole _) rV (Memref.isWhole_whole _) cc1_scratch2 cc1_scoped0 cc1_scoped1) ⟨⟩ c s := rfl

omit m ids [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hids : ∀ d j, (ids d j).toNat < 1000000) :
    (K (F := F)).TileObl (D (F := F)) 𝒱 (P m ids) v₀ 0 := by
  intro d c i O W hO _ _
  simp only [show (P m ids).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m ids d (coordsV ⟨_, hci.1⟩ ⟨_, hci.2⟩) hF hids O W hO).trans (wp_mono frame _ _ fun _ => obl_post)

end Cert.Kernel.Run

end
-- ==== Proof.KB.Deal.lean ====
/-
  The call's operands dealt to the thirty-two tiles, and their results gathered. The flat list and the output split into
  the workers' blocks of 25600 rows (the blocks are pairwise disjoint and cover the array); the table's full share splits
  into thirty-two read shares and a remainder that is let go; and the thirty-two workers are the pairs (SparseCore c,
  tile s) through w = 2 s + c, a bijection between pairs and workers. Gathering is the same reading right to left: every
  worker gives back its block of the list unchanged and its block of the output at one common function.
-/
import proofs.«206694_g42322607734994_cont_8to1_b_990_36_alg».proof.Proof.KB.Pay

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (ids : (d : Dev nD) → Buf (Elt F) (iLoc d))

/-! ## The workers' blocks are disjoint and cover -/

omit m ids in
theorem iSet_disjoint : ∀ w ∈ (Finset.univ : Finset (Fin 32)), ∀ w' ∈ (Finset.univ : Finset (Fin 32)), w ≠ w' → Disjoint (iSet w) (iSet w') :=
  fun _ _ _ _ h => Rect.part_disjoint idiv h
omit m ids in
theorem oSet_disjoint : ∀ w ∈ (Finset.univ : Finset (Fin 32)), ∀ w' ∈ (Finset.univ : Finset (Fin 32)), w ≠ w' → Disjoint (oSet w) (oSet w') :=
  fun _ _ _ _ h => Rect.part_disjoint odiv h
omit m ids in
theorem iSet_cover : (Finset.univ : Finset (Fin 32)).biUnion iSet = Finset.univ := Rect.biUnion_part idiv
omit m ids in
theorem oSet_cover : (Finset.univ : Finset (Fin 32)).biUnion oSet = Finset.univ := Rect.biUnion_part odiv

omit m ids in
/-- The list held whole is its thirty-two blocks held. -/
theorem iPts_blocks (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iSet_disjoint, iSet_cover]
omit m ids in
/-- The output held whole is its thirty-two blocks held. -/
theorem oPts_blocks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSet_disjoint, oSet_cover]

/-! ## Workers and (SparseCore, tile) pairs -/

/-- (c, s) ↦ 2 s + c is a bijection between the pairs and the thirty-two workers. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    obtain ⟨c, s⟩ := p
    have hc := c.isLt
    refine Prod.ext (Fin.ext ?_) (Fin.ext ?_)
    · show (2 * s.val + c.val) % 2 = c.val
      omega
    · show (2 * s.val + c.val) / 2 = s.val
      omega
  right_inv w := by
    refine Fin.ext ?_
    show 2 * (w.val / 2) + w.val % 2 = w.val
    omega

omit m ids in
/-- A family over the workers, regrouped by SparseCore and tile. -/
theorem bigSep_workers (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]
  rfl

omit m ids in
/-- The call's SparseCores are the two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit m ids in
/-- A SparseCore's tiles are the sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## Dealing -/

omit m ids in
/-- The output held whole at some contents: every block held at some contents. -/
theorem oBlocks_split (d : Dev nD) :
    (iprop(∃ f, oLoc d ↦{fullShare} f) : sProp 𝕄) ⊢ bigSep Finset.univ fun w : Fin 32 => iprop(∃ f, oLoc d ↦[oSet w]{fullShare} f) := by
  iintro ⟨%f, H⟩
  have hw : ∀ w ∈ (Finset.univ : Finset (Fin 32)),
      (oLoc d ↦[oSet w]{fullShare} f : sProp 𝕄) ⊢ iprop(∃ g, oLoc d ↦[oSet w]{fullShare} g) := fun w _ => by
    iintro H; iexists f; iexact H
  have hm : (bigSep Finset.univ fun w : Fin 32 => (oLoc d ↦[oSet w]{fullShare} f : sProp 𝕄))
      ⊢ bigSep Finset.univ fun w : Fin 32 => iprop(∃ g, oLoc d ↦[oSet w]{fullShare} g) := bigSep_mono hw
  ihave H' := (Entails.of_eq (oPts_blocks (F := F) d f)) $$ H
  iapply hm; iexact H'

omit ids in
/-- The table held whole: every worker a read share of it (the remainder of the share is let go). -/
theorem tShares_split (d : Dev nD) (std : Buf (Elt F) (tLoc d)) (hstd : IsTable m d std) :
    (tLoc d ↦{fullShare} std : sProp 𝕄)
      ⊢ bigSep Finset.univ fun w : Fin 32 => iprop(∃ std', ⌜IsTable m d std'⌝ ∗ tLoc d ↦{tq w} std') := by
  have hw : ∀ w ∈ (Finset.univ : Finset (Fin 32)),
      (tLoc d ↦{tq w} std : sProp 𝕄) ⊢ iprop(∃ std', ⌜IsTable m d std'⌝ ∗ tLoc d ↦{tq w} std') := fun w _ => by
    iintro H; iexists std
    isplitr
    · ipureintro; exact hstd
    · iexact H
  have hm : (bigSep Finset.univ fun w : Fin 32 => (tLoc d ↦{tq w} std : sProp 𝕄))
      ⊢ bigSep Finset.univ fun w : Fin 32 => iprop(∃ std', ⌜IsTable m d std'⌝ ∗ tLoc d ↦{tq w} std') := bigSep_mono hw
  iintro H
  ihave H' := (Transfers.pointsTo_toks_split (ℓ := tLoc d) (S := Finset.univ) (f := std) fullShare 32) $$ H
  icases H' with ⟨-, Ht⟩
  iapply hm; iexact Ht

/-- The call's operands dealt: each SparseCore its sixteen tiles' tasks. -/
theorem deal (d : Dev nD) (std : Buf (Elt F) (tLoc d)) (hstd : IsTable m d std) :
    iprop((iLoc d ↦{fullShare} ids d) ∗ (∃ f, oLoc d ↦{fullShare} f) ∗ (tLoc d ↦{fullShare} std))
      ⊢ (bigSep Finset.univ fun c : Fin ((K (F := F)).nCore 0) => (P m ids).st 0 d c : sProp 𝕄) := by
  show _ ⊢ bigSep Finset.univ fun c : Fin ((K (F := F)).nCore 0) =>
    bigSep Finset.univ fun s : Fin 16 => goR m ids d (wid (Fin.cast nCore_zero c) s)
  rw [bigSep_cores (F := F) (fun c => bigSep Finset.univ fun s : Fin 16 => goR m ids d (wid c s)),
    ← bigSep_workers (F := F) (goR m ids d)]
  unfold goR
  rw [bigSep_sep', bigSep_sep', ← iPts_blocks]
  iintro ⟨Hi, Ho, Ht⟩
  isplitl [Hi]; · iexact Hi
  isplitl [Ho]
  · iapply (oBlocks_split (F := F) d); iexact Ho
  · iapply (tShares_split m d std hstd); iexact Ht

/-! ## Gathering -/

/-- The tiles' results gathered: the list unchanged, the output looked up. -/
theorem undeal (d : Dev nD) :
    (bigSep Finset.univ fun c : Fin ((K (F := F)).nCore 0) => (P m ids).dn 0 d c : sProp 𝕄)
      ⊢ iprop((iLoc d ↦{fullShare} ids d) ∗ (oLoc d ↦{fullShare} outG m ids d)) := by
  show (bigSep Finset.univ fun c : Fin ((K (F := F)).nCore 0) =>
    bigSep Finset.univ fun s : Fin 16 => tdR m ids d (wid (Fin.cast nCore_zero c) s)) ⊢ _
  rw [bigSep_cores (F := F) (fun c => bigSep Finset.univ fun s : Fin 16 => tdR m ids d (wid c s)),
    ← bigSep_workers (F := F) (tdR m ids d)]
  unfold tdR
  rw [bigSep_sep', ← iPts_blocks, ← oPts_blocks]

/-! ## A SparseCore's task and its tiles' -/

/-- A SparseCore's task is its sixteen tiles' tasks, its result their results. -/
theorem vecSplit : (K (F := F)).VecSplit' (P m ids) 0 := by
  intro d c
  show (bigSep Finset.univ fun s : Fin 16 => goR m ids d (wid (Fin.cast nCore_zero c) s)) ⊢ |={Set.univ}=> iprop(
      (bigSep Finset.univ fun i : Fin ((K (F := F)).nSub 0) => goR m ids d (wid (Fin.cast nCore_zero c) (Fin.cast nSub_zero i)))
      ∗ ((bigSep Finset.univ fun i : Fin ((K (F := F)).nSub 0) => tdR m ids d (wid (Fin.cast nCore_zero c) (Fin.cast nSub_zero i)))
          -∗ bigSep Finset.univ fun s : Fin 16 => tdR m ids d (wid (Fin.cast nCore_zero c) s)))
  rw [bigSep_tasks (F := F) (fun s => goR m ids d (wid (Fin.cast nCore_zero c) s)),
    bigSep_tasks (F := F) (fun s => tdR m ids d (wid (Fin.cast nCore_zero c) s))]
  iintro H; imodintro
  isplitl [H]; · iexact H
  iintro H; iexact H

end Cert.Kernel.Run

end
-- ==== Proof.KB.RetileData.lean ====
/-
  The TensorCore kernel that retiles the transposed table: what its body leaves in the staging buffers at a grid
  point, the pipeline's proof data, and the body obligation at every point.

  The pipeline stages the [64, 1000000] array in blocks of [64, 512] along the columns, 1954 of them; the last one
  overhangs the array by 448 columns, and its fetch leaves in those columns of the staging buffer words that nothing
  names. The body transposes the whole staging block into columns 0..63 and again into columns 64..127 of the
  [512, 128] output block, so at the last point rows 64..511 of that block are computed from the unnamed words.
  The output window is written back whole, so no closed form names what the body leaves there at the last point:
  the proof data is relational. It says that the input's buffer is left as found, and that row r, column l of the
  output's buffer at point t is the array's element (l mod 64, 512 t + r) whenever column 512 t + r is inside the
  array.
-/
import proofs.«206694_g42322607734994_cont_8to1_b_990_36_alg».proof.Proof.Gen.Kernel.Launch
import proofs.«206694_g42322607734994_cont_8to1_b_990_36_alg».proof.Proof.Gen.Kernel.Skeleton
import proofs.«206694_g42322607734994_cont_8to1_b_990_36_alg».proof.Proof.Gen.Kernel.Points
import Idealize.ShloMosaic.Lib.Pipeline.FrameBody
import Idealize.ShloMosaic.Lib.Pipeline.Value
import Idealize.ShloMosaic.Lib.ValueLayout
import Idealize.ShloMosaic.Lib.Ring
import Idealize.ShloMosaic.Lib.Tactic

set_option maxRecDepth 16384

noncomputable section

namespace Cert.Kernel.Retile

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]
variable {Ix : Type} [DecidableEq Ix] {Name : Type} [DecidableEq Name] {U : Type} [URA U]

local notation "𝕄" => MT nD τ sig Ix (Elt F) Name U ℕ

/-! ## The body's accesses and what it leaves -/

abbrev rin : Rect S64x512 := Rect.unit (s := S64x512) ![0, 0] S64x512.size inb_S64x512_S64x512_0_0
abbrev r0 : Rect S512x128 := Rect.unit (s := S512x128) ![0, 0] S512x64.size inb_S512x128_S512x64_0_0
abbrev r64 : Rect S512x128 := Rect.unit (s := S512x128) ![0, 64] S512x64.size inb_S512x128_S512x64_0_64

/-- The output block after the body, from the input block: the transposed block stored at columns 0..63, then at
    columns 64..127 (the last store first). -/
def out (x0 : Vec F S64x512 .f32) : Vec F S512x128 .f32 :=
  View.canon [⟨r64, k0_pay1 (View.ld x0 rin)⟩, ⟨r0, k0_pay1 (View.ld x0 rin)⟩]

/-- The two stores cover the output block: a column below 64 is in the first's rectangle, any other in the second's. -/
theorem cover (p0 p1 : Vec F S512x64 .f32) (y : S512x128.Idx) :
    ∃ pc ∈ ([⟨r64, p1⟩, ⟨r0, p0⟩] : List (View.Piece (Elt F) S512x128 .f32)), y ∈ pc.1.set := by
  have h0 : (y 0).val < 512 := (y 0).isLt
  have h1 : (y 1).val < 128 := (y 1).isLt
  by_cases h : (y 1).val < 64
  · refine ⟨⟨r0, p0⟩, by simp, ?_⟩
    rw [Rect.mem_set_unit]
    intro a
    match a with
    | ⟨0, _⟩ => exact ⟨Nat.zero_le _, by show (y 0).val < 0 + 512; omega⟩
    | ⟨1, _⟩ => exact ⟨Nat.zero_le _, by show (y 1).val < 0 + 64; omega⟩
  · refine ⟨⟨r64, p1⟩, by simp, ?_⟩
    rw [Rect.mem_set_unit]
    intro a
    match a with
    | ⟨0, _⟩ => exact ⟨Nat.zero_le _, by show (y 0).val < 0 + 512; omega⟩
    | ⟨1, _⟩ => exact ⟨by show 64 ≤ (y 1).val; omega, by show (y 1).val < 64 + 64; omega⟩

set_option maxHeartbeats 1000000 in
/-- The body on whole staging memrefs, the input's at read contents `x0` and the output's at anything, runs to the
    continuation holding the input's as it was and the output's at `out x0`. -/
theorem sound_kernel (c : Dev nD) (E : Set Name) (i : grid0.Coords) (arg1 : Memref sig .tc .vmem S64x512 .f32) (harg1 : arg1.IsWhole)
    (arg2 : Memref sig .tc .vmem S512x128 .f32) (harg2 : arg2.IsWhole) (x0 : Vec F S64x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out x0)) -∗ K ⟨⟩))
      ⊢ wp frame (wpE (defs₀ (F := F)) Variants.none c none) E (cc0__retile_body i arg1 harg1 arg2 harg2) K := by
  simp only [cc0__retile_body_eq_skeleton]; unfold cc0__retile_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  exact View.read_writes_eq_canon _ _ _ (cover _ _)

/-! ## The output block at an element -/

/-- The payload at an element: the input block transposed. -/
theorem pay_apply (v : Vec F S64x512 .f32) (r : Fin 512) (k : Fin 64) : k0_pay1 v (ix2 r k) = v (ix2 k r) := by
  unfold k0_pay1
  rw [shapeCast_self]
  exact transpose_ix2_apply (a := 64) (b := 512) v transposes_S64x512_p1_0_S512x64 r k

/-- The whole-block load reads the block. -/
theorem ld_rin (x0 : Vec F S64x512 .f32) : View.ld x0 rin = x0 :=
  View.ld_unit_zero (funext fun a => by fin_cases a <;> rfl) inb_S64x512_S64x512_0_0 x0

/-- Row `r`, column `l` of the output block is row `l mod 64`, column `r` of the input block. -/
theorem out_apply (x0 : Vec F S64x512 .f32) (r : Fin 512) (l : Fin 128) :
    out x0 (ix2 r l) = x0 (ix2 ⟨l.val % 64, Nat.mod_lt _ (by decide)⟩ r) := by
  unfold out
  rw [ld_rin]
  have hl : l.val < 128 := l.isLt
  by_cases h : l.val < 64
  · have hnot : (ix2 r l : S512x128.Idx) ∉ (⟨r64, k0_pay1 x0⟩ : View.Piece (Elt F) S512x128 .f32).1.set := by
      rw [Rect.mem_set_unit]
      intro hh
      have := (hh 1).1
      have e : ((ix2 r l : S512x128.Idx) 1).val = l.val := rfl
      change 64 ≤ ((ix2 r l : S512x128.Idx) 1).val at this
      omega
    rw [View.canon_cons_of_not_mem _ _ hnot]
    have he : (ix2 r l : S512x128.Idx) = r0.emb (ix2 r ⟨l.val, h⟩ : S512x64.Idx) := by
      funext a
      match a with
      | ⟨0, _⟩ => apply Fin.ext; rw [Rect.emb_apply]; show r.val = 0 + 1 * r.val; omega
      | ⟨1, _⟩ => apply Fin.ext; rw [Rect.emb_apply]; show l.val = 0 + 1 * l.val; omega
    rw [he, View.canon_cons_emb, pay_apply]
    congr 2
    exact Fin.ext (Nat.mod_eq_of_lt h).symm
  · have he : (ix2 r l : S512x128.Idx) = r64.emb (ix2 r ⟨l.val - 64, by omega⟩ : S512x64.Idx) := by
      funext a
      match a with
      | ⟨0, _⟩ => apply Fin.ext; rw [Rect.emb_apply]; show r.val = 0 + 1 * r.val; omega
      | ⟨1, _⟩ => apply Fin.ext; rw [Rect.emb_apply]; show l.val = 64 + 1 * (l.val - 64); omega
    rw [he, View.canon_cons_emb, pay_apply]
    congr 2
    apply Fin.ext
    show l.val - 64 = l.val % 64
    omega

/-! ## The grid and the two windows' blocks -/

theorem N_lt (t : Fin cfg0.N) : t.val < 1954 := lt_of_lt_of_eq t.isLt N_0

/-- The one grid coordinate of the `t`-th point is `t`. -/
theorem coords_val (t : Fin cfg0.N) : (grid0.coords t 0).val = t.val := by
  have ht := N_lt t
  show t.val / grid0.stride 0 % 1954 = t.val
  rw [show grid0.stride 0 = 1 from by decide, Nat.div_one, Nat.mod_eq_of_lt ht]

/-- The input window's block index at point `t`: row block 0, column block `t`. -/
theorem index0 (t : Fin cfg0.N) : win0_0.index t = ![0, t.val] := by
  have ht := N_lt t
  show cc0_transform_0 (grid0.coords t) = _
  unfold cc0_transform_0
  simp only [coords_val, BitVec.toNat_ofNat]
  rw [Nat.mod_eq_of_lt (show t.val < 2 ^ 32 by omega)]

/-- The output window's block index at point `t`: row block `t`, column block 0. -/
theorem index1 (t : Fin cfg0.N) : win0_1.index t = ![t.val, 0] := by
  have ht := N_lt t
  show cc0_transform_1 (grid0.coords t) = _
  unfold cc0_transform_1
  simp only [coords_val, BitVec.toNat_ofNat]
  rw [Nat.mod_eq_of_lt (show t.val < 2 ^ 32 by omega)]

/-- On the rows the input window's transfers move all 64; -/
theorem xsize0_0 (t : Fin cfg0.N) : win0_0.xsize (grid0.coords t) 0 = 64 := by
  show (Pipeline.Clip.of (win0_0.index t 0) 64 64).extent 64 = 64
  rw [index0]; rfl

/-- on the columns all 512, but at the last point the 64 inside the array. -/
theorem xsize0_1 (t : Fin cfg0.N) :
    win0_0.xsize (grid0.coords t) 1 = if (t.val + 1) * 512 ≤ 1000000 then 512 else 1000000 - t.val * 512 := by
  show (Pipeline.Clip.of (win0_0.index t 1) 512 1000000).extent 512 = _
  rw [index0]
  show (Pipeline.Clip.of t.val 512 1000000).extent 512 = _
  unfold Pipeline.Clip.of
  split <;> rfl

/-- An element of the input block whose column is inside the array is one the fetch moves. -/
theorem moved0 (t : Fin cfg0.N) (k : Fin 64) (r : Fin 512) (h : 512 * t.val + r.val < 1000000) :
    win0_0.moved (grid0.coords t) (ix2 k r : S64x512.Idx) = true := by
  rw [Window.moved_iff]
  intro a
  match a with
  | ⟨0, _⟩ => rw [show (⟨0, _⟩ : Fin 2) = 0 from rfl, xsize0_0]; exact k.isLt
  | ⟨1, _⟩ =>
    rw [show (⟨1, _⟩ : Fin 2) = 1 from rfl, xsize0_1]
    show r.val < _
    have := r.isLt
    split <;> omega

/-! ## The proof data -/

/-- The pipeline's proof data on core `c`, for the table `wt` and the output array `s0` as the region finds them, a
    core that owes `O` throughout and whose recorded waits lie in `B`: the input's staging buffer is left as found;
    the output's holds, at row `r` and column `l` at point `t`, the table's element `(l mod 64, 512 t + r)` wherever
    that column is inside the table; no invariant; full shares. -/
def rdats (O : CellTallies nD τ sig Ix) (B : Set (SemLoc sig × Ix)) (wt : Vec F S64x1000000 .f32) (s0 : Vec F S1000448x128 .f32)
    (c : Dev nD) : RDat τ (Elt F) Ix Name U ℕ cfg0 c where
  A w := match w with
    | ⟨0, _⟩ => wt
    | ⟨1, _⟩ => s0
  after w t := match w with
    | ⟨0, _⟩ => fun Y X => X = Y
    | ⟨1, _⟩ => fun _ X => ∀ (r : Fin 512) (l : Fin 128) (h : 512 * t.val + r.val < 1000000),
        X (ix2 r l) = wt (ix2 ⟨l.val % 64, Nat.mod_lt _ (by decide)⟩ ⟨512 * t.val + r.val, h⟩)
  Φ _ := iprop(emp)
  q _ := fullShare
  owed _ := O
  recorded _ := B

variable (O : CellTallies nD τ sig Ix) (B : Set (SemLoc sig × Ix)) (wt : Vec F S64x1000000 .f32) (s0 : Vec F S1000448x128 .f32) (c : Dev nD)

/-- What a fetch at point `t` leaves at an element of the staging buffer whose column is inside the table: the
    table's element. -/
theorem fetched0 (t : Fin cfg0.N) (d) (k : Fin 64) (r : Fin 512) (h : 512 * t.val + r.val < 1000000) :
    (rdats (Name := Name) (U := U) O B wt s0 c).fetched 0 t d (ix2 k r) = wt (ix2 k ⟨512 * t.val + r.val, h⟩) := by
  unfold RDat.fetched Window.fill
  rw [dif_pos (moved0 t k r h)]
  unfold RDat.blockOf
  rw [View.read_apply]
  show wt (((cfg0.win 0).blk t).view.emb fun a => ⟨(ix2 k r : S64x512.Idx) a, _⟩) = wt (ix2 k ⟨512 * t.val + r.val, h⟩)
  congr 1
  funext a
  apply Fin.ext
  show ((win0_0.rect t).emb _ a : Nat) = _
  rw [Window.rect_emb_val, index0]
  match a with
  | ⟨0, _⟩ => show 0 * 64 + k.val = k.val; omega
  | ⟨1, _⟩ => show t.val * 512 + r.val = 512 * t.val + r.val; omega

/-! ## The body obligation -/

/-- The body at any point: the input's buffer holds a fetched block, so the output's ends holding, wherever the column
    is inside the table, the table's element; the input's is left as found; the invariant and what the core owes
    pass through unread. -/
theorem body_obligation (ι : Ix) :
    (rdats (Name := Name) (U := U) O B wt s0 c).BodyObligation (defs₀ (F := F)) Variants.none ι Set.univ := by
  intro t Y hY
  rw [bigSep_W0, bigSep_W0]
  obtain ⟨d, hd⟩ := ((rdats (Name := Name) (U := U) O B wt s0 c).finds_of_fetch (fetch0_0 t) (Y 0)).mp (hY 0)
  rw [show (rdats (Name := Name) (U := U) O B wt s0 c).Φ t.succ = (rdats (Name := Name) (U := U) O B wt s0 c).Φ t.castSucc from rfl,
    show (rdats (Name := Name) (U := U) O B wt s0 c).owesAt ι t.succ = (rdats (Name := Name) (U := U) O B wt s0 c).owesAt ι t.castSucc from rfl]
  iintro ⟨HΦ, Ho, H0, H1⟩
  iapply (sound_kernel c Set.univ (grid0.coords t) (win0_0.stage (cfg0.slots t 0)) (hstage0_0 ((cfg0.slots t 0).cast nbuf0_0)) (win0_1.stage (cfg0.slots t 1)) (hstage0_1 ((cfg0.slots t 1).cast nbuf0_1)) (Y 0) _)
  isplitl [H0]; · iexact H0
  isplitl [H1]; · iexists _; iexact H1
  iintro ⟨H0, H1⟩
  isplitl [HΦ]; · iexact HΦ
  isplitl [Ho]; · iexact Ho
  isplitl [H0]
  · iexists (Y 0); isplitr
    · ipureintro; show Y 0 = Y 0; rfl
    iexact H0
  · iexists (out (Y 0)); isplitr
    · ipureintro
      show ∀ (r : Fin 512) (l : Fin 128) (h : 512 * t.val + r.val < 1000000),
        out (Y 0) (ix2 r l) = wt (ix2 ⟨l.val % 64, Nat.mod_lt _ (by decide)⟩ ⟨512 * t.val + r.val, h⟩)
      intro r l h
      rw [out_apply, hd]
      exact fetched0 O B wt s0 c t d _ r h
    iexact H1

end Cert.Kernel.Retile

end
-- ==== Proof.KB.RetileValue.lean ====
/-
  The arrays after the retiling kernel's region, in closed form: the table is left as it was, and every row of the
  output array below the table's column count holds that column of the table, twice over (columns 0..63 and 64..127).
  Rows from the table's column count on are written from words nothing names and are not described.
-/
import proofs.«206694_g42322607734994_cont_8to1_b_990_36_alg».proof.Proof.KB.RetileData

set_option maxRecDepth 16384

noncomputable section

namespace Cert.Kernel.Retile

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.Sem
open Idealize.ShloMosaic.Pipeline (RDat Cfg Window cellOf)

variable {F : FTy → Type} [FloatOps F]
variable {Ix : Type} [DecidableEq Ix] {Name : Type} [DecidableEq Name] {U : Type} [URA U]
variable (O : CellTallies nD τ sig Ix) (B : Set (SemLoc sig × Ix)) (wt : Vec F S64x1000000 .f32) (s0 : Vec F S1000448x128 .f32) (c : Dev nD)

/-- The table is an input: whatever it may hold after the region is what it held. -/
theorem final_wt (G : Vec F S64x1000000 .f32) (h : (rdats (Name := Name) (U := U) O B wt s0 c).ArrAt 0 cfg0.N G) : G = wt := by
  rw [RDat.ArrAt_in _ 0 rfl] at h
  exact h

/-- Which elements of the output array point `t`'s block holds: rows `512 t .. 512 t + 511`, every column. -/
theorem mem_blk1 (t : Fin cfg0.N) (r : Fin 1000448) (l : Fin 128) :
    (ix2 r l : S1000448x128.Idx) ∈ (win0_1.blk t).view.set ↔ 512 * t.val ≤ r.val ∧ r.val < 512 * t.val + 512 := by
  show (ix2 r l : S1000448x128.Idx) ∈ ((View.whole main_v2).slice (win0_1.rect t)).set ↔ _
  rw [View.set_slice_whole, Rect.mem_set_unit, index1]
  have hl := l.isLt
  constructor
  · intro h
    have := h 0
    change t.val * 512 ≤ r.val ∧ r.val < t.val * 512 + 512 at this
    omega
  · intro h a
    match a with
    | ⟨0, _⟩ => show t.val * 512 ≤ r.val ∧ r.val < t.val * 512 + 512; omega
    | ⟨1, _⟩ => show 0 * 128 ≤ l.val ∧ l.val < 0 * 128 + 128; omega

/-- After the write-backs of the points below `n`, every row below `512 n` and inside the table's column count holds
    that column of the table. -/
theorem arrAt1 : ∀ (n : Nat) (G : Vec F S1000448x128 .f32), (rdats (Name := Name) (U := U) O B wt s0 c).ArrAt 1 n G →
    ∀ (r : Fin 1000448) (l : Fin 128) (hr : r.val < 1000000), r.val < 512 * n →
      G (ix2 r l) = wt (ix2 ⟨l.val % 64, Nat.mod_lt _ (by decide)⟩ ⟨r.val, hr⟩)
  | 0, _, _, r, _, _, h => absurd h (by omega)
  | n + 1, G, hG, r, l, hr, h => by
    simp only [RDat.ArrAt] at hG
    by_cases hn : n < cfg0.N
    · rw [dif_pos hn, if_pos (flush0_1 ⟨n, hn⟩)] at hG
      obtain ⟨G₀, X, hG₀, ⟨Y, -, hXY⟩, rfl⟩ := hG
      by_cases hin : 512 * n ≤ r.val
      · -- the row is in point `n`'s block: it holds what the body left there
        have hr2 : r.val - 512 * n < 512 := by omega
        have he : (ix2 r l : S1000448x128.Idx)
            = (win0_1.blk ⟨n, hn⟩).view.emb (ix2 ⟨r.val - 512 * n, hr2⟩ l : S512x128.Idx) := by
          funext a
          apply Fin.ext
          show _ = ((win0_1.rect ⟨n, hn⟩).emb _ a : Nat)
          rw [Window.rect_emb_val, index1]
          match a with
          | ⟨0, _⟩ => show r.val = n * 512 + (r.val - 512 * n); omega
          | ⟨1, _⟩ => show l.val = 0 * 128 + l.val; omega
        have hX := hXY ⟨r.val - 512 * n, hr2⟩ l (by show 512 * n + (r.val - 512 * n) < 1000000; omega)
        rw [he, View.write_emb_of_mem _ _ (Finset.mem_univ _)]
        show X (ix2 ⟨r.val - 512 * n, hr2⟩ l) = _
        rw [hX]
        congr 2
        apply Fin.ext
        show 512 * n + (r.val - 512 * n) = r.val
        omega
      · -- the row is in an earlier point's block: the write-back at point `n` does not touch it
        have hnot : (ix2 r l : S1000448x128.Idx) ∉ (win0_1.blk ⟨n, hn⟩).view.setOn Finset.univ := by
          rw [View.setOn_univ, mem_blk1]
          show ¬(512 * n ≤ r.val ∧ r.val < 512 * n + 512)
          omega
        rw [View.write_of_not_mem _ _ _ hnot]
        exact arrAt1 n G₀ hG₀ r l hr (by omega)
    · rw [dif_neg hn] at hG
      have hN : cfg0.N = 1954 := N_0
      exact arrAt1 n G hG r l hr (by have := r.isLt; omega)

/-- The output array after the region: row `r` below the table's column count holds column `r` of the table, at column
    `l` its row `l mod 64`. -/
theorem final_std (G : Vec F S1000448x128 .f32) (h : (rdats (Name := Name) (U := U) O B wt s0 c).ArrAt 1 cfg0.N G)
    (r : Fin 1000448) (l : Fin 128) (hr : r.val < 1000000) :
    G (ix2 r l) = wt (ix2 ⟨l.val % 64, Nat.mod_lt _ (by decide)⟩ ⟨r.val, hr⟩) :=
  arrAt1 O B wt s0 c cfg0.N G h r l hr (by rw [show cfg0.N = 1954 from N_0]; omega)

end Cert.Kernel.Retile

end
-- ==== Proof.KB.RetileRegion.lean ====
/-
  The retiling kernel's region as one step of the TensorCore's program inside the launch: from the table and the
  output array as the region finds them, the region runs to the table unchanged and the output array holding, in
  every row below the table's column count, that column of the table.
-/
import proofs.«206694_g42322607734994_cont_8to1_b_990_36_alg».proof.Proof.KB.Setup
import proofs.«206694_g42322607734994_cont_8to1_b_990_36_alg».proof.Proof.KB.RetileValue

set_option maxRecDepth 16384

noncomputable section

namespace Cert.Kernel.Retile

open Cert.Kernel Cert.Kernel.Gen Cert.Kernel.Run
open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (HIx 1) (Elt F) ℕ UU ℕ

/-- The pipelines' prefetched tables: there are none. -/
abbrev adm : (p : Fin 1) → (pcfgs (F := F) p).Adm := fun q => (cfgs q).toPCfg_adm

/-- The proof data of the one pipeline, on every core. -/
abbrev rds (O : CellTallies nD τ sig (HIx 1)) (W : Waits sig (HIx 1)) (wt : Vec F S64x1000000 .f32) (s0 : Vec F S1000448x128 .f32) :
    (p : Fin 1) → (c : Dev nD) → RDat τ (Elt F) (HIx 1) ℕ UU ℕ (Pipeline.pin (pcfgs (F := F)) adm p) c :=
  fun _ c => rdats O (↑W) wt s0 c

theorem phinj : Function.Injective (cellOf (nD := nD) (τ := τ) (Pipeline.pin (pcfgs (F := F)) adm)) := Gen.cellOf_inj

/-- What the region leaves: the table, the output array at contents that hold the table's columns, and the core's
    debts with its recorded waits grown by the pipeline's own. -/
def postR (O : CellTallies nD τ sig (HIx 1)) (W : Waits sig (HIx 1)) (wt : Vec F S64x1000000 .f32) (c : Dev nD) : sProp 𝕄 :=
  iprop(∃ (std : Vec F S1000448x128 .f32) (W' : Waits sig (HIx 1)),
    ⌜(∀ (r : Fin 1000448) (l : Fin 128) (hr : r.val < 1000000),
        std (ix2 r l) = wt (ix2 ⟨l.val % 64, Nat.mod_lt _ (by decide)⟩ ⟨r.val, hr⟩)) ∧ (∀ p ∈ W', p ∈ W ∨ p.2 = none)⌝
      ∗ ((SparseCore.T c : Thread nD τ).loc main_v1 ↦{fullShare} wt) ∗ ((SparseCore.T c : Thread nD τ).loc main_v2 ↦{fullShare} std) ∗ owes (SparseCore.T c : Thread nD τ) O W')

/-- The arrays as the region leaves them: the table as it was, the output array at contents that hold the table's
    columns. -/
theorem arraysAt_elim (O : CellTallies nD τ sig (HIx 1)) (W : Waits sig (HIx 1)) (wt : Vec F S64x1000000 .f32) (s0 : Vec F S1000448x128 .f32)
    (c : Dev nD) :
    (rdats (Name := ℕ) (U := UU) O (↑W) wt s0 c).arraysAt cfg0.N
      ⊢ (iprop(∃ std : Vec F S1000448x128 .f32,
          ⌜∀ (r : Fin 1000448) (l : Fin 128) (hr : r.val < 1000000),
            std (ix2 r l) = wt (ix2 ⟨l.val % 64, Nat.mod_lt _ (by decide)⟩ ⟨r.val, hr⟩)⌝
          ∗ ((SparseCore.T c : Thread nD τ).loc main_v1 ↦{fullShare} wt) ∗ ((SparseCore.T c : Thread nD τ).loc main_v2 ↦{fullShare} std)) : sProp 𝕄) := by
  have h0 : (cfg0.win 0).arr.view.set = Finset.univ := (Gen.arr_whole0 0).set_eq_univ
  have h1 : (cfg0.win 1).arr.view.set = Finset.univ := (Gen.arr_whole0 1).set_eq_univ
  have hs0 : (rdats (Name := ℕ) (U := UU) O (↑W) wt s0 c).share 0 = fullShare := by unfold RDat.share; split <;> rfl
  have hs1 : (rdats (Name := ℕ) (U := UU) O (↑W) wt s0 c).share 1 = fullShare := by unfold RDat.share; split <;> rfl
  unfold RDat.arraysAt
  rw [bigSep_W0, h0, h1, hs0, hs1]
  iintro ⟨⟨%G0, %hG0, H0⟩, ⟨%G1, %hG1, H1⟩⟩
  have e0 : G0 = wt := final_wt O (↑W) wt s0 c G0 hG0
  iexists G1
  isplitr
  · ipureintro
    exact fun r l hr => final_std O (↑W) wt s0 c G1 hG1 r l hr
  subst e0
  isplitl [H0]
  · iexact H0
  · iexact H1

/-- The region's exit. -/
theorem exit_retile (O : CellTallies nD τ sig (HIx 1)) (W : Waits sig (HIx 1)) (wt : Vec F S64x1000000 .f32) (s0 : Vec F S1000448x128 .f32)
    (c : Dev nD) :
    iprop((rdats (Name := ℕ) (U := UU) O (↑W) wt s0 c).arraysAt cfg0.N ∗ (rdats (Name := ℕ) (U := UU) O (↑W) wt s0 c).owesAt none (Fin.last cfg0.N))
      ⊢ (postR O W wt c : sProp 𝕄) := by
  refine (sep_mono (arraysAt_elim O W wt s0 c) .rfl).trans ?_
  iintro ⟨⟨%std, %hstd, H1, H2⟩, ⟨%W', %hW', Ho⟩⟩
  unfold postR
  iexists std, W'
  isplitr
  · ipureintro
    refine ⟨hstd, fun p hp => ?_⟩
    rcases hW' hp with h | ⟨w, s, rfl⟩
    · exact .inl h
    · exact .inr rfl
  isplitl [H1]
  · iexact H1
  isplitl [H2]
  · iexact H2
  iexact Ho

/-- Every array of the pipeline is held at the full share. -/
theorem share_full (O : CellTallies nD τ sig (HIx 1)) (W : Waits sig (HIx 1)) (wt : Vec F S64x1000000 .f32) (s0 : Vec F S1000448x128 .f32)
    (c : Dev nD) (w : Fin 2) : (rds O W wt s0 0 c).share w = fullShare := by
  unfold RDat.share; split <;> rfl

/-- The region: no semaphore of the kernel's own, no invariant; it is entered from the two arrays and the core's debts
    and left at `postR`. -/
def region (O : CellTallies nD τ sig (HIx 1)) (hO : ∀ g, O g none = 0) (W : Waits sig (HIx 1))
    (wt : Vec F S64x1000000 .f32) (s0 : Vec F S1000448x128 .f32)
    (lv : GSem nD τ sig → HIx 1 → ℕ) (hlv : (K (F := F)).Refines lv) :
    Pipeline.RDat.RegionSeg (pcfgs (F := F)) adm (rds O W wt s0) none (defs₀ (F := F)) 𝒱₀ (K (F := F)).L lv (0 : Fin 1) where
  win := Gen.winFacts0.to₀
  block_pos := Gen.block_pos0
  stage_whole := Gen.stage_whole0
  K := PEmpty
  osem := fun k => k.elim
  ho := Pipeline.OwnSemFacts.none _
  hbody c := body_obligation O (↑W) wt s0 c none
  hwaits c := Pipeline.RDat.cellsWaits_intro (Pipeline.pin (pcfgs (F := F)) adm) (rds O W wt s0) none 0 c
    fun w s t => (K (F := F)).mayWait_none _ hO lv hlv
  pre c := iprop(((SparseCore.T c : Thread nD τ).loc main_v1 ↦{fullShare} wt) ∗ ((SparseCore.T c : Thread nD τ).loc main_v2 ↦{fullShare} s0)
    ∗ owes (SparseCore.T c : Thread nD τ) O W)
  post c := postR O W wt c
  X _ := iprop(emp)
  Y _ := iprop(emp)
  Z _ := iprop(emp)
  hentry c := by
    rw [Pipeline.RDat.arrays_eq (pcfgs (F := F)) adm (rds O W wt s0) 0 c Gen.arr_whole0 (share_full O W wt s0 c), bigSep_W0]
    iintro ⟨⟨H1, H2, Ho⟩, -, -⟩
    imodintro
    isplitl [H1 H2]
    · isplitl [H1]
      · iexact H1
      · iexact H2
    isplitr
    · unfold Pipeline.prefHeld
      rw [Finset.univ_eq_empty, BI.bigSep_empty]
      iempintro
    isplitl [Ho]
    · iexists W
      isplitr
      · ipureintro; exact Set.subset_union_left
      iexact Ho
    isplitr <;> iempintro
  hin c := by
    iintro -; iempintro
  hout c := by
    rw [scopedRest0_eq, Pipeline.ownSems0_none]
    iintro -
    isplitr
    · iempintro
    isplitr <;> iempintro
  hexit c := by
    iintro ⟨Ha, Ho, -, -⟩
    imodintro
    iapply (exit_retile O W wt s0 c)
    isplitl [Ha]
    · iexact Ha
    · iexact Ho

/-- The program that is the region's call alone, in the signature of the certificate's own table. -/
abbrev callOnly : Prog (TpuEff nD τ sig (Elt F) (ΛP (F := F)) .tc) PUnit :=
  .op (.customCall (Pipeline.entry 0) ()) fun _ => .ret PUnit.unit

set_option maxHeartbeats 1000000 in
/-- THE REGION'S STEP on the TensorCore thread of device `d` inside the launch: from the boundary, the table at `wt`, the
    output array at anything, the core's debts `O` (none at the kernels' own index) with recorded waits `W`, the level
    facts and the pipeline's ghost state, the region's call runs to the boundary and `postR` for the continuation. -/
theorem wp_retile (d : Dev nD) (O : CellTallies nD τ sig (HIx 1)) (hO : ∀ g, O g none = 0) (W : Waits sig (HIx 1))
    (wt : Vec F S64x1000000 .f32) (s0 : Vec F S1000448x128 .f32)
    (lv : GSem nD τ sig → HIx 1 → ℕ) (hlv : (K (F := F)).Refines lv) {α : Type}
    (k : PUnit → Prog (TpuEff nD τ sig (Elt F) (SparseCore.Sig (ΛP (F := F)) 1) .tc) α) (Q : α → sProp 𝕄) :
    iprop(boundary (SparseCore.T d : Thread nD τ) ∗ ((SparseCore.T d : Thread nD τ).loc main_v1 ↦{fullShare} wt)
        ∗ ((SparseCore.T d : Thread nD τ).loc main_v2 ↦{fullShare} s0) ∗ owes (SparseCore.T d : Thread nD τ) O W
        ∗ levAts (K (F := F)).L lv
        ∗ Pipeline.cellsGhost (Pipeline.pin (pcfgs (F := F)) adm) EP 0 d ∗ Pipeline.toksInit (Pipeline.pin (pcfgs (F := F)) adm) EP 0 d
        ∗ (iprop(boundary (SparseCore.T d : Thread nD τ) ∗ postR O W wt d)
            -∗ wp frame (wpE ((K (F := F)).defs (D (F := F))) 𝒱 (SparseCore.T d : Thread nD τ) none) Set.univ (k ⟨⟩) Q))
      ⊢ wp frame (wpE ((K (F := F)).defs (D (F := F))) 𝒱 (SparseCore.T d : Thread nD τ) none) Set.univ
          (.op (.customCall (SparseCore.inner (Pipeline.entry 0)) ()) k) Q := by
  rw [show (Prog.op (.customCall (SparseCore.inner (Pipeline.entry 0)) ()) k
        : Prog (TpuEff nD τ sig (Elt F) (SparseCore.Sig (ΛP (F := F)) 1) .tc) α)
      = (SparseCore.liftProg (callOnly (F := F)) >>= k) from rfl, wp_bind]
  refine BIBase.Entails.trans ?_ ((K (F := F)).wp_liftProg (D (F := F)) 𝒱 (SparseCore.T d : Thread nD τ) Set.univ none (callOnly (F := F)) _)
  refine BIBase.Entails.trans ?_ (Pipeline.RDat.RegionSeg.wp (pcfgs (F := F)) adm (rds O W wt s0) none phinj EP (defs₀ (F := F)) 𝒱₀
    (K (F := F)).L lv (region O hO W wt s0 lv hlv) d none (fun _ h => by cases h) (fun _ => .ret PUnit.unit) _)
  rw [show (region O hO W wt s0 lv hlv).post d = postR O W wt d from rfl,
    show (region O hO W wt s0 lv hlv).pre d
      = iprop(((SparseCore.T d : Thread nD τ).loc main_v1 ↦{fullShare} wt) ∗ ((SparseCore.T d : Thread nD τ).loc main_v2 ↦{fullShare} s0)
        ∗ owes (SparseCore.T d : Thread nD τ) O W) from rfl]
  iintro ⟨Hb, H1, H2, Ho, Hlev, Hg, Ht, Hk⟩
  isplitl [Hk]
  · iintro ⟨Hb, Hpost⟩
    rw [wp_ret]
    imodintro
    iapply Hk
    isplitl [Hb]
    · iexact Hb
    · iexact Hpost
  isplitl [Hb]
  · iexact Hb
  isplitl [H1 H2 Ho]
  · isplitl [H1]
    · iexact H1
    isplitl [H2]
    · iexact H2
    · iexact Ho
  isplitl [Hlev]
  · iexact Hlev
  isplitl [Hg]
  · iexact Hg
  · iexact Ht

/-- What the launch deals the pipeline: from the rounds library's launch element at the pipeline's staging cells, every
    device's cells' ghost state and duty tokens. -/
theorem fund :
    BI.own (EP (initOf (Pipeline.cells (Pipeline.pin (pcfgs (F := F)) adm) phinj) (Pipeline.launchToks (Pipeline.pin (pcfgs (F := F)) adm) phinj)))
      ⊢ (iprop(|==> bigSep Finset.univ fun d : Dev nD =>
          iprop(Pipeline.cellsGhost (Pipeline.pin (pcfgs (F := F)) adm) EP 0 d ∗ Pipeline.toksInit (Pipeline.pin (pcfgs (F := F)) adm) EP 0 d)) : sProp 𝕄) := by
  refine (Pipeline.fund_ghost (Pipeline.pin (pcfgs (F := F)) adm) EP phinj).trans (BI.bupd_mono ?_)
  rw [bigSep_sep']
  refine sep_mono (bigSep_mono fun c _ => ?_) (bigSep_mono fun c _ => ?_)
  · rw [Finset.univ_unique, bigSep_singleton]; exact BI.Entails.refl _
  · rw [Finset.univ_unique, bigSep_singleton]; exact BI.Entails.refl _

end Cert.Kernel.Retile

end
-- ==== Proof.KB.HostValue.lean ====
/-
  The host operations around the two kernels, read at an index. Before the kernels the row numbers `[16384, 50]` are
  flattened to `[819200]` in row-major order (entry 50 b + s is `ids[b, s]`) and the table `[1000000, 64]` is transposed
  to `[64, 1000000]`. After them the result `[819200, 128]` keeps its first 64 columns and is cut back in row-major
  order into `[16384, 50, 64]` (entry (b, s, d) is entry d of flat row 50 b + s). So if flat row n of the kernels' result
  holds, in its first 64 columns, the table's row that the n-th flattened row number names, the final result is the lookup.
-/
import proofs.«206694_g42322607734994_cont_8to1_b_990_36_alg».proof.Kernel
import proofs.«206694_g42322607734994_cont_8to1_b_990_36_alg».proof.Proof.Gen.Kernel
import proofs.«206694_g42322607734994_cont_8to1_b_990_36_alg».proof.Proof.Spec
import Idealize.ShloMosaic.Lib.ValueIdx
import Idealize.ShloMosaic.Lib.Pipeline.Value

noncomputable section

namespace Cert.Kernel.HostValue

open Cert.Kernel Idealize.ShloMosaic Idealize.ShloMosaic.ValueIdx
open Cert.Kernel.Facts₀

variable {F : FTy → Type} [FloatOps F] [Facts]

/-- The flattened row numbers: `[16384, 50]` in row-major order as `[819200]`. -/
abbrev flat (ids2 : IVec S16384x50 32) : IVec S819200 32 := shapeCast S819200 ids2 shapeCasts_S16384x50_S819200

/-- Entry 50 b + s of the flattened row numbers is `ids[b, s]`. -/
theorem flat_at (ids2 : IVec S16384x50 32) (b : Fin 16384) (s : Fin 50) (n : Fin 819200) (hn : n.val = 50 * b.val + s.val) :
    flat ids2 (ix1 n) = ids2 (ix2 b s) := by
  refine shapeCast_apply ids2 shapeCasts_S16384x50_S819200 (ix1 n) (ix2 b s) ?_
  rw [Shape.rowMajor_val_two, Shape.rowMajor_val_one]
  show b.val * 50 + s.val = n.val
  omega

/-- Every flattened row number is a row number, so it is in range when they all are. -/
theorem flat_lt (ids2 : IVec S16384x50 32) (h : ∀ j, (ids2 j).toNat < 1000000) : ∀ j, (flat ids2 j).toNat < 1000000 :=
  fun j => h (Shape.reshapeEquiv shapeCasts_S16384x50_S819200 j)

/-- The transposed table at (l, r) is the table at (r, l). -/
theorem transpose_at (w : FVec F S1000000x64 .f32) (l : Fin 64) (r : Fin 1000000) :
    (transpose S64x1000000 [1, 0] w transposes_S1000000x64_S64x1000000_1_0) (ix2 l r) = w (ix2 r l) :=
  transpose_apply [1, 0] w transposes_S1000000x64_S64x1000000_1_0 (ix2 l r) (ix2 r l)
    (fun b => match b with | ⟨0, _⟩ => rfl | ⟨1, _⟩ => rfl)

/-- The first 64 columns of `[819200, 128]` at (n, d) are the array at (n, d). -/
theorem slice_at (out : FVec F S819200x128 .f32) (n : Fin 819200) (d : Fin 64) :
    extractStridedSlice S819200x64 ![0, 0] out slices_S819200x128_S819200x64_0_0 (ix2 n d)
      = out (ix2 n ⟨d.val, by omega⟩) :=
  extractStridedSlice_apply ![0, 0] out slices_S819200x128_S819200x64_0_0 (ix2 n d) (ix2 n ⟨d.val, by omega⟩)
    (fun a => match a with | ⟨0, _⟩ => (Nat.zero_add _).symm | ⟨1, _⟩ => (Nat.zero_add _).symm)

/-- `[819200, 64]` cut in row-major order into `[16384, 50, 64]`: entry (b, s, d) is entry (50 b + s, d). -/
theorem unflat_at (v : FVec F S819200x64 .f32) (b : Fin 16384) (s : Fin 50) (d : Fin 64) (n : Fin 819200)
    (hn : n.val = 50 * b.val + s.val) :
    shapeCast S16384x50x64 v shapeCasts_S819200x64_S16384x50x64 (ix3 b s d) = v (ix2 n d) := by
  refine shapeCast_apply v shapeCasts_S819200x64_S16384x50x64 (ix3 b s d) (ix2 n d) ?_
  rw [Shape.rowMajor_val_two, Shape.rowMajor_val_three]
  show n.val * 64 + d.val = (b.val * 50 + s.val) * 64 + d.val
  rw [hn]; ring

/-- The result of the host operations after the kernels, when flat row n of the kernels' result holds in column c the
    table's entry c mod 64 of the row that the n-th flattened row number names: the lookup. -/
theorem result_eq (ids2 : IVec S16384x50 32) (w : FVec F S1000000x64 .f32) (out : FVec F S819200x128 .f32)
    (hout : ∀ j, out j = w (ix2 (Cert.Lookup.rowOf ((shapeCast S819200 ids2 shapeCasts_S16384x50_S819200 : IVec S819200 32) (ix1 (j 0))))
      (⟨(j 1).val % 64, Nat.mod_lt _ (by decide)⟩ : Fin 64))) :
    shapeCast S16384x50x64 (extractStridedSlice S819200x64 ![0, 0] out slices_S819200x128_S819200x64_0_0)
        shapeCasts_S819200x64_S16384x50x64
      = Cert.Lookup.rows (F := F) ids2 w := by
  funext j
  obtain ⟨b, s, d, rfl⟩ : ∃ (b : Fin 16384) (s : Fin 50) (d : Fin 64), j = ix3 b s d := ⟨j 0, j 1, j 2, eq_ix3 j⟩
  have hb := b.isLt
  have hs := s.isLt
  have hd := d.isLt
  let n : Fin 819200 := ⟨50 * b.val + s.val, by omega⟩
  rw [unflat_at _ b s d n rfl, slice_at out n d, hout]
  show w (ix2 (Cert.Lookup.rowOf (flat ids2 (ix1 n))) (⟨d.val % 64, _⟩ : Fin 64)) = w (ix2 (Cert.Lookup.rowOf (ids2 (ix2 b s))) d)
  rw [flat_at ids2 b s n rfl]
  refine congrArg (fun c => w (ix2 (Cert.Lookup.rowOf (ids2 (ix2 b s))) c)) (Fin.ext ?_)
  show d.val % 64 = d.val
  exact Nat.mod_eq_of_lt hd

end Cert.Kernel.HostValue

end
-- ==== Proof.KB.Main.lean ====
/-
  The program on the TensorCore thread inside the launch: the row numbers flattened and the table transposed by the
  host, the transposed table retiled by the first kernel's region, the rows gathered by the call to the SparseCores,
  and the result cut back to its first 64 columns and to three axes by the host. The thread ends holding the two
  arguments as they were and the result at the lookup.
-/
import proofs.«206694_g42322607734994_cont_8to1_b_990_36_alg».proof.Proof.KB.Deal
import proofs.«206694_g42322607734994_cont_8to1_b_990_36_alg».proof.Proof.KB.RetileRegion
import proofs.«206694_g42322607734994_cont_8to1_b_990_36_alg».proof.Proof.KB.HostValue

set_option maxRecDepth 16384

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-- The flat list of row numbers the call reads: the argument's, flattened by the host. -/
abbrev idsOf : (d : Dev nD) → Buf (Elt F) (iLoc d) := fun d => Cert.Kernel.HostValue.flat (m (a0Loc d))

/-- The retiling pipeline's ghost state on device `d`, as the launch deals it. -/
abbrev G (d : Dev nD) : sProp 𝕄 :=
  iprop(Pipeline.cellsGhost (Pipeline.pin (pcfgs (F := F)) Retile.adm) EP 0 d ∗ Pipeline.toksInit (Pipeline.pin (pcfgs (F := F)) Retile.adm) EP 0 d)

/-- What the thread ends holding: the arguments as they were, the result at the lookup. -/
abbrev FIN (d : Dev nD) : sProp 𝕄 :=
  iprop((a0Loc d ↦{fullShare} m (a0Loc d)) ∗ (a1Loc d ↦{fullShare} m (a1Loc d))
    ∗ ((SparseCore.T d : Thread nD τ).loc main_v5 ↦{fullShare} Cert.Lookup.rows (F := F) (m (a0Loc d)) (m (a1Loc d))))

/-- The TensorCore owes nothing at the kernels' own index. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this
  omega

omit [FloatOps F] in
/-- The TensorCore's unscoped buffers are @main's eight arrays. -/
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (iLoc d ↦{fullShare} W main_v0)
      ∗ (wtLoc d ↦{fullShare} W main_v1) ∗ (tLoc d ↦{fullShare} W main_v2) ∗ (oLoc d ↦{fullShare} W main_v3)
      ∗ ((SparseCore.T d : Thread nD τ).loc main_v4 ↦{fullShare} W main_v4) ∗ ((SparseCore.T d : Thread nD τ).loc main_v5 ↦{fullShare} W main_v5)) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The host operations -/

abbrev a0' : DevRef τ sig := Proc.devRef .tc (main_arg0 : Ref sig .tc)
abbrev a1' : DevRef τ sig := Proc.devRef .tc (main_arg1 : Ref sig .tc)
abbrev i' : DevRef τ sig := Proc.devRef .tc (main_v0 : Ref sig .tc)
abbrev wt' : DevRef τ sig := Proc.devRef .tc (main_v1 : Ref sig .tc)
abbrev o' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev opFlat : HloOp τ sig (Elt F) := StableHlo.reshape main_arg0 main_v0 rfl Facts₀.shapeCasts_S16384x50_S819200
abbrev opTr : HloOp τ sig (Elt F) :=
  StableHlo.unary main_arg1 main_v1 ((transpose S64x1000000 [1, 0] · Facts₀.transposes_S1000000x64_S64x1000000_1_0) : (⟨S1000000x64, .f32⟩ : BufTy).Contents (Elt F) → (⟨S64x1000000, .f32⟩ : BufTy).Contents (Elt F))
abbrev opSl : HloOp τ sig (Elt F) :=
  StableHlo.unary main_v3 main_v4 ((extractStridedSlice S819200x64 ![0, 0] · Facts₀.slices_S819200x128_S819200x64_0_0) : (⟨S819200x128, .f32⟩ : BufTy).Contents (Elt F) → (⟨S819200x64, .f32⟩ : BufTy).Contents (Elt F))
abbrev opCut : HloOp τ sig (Elt F) := StableHlo.reshape main_v4 main_v5 rfl Facts₀.shapeCasts_S819200x64_S16384x50x64

omit [FloatOps F] in
/-- Two distinct arrays held. -/
theorem held_pair (d : Dev nD) (x y : DevRef τ sig) (hxy : x ≠ y) (W : Valuation τ sig (Elt F)) :
    (held (SparseCore.T d : Thread nD τ) {x, y} W : sProp 𝕄) = iprop(((d, x) ↦{fullShare} W x) ∗ ((d, y) ↦{fullShare} W y)) := by
  unfold held
  rw [SparseCore.bigSep_insert' (by rw [Finset.mem_singleton]; exact hxy), bigSep_singleton]

/-- The launch valuation, -/
def V0 (d : Dev nD) : Valuation τ sig (Elt F) := fun b => m (d, b)
/-- and the same with one array at other contents. -/
def V1 (d : Dev nD) (b : DevRef τ sig) (f : b.ty.Contents (Elt F)) : Valuation τ sig (Elt F) := Function.update (V0 m d) b f

/-! ### What each host operation leaves -/

theorem flat_a0 (d : Dev nD) : (opFlat (F := F)).result (V0 m d) a0' = m (a0Loc d) :=
  StableHlo.reshape_result_ne _ _ _ _ _ _ (V0 m d) (r := main_arg0) (by decide)
theorem flat_i (d : Dev nD) : (opFlat (F := F)).result (V0 m d) i' = idsOf m d :=
  StableHlo.reshape_result main_arg0 main_v0 rfl _ _ _ (V0 m d)

theorem tr_a1 (d : Dev nD) : (opTr (F := F)).result (V0 m d) a1' = m (a1Loc d) :=
  StableHlo.unary_result_ne _ _ _ _ _ (V0 m d) (r := main_arg1) (by decide)
/-- The transposed table. -/
abbrev wtOf (d : Dev nD) : Vec F S64x1000000 .f32 :=
  transpose S64x1000000 [1, 0] (m (a1Loc d)) Facts₀.transposes_S1000000x64_S64x1000000_1_0
theorem tr_wt (d : Dev nD) : (opTr (F := F)).result (V0 m d) wt' = wtOf m d :=
  StableHlo.unary_result main_arg1 main_v1 _ _ _ (V0 m d)

theorem sl_o (d : Dev nD) (f : Buf (Elt F) (oLoc d)) : (opSl (F := F)).result (V1 m d o' f) o' = f :=
  (StableHlo.unary_result_ne _ _ _ _ _ (V1 m d o' f) (r := main_v3) (by decide)).trans (Function.update_self _ _ _)
theorem sl_v4 (d : Dev nD) (f : Buf (Elt F) (oLoc d)) :
    (opSl (F := F)).result (V1 m d o' f) v4' = extractStridedSlice S819200x64 ![0, 0] f Facts₀.slices_S819200x128_S819200x64_0_0 :=
  (StableHlo.unary_result main_v3 main_v4 _ _ _ (V1 m d o' f)).trans (by rw [show V1 m d o' f o' = f from Function.update_self _ _ _])

theorem cut_v5 (d : Dev nD) (g : Vec F S819200x64 .f32) :
    (opCut (F := F)).result (V1 m d v4' g) v5' = shapeCast S16384x50x64 g Facts₀.shapeCasts_S819200x64_S16384x50x64 :=
  (StableHlo.reshape_result main_v4 main_v5 rfl _ _ _ (V1 m d v4' g)).trans (by rw [show V1 m d v4' g v4' = g from Function.update_self _ _ _]; rfl)

/-! ### The pairs of arrays the host operations hold, before and after -/

theorem held_flat (d : Dev nD) :
    (held (SparseCore.T d : Thread nD τ) {a0', i'} ((opFlat (F := F)).result (V0 m d)) : sProp 𝕄)
      = iprop((a0Loc d ↦{fullShare} m (a0Loc d)) ∗ (iLoc d ↦{fullShare} idsOf m d)) := by
  rw [held_pair d a0' i' (by decide), flat_a0, flat_i]
theorem held_tr (d : Dev nD) :
    (held (SparseCore.T d : Thread nD τ) {a1', wt'} ((opTr (F := F)).result (V0 m d)) : sProp 𝕄)
      = iprop((a1Loc d ↦{fullShare} m (a1Loc d)) ∗ (wtLoc d ↦{fullShare} wtOf m d)) := by
  rw [held_pair d a1' wt' (by decide), tr_a1, tr_wt]
theorem held_sl0 (d : Dev nD) (f : Buf (Elt F) (oLoc d)) :
    (held (SparseCore.T d : Thread nD τ) {o', v4'} (V1 m d o' f) : sProp 𝕄)
      = iprop((oLoc d ↦{fullShare} f) ∗ ((SparseCore.T d : Thread nD τ).loc main_v4 ↦{fullShare} m ((SparseCore.T d : Thread nD τ).loc main_v4))) := by
  rw [held_pair d o' v4' (by decide), show V1 m d o' f o' = f from Function.update_self _ _ _,
    show V1 m d o' f v4' = m (d, v4') from Function.update_of_ne (show v4' ≠ o' by decide) _ _]
theorem held_sl (d : Dev nD) (f : Buf (Elt F) (oLoc d)) :
    (held (SparseCore.T d : Thread nD τ) {o', v4'} ((opSl (F := F)).result (V1 m d o' f)) : sProp 𝕄)
      = iprop((oLoc d ↦{fullShare} f)
        ∗ ((SparseCore.T d : Thread nD τ).loc main_v4 ↦{fullShare} extractStridedSlice S819200x64 ![0, 0] f Facts₀.slices_S819200x128_S819200x64_0_0)) := by
  rw [held_pair d o' v4' (by decide), sl_o, sl_v4]
theorem held_cut0 (d : Dev nD) (g : Vec F S819200x64 .f32) :
    (held (SparseCore.T d : Thread nD τ) {v4', v5'} (V1 m d v4' g) : sProp 𝕄)
      = iprop(((SparseCore.T d : Thread nD τ).loc main_v4 ↦{fullShare} g)
        ∗ ((SparseCore.T d : Thread nD τ).loc main_v5 ↦{fullShare} m ((SparseCore.T d : Thread nD τ).loc main_v5))) := by
  rw [held_pair d v4' v5' (by decide), show V1 m d v4' g v4' = g from Function.update_self _ _ _,
    show V1 m d v4' g v5' = m (d, v5') from Function.update_of_ne (show v5' ≠ v4' by decide) _ _]
theorem held_cut (d : Dev nD) (g : Vec F S819200x64 .f32) :
    (held (SparseCore.T d : Thread nD τ) {v4', v5'} ((opCut (F := F)).result (V1 m d v4' g)) : sProp 𝕄)
      ⊢ ((SparseCore.T d : Thread nD τ).loc main_v5 ↦{fullShare} shapeCast S16384x50x64 g Facts₀.shapeCasts_S819200x64_S16384x50x64 : sProp 𝕄) := by
  rw [held_pair d v4' v5' (by decide), cut_v5]
  exact sep_elim_right

/-- What the TensorCore owes and has recorded, taken out of its state before the call and put back. -/
theorem tcSt_owes (d : Dev nD) :
    (K (F := F)).tcSt EH d 0 ⊢ (iprop(∃ W, ⌜(K (F := F)).WBelow (SparseCore.T d) W 0⌝ ∗ owes (SparseCore.T d : Thread nD τ) ((K (F := F)).Otc d 0) W
        ∗ ((∃ W', ⌜(K (F := F)).WBelow (SparseCore.T d) W' 0⌝ ∗ owes (SparseCore.T d : Thread nD τ) ((K (F := F)).Otc d 0) W') -∗ (K (F := F)).tcSt EH d 0)) : sProp 𝕄) := by
  unfold SparseCore.Cfg.tcSt
  iintro ⟨⟨%W, %hW, Ho⟩, Hrest⟩
  iexists W
  isplitr
  · ipureintro; exact hW
  isplitl [Ho]
  · iexact Ho
  iintro ⟨%W', %hW', Ho⟩
  isplitl [Ho]
  · iexists W'
    isplitr
    · ipureintro; exact hW'
    · iexact Ho
  · iexact Hrest

theorem hmain (hids : ∀ d j, (m (a0Loc d) j).toNat < 1000000) (κ : GSem nD τ sig → ℕ) (d : Dev nD) :
    iprop((K (F := F)).ctx EH (P m (idsOf m)) κ ∗ (K (F := F)).tcSt EH d 0 ∗ (K (F := F)).tcRes m ρ d ∗ G d)
      ⊢ wp frame (wpE ((K (F := F)).defs (D (F := F))) 𝒱 (SparseCore.T d : Thread nD τ) none) Set.univ (main d)
          fun _ => iprop((K (F := F)).tcSt EH d 1 ∗ FIN m d) := by
  unfold SparseCore.Cfg.tcRes
  rw [unscopedBufs_eq]
  simp only [main, wp_bind, wp_pure, Prog.lift]
  iintro ⟨#Hctx, Hst, ⟨Hb, ⟨Ha0, Ha1, Hi, Hwt, Ht, Ho, H4, H5⟩, -, -⟩, ⟨Hg, Htk⟩⟩
  -- the row numbers flattened
  iapply (wp_hlo_within 𝒱 (SparseCore.T d) none Set.univ (op := opFlat) (S := {a0', i'}) (Finset.Subset.refl _) (V := V0 m d)) $$ [Hb Ha0 Hi]
  · isplitl [Hb]; · iexact Hb
    rw [held_pair d a0' i' (by decide)]
    isplitl [Ha0]; · iexact Ha0
    iexact Hi
  iintro ⟨Hb, Hh⟩
  ihave Hh' := (Entails.of_eq (held_flat m d)) $$ Hh
  icases Hh' with ⟨Ha0, Hi⟩
  rw [wp_ret]; imodintro
  -- the table transposed
  iapply (wp_hlo_within 𝒱 (SparseCore.T d) none Set.univ (op := opTr) (S := {a1', wt'}) (Finset.Subset.refl _) (V := V0 m d)) $$ [Hb Ha1 Hwt]
  · isplitl [Hb]; · iexact Hb
    rw [held_pair d a1' wt' (by decide)]
    isplitl [Ha1]; · iexact Ha1
    iexact Hwt
  iintro ⟨Hb, Hh⟩
  ihave Hh' := (Entails.of_eq (held_tr m d)) $$ Hh
  icases Hh' with ⟨Ha1, Hwt⟩
  rw [wp_ret]; imodintro
  -- the retiling region, the core's debts taken out of its state and put back
  ihave Hst' := (tcSt_owes d) $$ Hst
  icases Hst' with ⟨%W, %hW, Howes, Hback⟩
  iapply (Retile.wp_retile d ((K (F := F)).Otc d 0) (Otc_none d 0) W (wtOf m d) (m (tLoc d)) (K (F := F)).lev (K (F := F)).refines_self Prog.ret _)
  isplitl [Hb]; · iexact Hb
  isplitl [Hwt]; · iexact Hwt
  isplitl [Ht]; · iexact Ht
  isplitl [Howes]; · iexact Howes
  isplitr; · iapply (SparseCore.Cfg.ctx_levAts κ); iexact Hctx
  isplitl [Hg]; · iexact Hg
  isplitl [Htk]; · iexact Htk
  iintro ⟨Hb, Hpost⟩
  unfold Retile.postR
  icases Hpost with ⟨%std, %W', %hpost, Hwt, Ht, Howes⟩
  rw [wp_ret]; imodintro
  have hstd : IsTable m d std := fun r l hr =>
    (hpost.1 r l hr).trans (Cert.Kernel.HostValue.transpose_at (m (a1Loc d)) _ _)
  have hW' : (K (F := F)).WBelow (SparseCore.T d) W' 0 := fun p hp => by
    rcases hpost.2 p hp with h | h
    · exact hW p h
    · rw [h, SparseCore.Cfg.lev_none]
  -- the call
  iapply ((K (F := F)).wp_run (D (F := F)) 𝒱 (EH := EH) (P := P m (idsOf m)) κ d 0)
  isplitr; · iexact Hctx
  isplitl [Hback Howes]
  · iapply Hback
    iexists W'
    isplitr
    · ipureintro; exact hW'
    · iexact Howes
  isplitl [Hi Ho Ht]
  · iapply (deal m (idsOf m) d std hstd)
    isplitl [Hi]; · iexact Hi
    isplitl [Ho]; · iexists _; iexact Ho
    iexact Ht
  iintro ⟨Hst, Hdn⟩
  ihave Hdn' := (undeal m (idsOf m) d) $$ Hdn
  icases Hdn' with ⟨Hi, Ho⟩
  -- the first 64 columns
  iapply (wp_hlo_within 𝒱 (SparseCore.T d) none Set.univ (op := opSl) (S := {o', v4'}) (Finset.Subset.refl _) (V := V1 m d o' (outG m (idsOf m) d))) $$ [Hb Ho H4]
  · isplitl [Hb]; · iexact Hb
    rw [held_sl0]
    isplitl [Ho]; · iexact Ho
    iexact H4
  iintro ⟨Hb, Hh⟩
  ihave Hh' := (Entails.of_eq (held_sl m d (outG m (idsOf m) d))) $$ Hh
  icases Hh' with ⟨Ho, H4⟩
  rw [wp_ret]; imodintro
  -- cut back to three axes
  iapply (wp_hlo_within 𝒱 (SparseCore.T d) none Set.univ (op := opCut) (S := {v4', v5'}) (Finset.Subset.refl _)
    (V := V1 m d v4' (extractStridedSlice S819200x64 ![0, 0] (outG m (idsOf m) d) Facts₀.slices_S819200x128_S819200x64_0_0))) $$ [Hb H4 H5]
  · isplitl [Hb]; · iexact Hb
    rw [held_cut0]
    isplitl [H4]; · iexact H4
    iexact H5
  iintro ⟨Hb, Hh⟩
  ihave H5 := (held_cut m d _) $$ Hh
  rw [wp_ret]; imodintro; imodintro
  isplitl [Hst]; · iexact Hst
  isplitl [Ha0]; · iexact Ha0
  isplitl [Ha1]; · iexact Ha1
  rw [← Cert.Kernel.HostValue.result_eq (m (a0Loc d)) (m (a1Loc d)) (outG m (idsOf m) d) (fun j => rfl)]
  iexact H5

end Cert.Kernel.Run

end
-- ==== Proof.KB.LaunchElem.lean ====
/-
  The launch's ghost element and the reading of the final memory. The element pairs the rounds of the call's handshakes
  with the rounds of the TensorCore pipeline's staging cells (and the tiles' transfer counters, at their unit): the first
  is kept for the call's protocol, the second funds every device's staging cells at round 0 with their first tokens, and
  the payload's extra per-thread part is empty. At the end, the two arguments held at their launch contents and the
  result buffer held at the lookup say, against the physical state, that the memory holds exactly those contents.
-/
import proofs.«206694_g42322607734994_cont_8to1_b_990_36_alg».proof.Proof.KB.Pay
import proofs.«206694_g42322607734994_cont_8to1_b_990_36_alg».proof.Proof.KB.RetileRegion

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)
variable (ids : (d : Dev nD) → Buf (Elt F) (iLoc d))

/-! ## The launch element -/

/-- The handshakes' rounds at their start, the staging cells' rounds at their start with the launch's tokens, the
    transfer counters at their unit. -/
def u₀ : UU :=
  (initOf (K (F := F)).hsCells (K (F := F)).hsToks,
    (initOf (Pipeline.cells (Pipeline.pin (pcfgs (F := F)) Retile.adm) Retile.phinj)
      (Pipeline.launchToks (Pipeline.pin (pcfgs (F := F)) Retile.adm) Retile.phinj), 1))

omit m ids in
theorem bigSep_emp' {I : Type} (s : Finset I) : (bigSep s fun _ => iprop(emp)) = (iprop(emp) : sProp 𝕄) := bigSep_emp_const s

/-- The element splits into the handshakes' rounds, every device's staging cells at round 0 with their first tokens,
    and the payload's (empty) per-thread part. -/
theorem hu₀ : (ownU (u₀ (F := F)) : sProp 𝕄)
    ⊢ |={Set.univ}=> iprop(BI.own (EH (initOf (K (F := F)).hsCells (K (F := F)).hsToks))
        ∗ (bigSep Finset.univ fun d : Dev nD =>
            iprop(Pipeline.cellsGhost (Pipeline.pin (pcfgs (F := F)) Retile.adm) EP 0 d ∗ Pipeline.toksInit (Pipeline.pin (pcfgs (F := F)) Retile.adm) EP 0 d))
        ∗ bigSep Finset.univ fun thr : Thread nD τ => bigSep Finset.univ fun q : Fin 1 => (P m ids).x q thr) := by
  unfold u₀
  iintro Hu
  ihave H := (ownU_triple (F := F) (initOf (K (F := F)).hsCells (K (F := F)).hsToks)
    (initOf (Pipeline.cells (Pipeline.pin (pcfgs (F := F)) Retile.adm) Retile.phinj)
      (Pipeline.launchToks (Pipeline.pin (pcfgs (F := F)) Retile.adm) Retile.phinj)) (1 : Counters)) $$ Hu
  icases H with ⟨HH, HP⟩
  imod (Retile.fund (F := F)) $$ HP with Hg
  imodintro
  isplitl [HH]; · iexact HH
  isplitl [Hg]; · iexact Hg
  rw [show (bigSep Finset.univ fun thr : Thread nD τ => bigSep Finset.univ fun q : Fin 1 => (P (F := F) m ids).x q thr) = bigSep Finset.univ fun _ => iprop(emp) from
    bigSep_congr fun _ _ => bigSep_univ_of_subsingleton (0 : Fin 1), bigSep_emp']
  iempintro

/-! ## The final memory -/

/-- The final state holds the two arguments as launched and the lookup in the result buffer. -/
def fq (d : Dev nD) (s' : Phys nD τ sig (Elt F)) : Prop :=
  s'.mem.mem (a0Loc d) = m (a0Loc d) ∧ s'.mem.mem (a1Loc d) = m (a1Loc d)
    ∧ s'.mem.mem ((SparseCore.T d).loc main_v5) = Cert.Lookup.rows (F := F) (m (a0Loc d)) (m (a1Loc d))

omit ids in
set_option maxRecDepth 16384 in
/-- The three buffers held whole agree with the physical state, element by element. -/
theorem hfin (d : Dev nD) (s' : Phys nD τ sig (Elt F)) :
    iprop(((a0Loc d ↦{fullShare} m (a0Loc d)) ∗ (a1Loc d ↦{fullShare} m (a1Loc d))
        ∗ ((SparseCore.T d).loc main_v5 ↦{fullShare} Cert.Lookup.rows (F := F) (m (a0Loc d)) (m (a1Loc d)))) ∗ SI s')
      ⊢ (⌜fq m d s'⌝ : sProp 𝕄) := by
  iintro ⟨⟨H0, H1, H5⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := (SparseCore.T d).loc main_v5) (I := Finset.univ) (q := fullShare)
    (f := Cert.Lookup.rows (F := F) (m (a0Loc d)) (m (a1Loc d)))) $$ [HSI H5]
  · isplitl [HSI] <;> iassumption
  icases H with %h5
  ipureintro
  exact ⟨funext fun i => h0 i (Finset.mem_univ i), funext fun i => h1 i (Finset.mem_univ i), funext fun i => h5 i (Finset.mem_univ i)⟩

/-! ## The claim's post -/

/-- On every device: the result buffer holds the lookup, the arguments what they held. -/
def QC : PUnit × MemSt nD τ sig (Elt F) → Prop := fun r => ∀ c : Dev nD,
  r.2.mem ((SparseCore.T c).loc main_v5) = Cert.Lookup.rows (F := F) (m (a0Loc c)) (m (a1Loc c))
    ∧ r.2.mem (a0Loc c) = m (a0Loc c) ∧ r.2.mem (a1Loc c) = m (a1Loc c)

omit ids in
theorem hQ (s' : Phys nD τ sig (Elt F)) (h : ∀ d, fq m d s') : QC m (⟨⟩, s'.mem) :=
  fun c => ⟨(h c).2.2, (h c).1, (h c).2.1⟩

end Cert.Kernel.Run

end
-- ==== Proof.KB.Frame.lean ====
/-
  The program's run: every weakly fair execution of the device's thirty-five threads — @main on the TensorCore, the
  two sequencers, the thirty-two tiles — ends, nothing faulting, with the result array holding the looked-up rows
  and the two arguments as they were. The launch theorem of a SparseCore program, at one vector-subcore call: the
  tile's task, how the call's operands split among the tiles, @main's proof, the launch element, and how the final
  memory reads.
-/
import proofs.«206694_g42322607734994_cont_8to1_b_990_36_alg».proof.Proof.KB.TileObl
import proofs.«206694_g42322607734994_cont_8to1_b_990_36_alg».proof.Proof.KB.Main
import proofs.«206694_g42322607734994_cont_8to1_b_990_36_alg».proof.Proof.KB.LaunchElem

noncomputable section

namespace Cert.Kernel.Run

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

theorem run_main [∀ e, Nonempty (Elt F e)] (hids : ∀ d j, (m (a0Loc d) j).toNat < 1000000) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (idsOf m)) facts v₀
    (fun q hq => match q with | 0 => nomatch hq)
    (fun q _ => match q with | 0 => tileObl m (idsOf m) facts (fun d => Cert.Kernel.HostValue.flat_lt (m (a0Loc d)) (hids d)))
    (fun q _ => match q with | 0 => SparseCore.Cfg.VecSplit.of_plain (vecSplit m (idsOf m)))
    m ρ main G (FIN m) (u₀ (F := F)) (sep_elim_left.trans (hu₀ m (idsOf m))) (hmain m ρ hids) (fq m) (hfin m) (QC m) (hQ m)

end Cert.Kernel.Run

end
-- ==== Proof.LibHostSettle.lean ====
/-
  A general fact about straight lines of host operations in which every buffer is written once, after everything it
  is computed from. Number the device's buffers by their index. Suppose the k-th operation of a line writes exactly
  the buffers of index n + k, and its result there depends only on the contents of buffers of smaller index. Then the
  contents after the whole line are a fixed point of every operation of the line: running any one of them again changes
  nothing. Read at an operation's result buffer this is the equation "the result buffer holds the operation's function
  of its operands' final contents", with the same final contents on both sides — the line read as a system of equations.
-/
import Idealize.ShloMosaic.Lib.StableHlo.Run

namespace Idealize.ShloMosaic.StableHlo

variable {τ : Topo} {sig : RefSig} {Val : EltTy → Type}

/-- The operation writes only buffers of index `n`, and what it leaves there is decided by the buffers of smaller index. -/
structure Step (n : ℕ) (op : HloOp τ sig Val) : Prop where
  wr : ∀ b ∈ op.writes, b.idx.val = n
  rd : ∀ F G : Valuation τ sig Val, (∀ b : DevRef τ sig, b.idx.val < n → F b = G b) →
    ∀ b ∈ op.writes, op.result F b = op.result G b

/-- The line's operations write the buffers of index `n`, `n + 1`, … in turn, each from buffers of smaller index. -/
def InOrder : ℕ → List (HloOp τ sig Val) → Prop
  | _, [] => True
  | n, op :: l => Step n op ∧ InOrder (n + 1) l

theorem InOrder.nil (n : ℕ) : InOrder n ([] : List (HloOp τ sig Val)) := trivial

theorem InOrder.cons {n : ℕ} {op : HloOp τ sig Val} {l : List (HloOp τ sig Val)} (h : Step n op) (hl : InOrder (n + 1) l) :
    InOrder n (op :: l) := ⟨h, hl⟩

/-- Two such lines, the second starting where the first stops, make one. -/
theorem InOrder.append : ∀ {n m : ℕ} {l₁ l₂ : List (HloOp τ sig Val)}, InOrder n l₁ → n + l₁.length = m → InOrder m l₂ →
    InOrder n (l₁ ++ l₂)
  | n, m, [], l₂, _, hm, h₂ => by
    have : n = m := by simpa using hm
    subst this; exact h₂
  | n, m, op :: l, l₂, h₁, hm, h₂ =>
    ⟨h₁.1, InOrder.append h₁.2 (by simp only [List.length_cons] at hm; omega) h₂⟩

/-- Every buffer such a line writes has index at least the line's first. -/
theorem InOrder.le_of_mem_writes : ∀ {n : ℕ} {l : List (HloOp τ sig Val)}, InOrder n l →
    ∀ op ∈ l, ∀ b ∈ op.writes, n ≤ b.idx.val
  | _, [], _, _, h, _, _ => nomatch h
  | n, op :: l, h, o, ho, b, hb => by
    rcases List.mem_cons.mp ho with rfl | ho'
    · exact (h.1.wr b hb).ge
    · exact (Nat.le_succ n).trans (InOrder.le_of_mem_writes h.2 o ho' b hb)

/-- A buffer of index below the line's first keeps its contents through the line. -/
theorem InOrder.after_of_lt {n : ℕ} {l : List (HloOp τ sig Val)} (h : InOrder n l) (V : Valuation τ sig Val)
    {b : DevRef τ sig} (hb : b.idx.val < n) : after l V b = V b :=
  after_of_forall_not_mem l V fun op hop hw => absurd (h.le_of_mem_writes op hop b hw) (Nat.not_le.mpr hb)

/-- The contents after the line are a fixed point of each of its operations. -/
theorem InOrder.settled : ∀ {n : ℕ} {l : List (HloOp τ sig Val)}, InOrder n l → ∀ (V : Valuation τ sig Val),
    ∀ op ∈ l, op.result (after l V) = after l V
  | _, [], _, _, _, h => nomatch h
  | n, op :: l, h, V, o, ho => by
    rcases List.mem_cons.mp ho with rfl | ho'
    · funext b
      by_cases hb : b ∈ o.writes
      · have hn : b.idx.val = n := h.1.wr b hb
        have hWb : after (o :: l) V b = o.result V b := by
          rw [after_cons]; exact h.2.after_of_lt _ (by omega)
        rw [hWb]
        refine h.1.rd _ _ (fun c hc => ?_) b hb
        rw [after_cons, h.2.after_of_lt _ (by omega)]
        exact o.result_of_not_mem V fun hcw => by have := h.1.wr c hcw; omega
      · exact o.result_of_not_mem _ hb
    · exact InOrder.settled h.2 (op.result V) o ho'

/-! ### The builders are steps -/

section Builders

variable {x a b c y : Ref sig .tc} {n : ℕ}

private theorem idx_of_mem_single {d : DevRef τ sig} (hd : d ∈ ({Proc.devRef .tc y} : Finset (DevRef τ sig))) (hy : y.idx.val = n) :
    d.idx.val = n := by
  rw [Finset.mem_singleton.mp hd]; exact hy

theorem nullary_step (v : y.ty.Contents Val) (hy') (hy : y.idx.val = n) : Step n (nullary (τ := τ) y v hy') where
  wr d hd := idx_of_mem_single hd hy
  rd F G _ d hd := by
    obtain rfl := Finset.mem_singleton.mp hd
    exact (nullary_result y v hy' F).trans (nullary_result y v hy' G).symm

theorem unary_step (f : x.ty.Contents Val → y.ty.Contents Val) (hx' hy') (hx : x.idx.val < n) (hy : y.idx.val = n) :
    Step n (unary (τ := τ) x y f hx' hy') where
  wr d hd := idx_of_mem_single hd hy
  rd F G h d hd := by
    obtain rfl := Finset.mem_singleton.mp hd
    rw [unary_result x y f hx' hy' F, unary_result x y f hx' hy' G, h (Proc.devRef .tc x) hx]

theorem binary_step (f : a.ty.Contents Val → b.ty.Contents Val → y.ty.Contents Val) (ha' hb' hy')
    (ha : a.idx.val < n) (hb : b.idx.val < n) (hy : y.idx.val = n) : Step n (binary (τ := τ) a b y f ha' hb' hy') where
  wr d hd := idx_of_mem_single hd hy
  rd F G h d hd := by
    obtain rfl := Finset.mem_singleton.mp hd
    rw [binary_result a b y f ha' hb' hy' F, binary_result a b y f ha' hb' hy' G, h (Proc.devRef .tc a) ha,
      h (Proc.devRef .tc b) hb]

theorem ternary_step (f : c.ty.Contents Val → a.ty.Contents Val → b.ty.Contents Val → y.ty.Contents Val) (hc' ha' hb' hy')
    (hc : c.idx.val < n) (ha : a.idx.val < n) (hb : b.idx.val < n) (hy : y.idx.val = n) :
    Step n (ternary (τ := τ) c a b y f hc' ha' hb' hy') where
  wr d hd := idx_of_mem_single hd hy
  rd F G h d hd := by
    obtain rfl := Finset.mem_singleton.mp hd
    rw [ternary_result c a b y f hc' ha' hb' hy' F, ternary_result c a b y f hc' ha' hb' hy' G, h (Proc.devRef .tc c) hc,
      h (Proc.devRef .tc a) ha, h (Proc.devRef .tc b) hb]

theorem reshape_step (he hn hx' hy') (hx : x.idx.val < n) (hy : y.idx.val = n) :
    Step n (reshape (τ := τ) (Val := Val) x y he hn hx' hy') where
  wr d hd := idx_of_mem_single hd hy
  rd F G h d hd := by
    obtain rfl := Finset.mem_singleton.mp hd
    rw [reshape_result x y he hn hx' hy' F, reshape_result x y he hn hx' hy' G, h (Proc.devRef .tc x) hx]

theorem nary_step {k : ℕ} (xs : Fin k → Ref sig .tc) (f : ((i : Fin k) → (xs i).ty.Contents Val) → y.ty.Contents Val) (hxs' hy')
    (hxs : ∀ i, (xs i).idx.val < n) (hy : y.idx.val = n) : Step n (nary (τ := τ) xs y f hxs' hy') where
  wr d hd := idx_of_mem_single hd hy
  rd F G h d hd := by
    obtain rfl := Finset.mem_singleton.mp hd
    rw [nary_result xs y f hxs' hy' F, nary_result xs y f hxs' hy' G]
    exact congrArg f (funext fun i => h (Proc.devRef .tc (xs i)) (hxs i))

/-! ### The equation each builder's fixed point is -/

variable {W : Valuation τ sig Val}

theorem nullary_fix {v : y.ty.Contents Val} {hy'} (h : (nullary (τ := τ) y v hy').result W = W) :
    W (Proc.devRef .tc y) = v := (congrFun h _).symm.trans (nullary_result y v hy' W)

theorem unary_fix {f : x.ty.Contents Val → y.ty.Contents Val} {hx' hy'} (h : (unary (τ := τ) x y f hx' hy').result W = W) :
    W (Proc.devRef .tc y) = f (W (Proc.devRef .tc x)) := (congrFun h _).symm.trans (unary_result x y f hx' hy' W)

theorem binary_fix {f : a.ty.Contents Val → b.ty.Contents Val → y.ty.Contents Val} {ha' hb' hy'}
    (h : (binary (τ := τ) a b y f ha' hb' hy').result W = W) :
    W (Proc.devRef .tc y) = f (W (Proc.devRef .tc a)) (W (Proc.devRef .tc b)) :=
  (congrFun h _).symm.trans (binary_result a b y f ha' hb' hy' W)

theorem ternary_fix {f : c.ty.Contents Val → a.ty.Contents Val → b.ty.Contents Val → y.ty.Contents Val} {hc' ha' hb' hy'}
    (h : (ternary (τ := τ) c a b y f hc' ha' hb' hy').result W = W) :
    W (Proc.devRef .tc y) = f (W (Proc.devRef .tc c)) (W (Proc.devRef .tc a)) (W (Proc.devRef .tc b)) :=
  (congrFun h _).symm.trans (ternary_result c a b y f hc' ha' hb' hy' W)

theorem reshape_fix {he hn hx' hy'} (h : (reshape (τ := τ) (Val := Val) x y he hn hx' hy').result W = W) :
    W (Proc.devRef .tc y) = fun i => he ▸ shapeCast y.ty.shape (W (Proc.devRef .tc x)) hn i :=
  (congrFun h _).symm.trans (reshape_result x y he hn hx' hy' W)

theorem nary_fix {k : ℕ} {xs : Fin k → Ref sig .tc} {f : ((i : Fin k) → (xs i).ty.Contents Val) → y.ty.Contents Val} {hxs' hy'}
    (h : (nary (τ := τ) xs y f hxs' hy').result W = W) :
    W (Proc.devRef .tc y) = f (fun i => W (Proc.devRef .tc (xs i))) :=
  (congrFun h _).symm.trans (nary_result xs y f hxs' hy' W)

end Builders

end Idealize.ShloMosaic.StableHlo
-- ==== Proof.RefRunA.lean ====
/-
  The reference program's @main as one straight line of host operations. The module's helper functions (the two
  selects `_where` and `_where_1`, the lookup `_take` and the select `_where_0` it calls) are written out at their call
  sites over the buffers each call names, so @main is a list of forty-three operations: the k-th writes buffer 2 + k
  (buffers 0 and 1 are the arguments) and reads only buffers of smaller index. The run: every weakly fair execution
  terminates with each buffer at the fold of the operations over the launch contents.
-/
import proofs.«206694_g42322607734994_cont_8to1_b_990_36_alg».proof.Proof.Gen.ReferenceIdeal
import proofs.«206694_g42322607734994_cont_8to1_b_990_36_alg».proof.Proof.LibHostSettle
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F] [Facts]

/-- @main's forty-three operations, in order, the helper functions' written at their calls. -/
abbrev ops : List (HloOp τ sig (Elt F)) :=
  [ nullary main_c (constantI S_ 32 0#32),
    unary main_c main_v0 (broadcastInDim S16384x50 ![] bcast_S_S16384x50 : (⟨S_, .i32⟩ : BufTy).Contents (Elt F) → (⟨S16384x50, .i32⟩ : BufTy).Contents (Elt F)),
    binary main_arg0 main_v0 main_v1 (cmpi .sge : (⟨S16384x50, .i32⟩ : BufTy).Contents (Elt F) → (⟨S16384x50, .i32⟩ : BufTy).Contents (Elt F) → (⟨S16384x50, .i1⟩ : BufTy).Contents (Elt F)),
    nullary main_c_0 (constantI S_ 32 1000000#32),
    unary main_c_0 main_v2 (broadcastInDim S16384x50 ![] bcast_S_S16384x50 : (⟨S_, .i32⟩ : BufTy).Contents (Elt F) → (⟨S16384x50, .i32⟩ : BufTy).Contents (Elt F)),
    binary main_arg0 main_v2 main_v3 (cmpi .slt : (⟨S16384x50, .i32⟩ : BufTy).Contents (Elt F) → (⟨S16384x50, .i32⟩ : BufTy).Contents (Elt F) → (⟨S16384x50, .i1⟩ : BufTy).Contents (Elt F)),
    binary main_v1 main_v3 main_v4 (andi : (⟨S16384x50, .i1⟩ : BufTy).Contents (Elt F) → (⟨S16384x50, .i1⟩ : BufTy).Contents (Elt F) → (⟨S16384x50, .i1⟩ : BufTy).Contents (Elt F)),
    nullary main_c_1 (constantI S_ 32 0#32),
    unary main_c_1 main_v5 (broadcastInDim S16384x50 ![] bcast_S_S16384x50 : (⟨S_, .i32⟩ : BufTy).Contents (Elt F) → (⟨S16384x50, .i32⟩ : BufTy).Contents (Elt F)),
    binary main_arg0 main_v5 main_v6 (subi : (⟨S16384x50, .i32⟩ : BufTy).Contents (Elt F) → (⟨S16384x50, .i32⟩ : BufTy).Contents (Elt F) → (⟨S16384x50, .i32⟩ : BufTy).Contents (Elt F)),
    nullary main_c_2 (constantI S_ 32 0#32),
    TRef.unary (.of main_c_2 : TRef sig ⟨S_, .i32⟩) main_call0.v0 id,
    TRef.unary main_call0.v0 main_call0.v1 (broadcastInDim S16384x50 ![] bcast_S_S16384x50),
    TRef.ternary (.of main_v4 : TRef sig ⟨S16384x50, .i1⟩) (.of main_v6 : TRef sig ⟨S16384x50, .i32⟩) main_call0.v1 main_call0.v2 select,
    TRef.nullary main_call1.c (constantI S_ 32 0#32),
    TRef.unary main_call1.c main_call1.v0 (broadcastInDim S16384x50 ![] bcast_S_S16384x50),
    TRef.binary (.of main_v7 : TRef sig ⟨S16384x50, .i32⟩) main_call1.v0 main_call1.v1 (cmpi .slt),
    TRef.nullary main_call1.c_0 (constantI S_ 32 1000000#32),
    TRef.unary main_call1.c_0 main_call1.v2 (broadcastInDim S16384x50 ![] bcast_S_S16384x50),
    TRef.binary (.of main_v7 : TRef sig ⟨S16384x50, .i32⟩) main_call1.v2 main_call1.v3 addi,
    TRef.ternary main_call1.v1 main_call1.v3 (.of main_v7 : TRef sig ⟨S16384x50, .i32⟩) main_call1.call0.v0 select,
    TRef.unary main_call1.call0.v0 main_call1.v5 (broadcastInDim S16384x50x1 ![0, 1] bcast_S16384x50_S16384x50x1_0_1),
    TRef.nullary main_call1.c_1 (constantI S1 32 999999#32),
    TRef.nullary main_call1.c_2 (constantI S_ 32 0#32),
    TRef.unary main_call1.c_2 main_call1.v6 (broadcastInDim S16384x50x1 ![] bcast_S_S16384x50x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S16384x50x1 ![0, 1, 2] bcast_S1x1x1_S16384x50x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x50x1_S16384x50_d2 h_S_),
    TRef.binary (.of main_arg1 : TRef sig ⟨S1000000x64, .f32⟩) main_call1.v5 main_call1.v13 (fun x i => Host.gather gather_S1000000x64_S16384x50x1_S16384x50x64_2_0_n_n_0_2_164 x i),
    TRef.unary main_call1.v12 main_call1.v14 (broadcastInDim S16384x50x64 ![0, 1] bcast_S16384x50_S16384x50x64_0_1),
    TRef.nullary main_call1.cst (constant S_ .f32 0x7FC00000#32),
    TRef.unary main_call1.cst main_call1.v15 (broadcastInDim S16384x50x64 ![] bcast_S_S16384x50x64),
    TRef.ternary main_call1.v14 main_call1.v13 main_call1.v15 main_call1.v16 select,
    unary main_v4 main_v9 (broadcastInDim S16384x50x1 ![0, 1] bcast_S16384x50_S16384x50x1_0_1 : (⟨S16384x50, .i1⟩ : BufTy).Contents (Elt F) → (⟨S16384x50x1, .i1⟩ : BufTy).Contents (Elt F)),
    nullary main_cst (constant S_ .f32 0x00000000#32),
    TRef.unary (.of main_cst : TRef sig ⟨S_, .f32⟩) main_call2.v0 id,
    TRef.unary (.of main_v9 : TRef sig ⟨S16384x50x1, .i1⟩) main_call2.v1 (broadcastInDim S16384x50x64 ![0, 1, 2] bcast_S16384x50x1_S16384x50x64_0_1_2),
    TRef.unary main_call2.v0 main_call2.v2 (broadcastInDim S16384x50x64 ![] bcast_S_S16384x50x64),
    TRef.ternary main_call2.v1 (.of main_v8 : TRef sig ⟨S16384x50x64, .f32⟩) main_call2.v2 main_call2.v3 select ]

set_option maxRecDepth 2048 in
/-- @main is that straight line: the helper functions' definitions unfolded at their calls, both sides are one chain of
    steps once sequencing is reassociated. -/
theorem main_eq (c : Dev nD) : main (F := F) c = seq ops := by
  simp only [main, fn_where.body, fn_where_0.body, fn_take.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    binary_bufs_sub .., nullary_bufs_sub .., unary_bufs_sub .., binary_bufs_sub .., nullary_bufs_sub ..,
    unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., nullary_bufs_sub .., unary_bufs_sub .., unary_bufs_sub .., unary_bufs_sub .., ternary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The k-th operation writes buffer 2 + k from buffers of smaller index. -/
theorem inOrder : InOrder 2 (ops : List (HloOp τ sig (Elt F))) :=
  ⟨nullary_step _ _ rfl, unary_step _ _ _ (by decide) rfl, binary_step _ _ _ _ (by decide) (by decide) rfl,
    nullary_step _ _ rfl, unary_step _ _ _ (by decide) rfl, binary_step _ _ _ _ (by decide) (by decide) rfl,
    binary_step _ _ _ _ (by decide) (by decide) rfl, nullary_step _ _ rfl, unary_step _ _ _ (by decide) rfl,
    binary_step _ _ _ _ (by decide) (by decide) rfl, nullary_step _ _ rfl,
    unary_step _ _ _ (by decide) rfl, unary_step _ _ _ (by decide) rfl,
    ternary_step _ _ _ _ _ (by decide) (by decide) (by decide) rfl,
    nullary_step _ _ rfl, unary_step _ _ _ (by decide) rfl, binary_step _ _ _ _ (by decide) (by decide) rfl,
    nullary_step _ _ rfl, unary_step _ _ _ (by decide) rfl, binary_step _ _ _ _ (by decide) (by decide) rfl,
    ternary_step _ _ _ _ _ (by decide) (by decide) (by decide) rfl, unary_step _ _ _ (by decide) rfl,
    nullary_step _ _ rfl, nullary_step _ _ rfl, unary_step _ _ _ (by decide) rfl,
    binary_step _ _ _ _ (by decide) (by decide) rfl, unary_step _ _ _ (by decide) rfl, unary_step _ _ _ (by decide) rfl,
    binary_step _ _ _ _ (by decide) (by decide) rfl, binary_step _ _ _ _ (by decide) (by decide) rfl,
    nullary_step _ _ rfl, binary_step _ _ _ _ (by decide) (by decide) rfl,
    binary_step _ _ _ _ (by decide) (by decide) rfl, unary_step _ _ _ (by decide) rfl, nullary_step _ _ rfl,
    unary_step _ _ _ (by decide) rfl, ternary_step _ _ _ _ _ (by decide) (by decide) (by decide) rfl,
    unary_step _ _ _ (by decide) rfl, nullary_step _ _ rfl, unary_step _ _ _ (by decide) rfl,
    unary_step _ _ _ (by decide) rfl, unary_step _ _ _ (by decide) rfl,
    ternary_step _ _ _ _ _ (by decide) (by decide) (by decide) rfl, trivial⟩

end Cert.ReferenceIdeal.RefRun

end
-- ==== Proof.RefFn.lean ====
/-
  The reference's result as one function of its two arguments, and its value under the precondition's range.

  The reference masks the row numbers that lie in [0, 1000000), replaces the others by 0, and looks the rows up with
  "fill" semantics: a negative row number is wrapped by adding the table's height, the table is gathered at the wrapped
  numbers (the gather clamps them into the table), and an entry whose wrapped number falls outside the table is replaced
  by NaN; last, the masked-out entries are replaced by 0. When every row number lies in [0, 999999] every mask bit is 1,
  nothing is wrapped or clamped, both replacements keep the gathered value, and entry (b, s, d) is the table's entry d
  of row `ids[b, s]`.
-/
import proofs.«206694_g42322607734994_cont_8to1_b_990_36_alg».proof.ReferenceIdeal
import proofs.«206694_g42322607734994_cont_8to1_b_990_36_alg».proof.Proof.Spec
import Idealize.ShloMosaic.Lib.ValueIdx
import Idealize.ShloMosaic.Lib.Affine
import Idealize.ShloMosaic.PureOps.Reduce

noncomputable section

namespace Cert.ReferenceIdeal.RefRun

open Cert.ReferenceIdeal Idealize.ShloMosaic Idealize.ShloMosaic.ValueIdx
open Cert.ReferenceIdeal.Facts₀

/-! ## Two general facts: a gather of whole rows read at an index, and an "all" reduction of ones -/

section General
variable {α : Type}

/-- The dimension numbers of `x[idx]` for a table `x : [N, D]` and row numbers `idx : [R, C, 1]`: the result `[R, C, D]`
    takes whole rows (offset axis 2 reads the table's axis 1, the table's axis 0 is collapsed and indexed). -/
abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The gather read at (b, s, d): entry d of the table's row `idx[b, s, 0]`, read signed and clamped into the table. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (b : Fin R) (s : Fin C) (d : Fin D) :
    Host.gather (rowsDims N D R C wf) x idx (ix3 b s d)
      = x (ix2 ⟨min (idx (ix3 b s ⟨0, Nat.one_pos⟩)).toInt.toNat (N - 1), by omega⟩ d) := by
  unfold Host.gather
  refine congrArg x (funext fun a => Fin.ext ?_)
  show (rowsDims N D R C wf).start (ix3 b s d) idx a + (rowsDims N D R C wf).batchCoord (ix3 b s d) a
    + (rowsDims N D R C wf).offCoord (ix3 b s d) a = _
  rw [GatherDims.batchCoord_eq_zero _ _ _ List.not_mem_nil]
  have h2 : a = (0 : Fin 2) ∨ a = (1 : Fin 2) := by
    rcases a with ⟨v, hv⟩
    have hv' : v < 2 := hv
    interval_cases v
    · exact Or.inl rfl
    · exact Or.inr rfl
  rcases h2 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D R C wf).startIndexMap from List.mem_singleton.mpr rfl)]
    have hsi : (rowsDims N D R C wf).siIdx (ix3 b s d) ⟨List.idxOf (0 : Fin 2) (rowsDims N D R C wf).startIndexMap,
        List.idxOf_lt_length_iff.2 (List.mem_singleton.mpr rfl)⟩ = ix3 b s ⟨0, Nat.one_pos⟩ := by
      funext c; refine Fin.ext ?_
      match c with
      | ⟨0, _⟩ => rfl
      | ⟨1, _⟩ => rfl
      | ⟨2, _⟩ => rfl
    rw [hsi]
    rfl
  · have hne : ¬ ((1 : Fin 2) ∈ ([0] : List (Fin 2))) := by decide
    unfold GatherDims.start
    rw [dif_neg (show ¬ ((1 : Fin 2) ∈ (rowsDims N D R C wf).startIndexMap) from hne)]
    unfold GatherDims.offCoord
    rw [dif_pos (show ((1 : Fin 2) ∈ (rowsDims N D R C wf).sKept) from
      (GatherDims.mem_sKept _ _).2 ⟨hne, List.not_mem_nil⟩)]
    simp only [Nat.zero_add]
    rfl

/-- A left fold by `and` from 1 over one-bit words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- A reduction by `and`, from 1, of one-bit words that are all 1 is 1 at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x _ fun n _ => hx n

end General

/-! ## The reference's function -/

variable {F : FTy → Type} [FloatOps F] [Facts]

/-- The mask: row number in [0, 1000000), compared signed. -/
def mask (ids : IVec S16384x50 32) : IVec S16384x50 1 :=
  andi (cmpi .sge ids (broadcastInDim S16384x50 ![] bcast_S_S16384x50 (constantI S_ 32 0#32)))
    (cmpi .slt ids (broadcastInDim S16384x50 ![] bcast_S_S16384x50 (constantI S_ 32 1000000#32)))

/-- The row numbers with the masked-out ones replaced by 0. -/
def safeIds (ids : IVec S16384x50 32) : IVec S16384x50 32 :=
  select (mask ids) (subi ids (broadcastInDim S16384x50 ![] bcast_S_S16384x50 (constantI S_ 32 0#32)))
    (broadcastInDim S16384x50 ![] bcast_S_S16384x50 (id (constantI S_ 32 0#32)))

/-- A negative row number wrapped by the table's height. -/
def wrapped (x : IVec S16384x50 32) : IVec S16384x50 32 :=
  select (cmpi .slt x (broadcastInDim S16384x50 ![] bcast_S_S16384x50 (constantI S_ 32 0#32)))
    (addi x (broadcastInDim S16384x50 ![] bcast_S_S16384x50 (constantI S_ 32 1000000#32))) x

/-- The wrapped row numbers as the gather's start indices. -/
def idx3 (x : IVec S16384x50 32) : IVec S16384x50x1 32 :=
  broadcastInDim S16384x50x1 ![0, 1] bcast_S16384x50_S16384x50x1_0_1 (wrapped x)

/-- Whether the wrapped row number lies in the table. -/
def inb (x : IVec S16384x50 32) : IVec S16384x50 1 :=
  Host.reduce IntOp.andi
    (andi (cmpi .sge (idx3 x) (broadcastInDim S16384x50x1 ![] bcast_S_S16384x50x1 (constantI S_ 32 0#32)))
      (cmpi .sle (idx3 x) (broadcastInDim S16384x50x1 ![0, 1, 2] bcast_S1x1x1_S16384x50x1_0_1_2
        (broadcastInDim S1x1x1 ![2] bcast_S1_S1x1x1_2 (constantI S1 32 999999#32)))))
    (constantI S_ 1 1#1) reducesTo_S16384x50x1_S16384x50_d2 h_S_

/-- The lookup with NaN where the wrapped row number is outside the table. -/
def taken (w : FVec F S1000000x64 .f32) (x : IVec S16384x50 32) : FVec F S16384x50x64 .f32 :=
  select (broadcastInDim S16384x50x64 ![0, 1] bcast_S16384x50_S16384x50x64_0_1 (inb x))
    (Host.gather gather_S1000000x64_S16384x50x1_S16384x50x64_2_0_n_n_0_2_164 w (idx3 x))
    (broadcastInDim S16384x50x64 ![] bcast_S_S16384x50x64 (constant S_ .f32 0x7FC00000#32))

/-- The reference's result as a function of its arguments. -/
def refFn (ids : IVec S16384x50 32) (w : FVec F S1000000x64 .f32) : FVec F S16384x50x64 .f32 :=
  select (broadcastInDim S16384x50x64 ![0, 1, 2] bcast_S16384x50x1_S16384x50x64_0_1_2
      (broadcastInDim S16384x50x1 ![0, 1] bcast_S16384x50_S16384x50x1_0_1 (mask ids)))
    (taken w (safeIds ids))
    (broadcastInDim S16384x50x64 ![] bcast_S_S16384x50x64 (id (constant S_ .f32 0x00000000#32)))

/-! ## Three broadcasts read at an index -/

section Broadcasts
variable {α : Type}

/-- `[16384, 50]` broadcast to `[16384, 50, 1]` along its own two axes reads (b, s) at (b, s, z). -/
theorem bcast_x1_apply (x : S16384x50.Idx → α) (b : Fin 16384) (s : Fin 50) (z : Fin 1) :
    broadcastInDim S16384x50x1 ![0, 1] bcast_S16384x50_S16384x50x1_0_1 x (ix3 b s z) = x (ix2 b s) :=
  congrArg x (funext fun a => match a with | ⟨0, _⟩ => rfl | ⟨1, _⟩ => rfl)

/-- `[16384, 50]` broadcast to `[16384, 50, 64]` along its own two axes reads (b, s) at (b, s, d). -/
theorem bcast_x64_apply (x : S16384x50.Idx → α) (b : Fin 16384) (s : Fin 50) (d : Fin 64) :
    broadcastInDim S16384x50x64 ![0, 1] bcast_S16384x50_S16384x50x64_0_1 x (ix3 b s d) = x (ix2 b s) :=
  congrArg x (funext fun a => match a with | ⟨0, _⟩ => rfl | ⟨1, _⟩ => rfl)

/-- `[16384, 50, 1]` broadcast to `[16384, 50, 64]` reads (b, s, 0) at (b, s, d). -/
theorem bcast_x1_x64_apply (x : S16384x50x1.Idx → α) (b : Fin 16384) (s : Fin 50) (d : Fin 64) :
    broadcastInDim S16384x50x64 ![0, 1, 2] bcast_S16384x50x1_S16384x50x64_0_1_2 x (ix3 b s d) = x (ix3 b s ⟨0, Nat.one_pos⟩) :=
  congrArg x (funext fun a => match a with | ⟨0, _⟩ => rfl | ⟨1, _⟩ => rfl | ⟨2, _⟩ => rfl)

end Broadcasts

/-! ## Its value when every row number lies in [0, 999999] -/

section Value
variable (ids : IVec S16384x50 32) (h0 : ∀ j, 0 ≤ (ids j).toInt) (h1 : ∀ j, (ids j).toInt ≤ 999999)
include h0 h1

theorem mask_one (j : S16384x50.Idx) : mask ids j = 1#1 := by
  show IntOp.andi (IntOp.cmpi .sge (ids j) 0#32) (IntOp.cmpi .slt (ids j) 1000000#32) = 1#1
  have z0 : (0#32 : BitVec 32).toInt = 0 := by decide
  have z1 : (1000000#32 : BitVec 32).toInt = 1000000 := by decide
  refine IntOp.andi_eq_one.2 ⟨IntOp.cmpi_sge.2 ?_, IntOp.cmpi_slt.2 ?_⟩
  · rw [z0]; exact h0 j
  · rw [z1]; have := h1 j; omega

theorem safeIds_eq (j : S16384x50.Idx) : safeIds ids j = ids j := by
  show Scalar.select (mask ids j) (IntOp.subi (ids j) 0#32) 0#32 = ids j
  rw [mask_one ids h0 h1 j, select_one]
  show ids j - 0#32 = ids j
  exact BitVec.sub_zero _

theorem wrapped_eq (j : S16384x50.Idx) : wrapped (safeIds ids) j = ids j := by
  show Scalar.select (IntOp.cmpi .slt (safeIds ids j) 0#32) (IntOp.addi (safeIds ids j) 1000000#32) (safeIds ids j) = ids j
  rw [safeIds_eq ids h0 h1 j]
  have z0 : (0#32 : BitVec 32).toInt = 0 := by decide
  have hn : ¬ IntOp.cmpi .slt (ids j) 0#32 = 1#1 := by
    rw [IntOp.cmpi_slt, z0]; have := h0 j; omega
  rw [eq_zero_of_ne_one hn, select_zero]

theorem idx3_eq (b : Fin 16384) (s : Fin 50) (z : Fin 1) : idx3 (safeIds ids) (ix3 b s z) = ids (ix2 b s) :=
  (bcast_x1_apply (wrapped (safeIds ids)) b s z).trans (wrapped_eq ids h0 h1 (ix2 b s))

theorem inb_one (j : S16384x50.Idx) : inb (safeIds ids) j = 1#1 := by
  unfold inb
  refine reduce_andi_one _ _ _ _ (fun i => ?_) (fun _ => rfl) j
  obtain ⟨b, s, z, rfl⟩ : ∃ (b : Fin 16384) (s : Fin 50) (z : Fin 1), i = ix3 b s z := ⟨i 0, i 1, i 2, eq_ix3 i⟩
  show IntOp.andi (IntOp.cmpi .sge (idx3 (safeIds ids) (ix3 b s z)) 0#32)
    (IntOp.cmpi .sle (idx3 (safeIds ids) (ix3 b s z)) 999999#32) = 1#1
  rw [idx3_eq ids h0 h1 b s z]
  have z0 : (0#32 : BitVec 32).toInt = 0 := by decide
  have z1 : (999999#32 : BitVec 32).toInt = 999999 := by decide
  refine IntOp.andi_eq_one.2 ⟨IntOp.cmpi_sge.2 ?_, IntOp.cmpi_sle.2 ?_⟩
  · rw [z0]; exact h0 _
  · rw [z1]; exact h1 _

omit h0 h1 in
/-- The printed gather's dimension numbers are those of a lookup of whole rows. -/
theorem gather_dims_eq : gather_S1000000x64_S16384x50x1_S16384x50x64_2_0_n_n_0_2_164
    = rowsDims 1000000 64 16384 50 gather_S1000000x64_S16384x50x1_S16384x50x64_2_0_n_n_0_2_164_wf := rfl

theorem taken_eq (w : FVec F S1000000x64 .f32) (b : Fin 16384) (s : Fin 50) (d : Fin 64) :
    taken w (safeIds ids) (ix3 b s d) = w (ix2 (Cert.Lookup.rowOf (ids (ix2 b s))) d) := by
  have hb : broadcastInDim S16384x50x64 ![0, 1] bcast_S16384x50_S16384x50x64_0_1 (inb (safeIds ids)) (ix3 b s d) = 1#1 :=
    (bcast_x64_apply (inb (safeIds ids)) b s d).trans (inb_one ids h0 h1 _)
  have hlt : (ids (ix2 b s)).toNat < 1000000 := by
    have hc := BitVec.toInt_eq_toNat_cond (ids (ix2 b s)); have := h0 (ix2 b s); have := h1 (ix2 b s)
    split at hc <;> omega
  have hnat : (ids (ix2 b s)).toInt.toNat = (ids (ix2 b s)).toNat := by
    have hc := BitVec.toInt_eq_toNat_cond (ids (ix2 b s)); have := h0 (ix2 b s); have := h1 (ix2 b s)
    split at hc <;> omega
  have hN : 0 < 1000000 := by norm_num
  have hg := gather_rows_apply (α := F .f32) (N := 1000000) (D := 64) (R := 16384) (C := 50) (w := 32) hN
    gather_S1000000x64_S16384x50x1_S16384x50x64_2_0_n_n_0_2_164_wf w (idx3 (safeIds ids)) b s d
  unfold taken
  rw [select_apply, hb, select_one, gather_dims_eq]
  refine hg.trans ?_
  refine congrArg w ?_
  refine congrArg (fun r => ix2 r d) (Fin.ext ?_)
  show min (idx3 (safeIds ids) (ix3 b s ⟨0, Nat.one_pos⟩)).toInt.toNat (1000000 - 1) = (Cert.Lookup.rowOf (ids (ix2 b s))).val
  rw [idx3_eq ids h0 h1, Cert.Lookup.rowOf_val hlt, hnat]
  omega

/-- Under the range, the reference's function is the lookup. -/
theorem refFn_eq (w : FVec F S1000000x64 .f32) : refFn ids w = Cert.Lookup.rows ids w := by
  funext j
  obtain ⟨b, s, d, rfl⟩ : ∃ (b : Fin 16384) (s : Fin 50) (d : Fin 64), j = ix3 b s d := ⟨j 0, j 1, j 2, eq_ix3 j⟩
  have hm : broadcastInDim S16384x50x64 ![0, 1, 2] bcast_S16384x50x1_S16384x50x64_0_1_2
      (broadcastInDim S16384x50x1 ![0, 1] bcast_S16384x50_S16384x50x1_0_1 (mask ids)) (ix3 b s d) = 1#1 :=
    ((bcast_x1_x64_apply _ b s d).trans (bcast_x1_apply (mask ids) b s _)).trans (mask_one ids h0 h1 _)
  show Scalar.select (broadcastInDim S16384x50x64 ![0, 1, 2] bcast_S16384x50x1_S16384x50x64_0_1_2
      (broadcastInDim S16384x50x1 ![0, 1] bcast_S16384x50_S16384x50x1_0_1 (mask ids)) (ix3 b s d))
    (taken w (safeIds ids) (ix3 b s d)) _ = _
  rw [hm, select_one, taken_eq ids h0 h1]
  rfl

end Value

end Cert.ReferenceIdeal.RefRun

end
-- ==== Proof.PreRange.lean ====
/-
  What the precondition says of the row numbers. The precondition's function ends in the conjunction of two "all entries"
  reductions; the second is over the words `0 ≤ ids[b, s]` and `ids[b, s] ≤ 999999`, both compared signed. When the
  function's value is 1, every such word is 1, so every entry of `ids`, read signed, lies in [0, 999999]; a word whose
  signed reading is nonnegative reads the same unsigned, so its value as a natural number is below 1000000.
-/
import proofs.«206694_g42322607734994_cont_8to1_b_990_36_alg».proof.Pre_input_domain
import proofs.«206694_g42322607734994_cont_8to1_b_990_36_alg».proof.Proof.Gen.Pre_input_domain
import proofs.«206694_g42322607734994_cont_8to1_b_990_36_alg».proof.Proof.Spec
import Idealize.ShloMosaic.Lib.ReduceAll
import Idealize.ShloMosaic.Lib.ValueIdx

namespace Cert.Lookup

open Idealize.ShloMosaic Idealize.ShloMosaic.ValueIdx

instance : Subsingleton Cert.Pre_input_domain.S_.Idx := ⟨fun a b => funext fun d => d.elim0⟩

/-- A word whose signed reading lies in [0, 999999] has that same reading unsigned. -/
theorem toNat_lt_of_toInt {x : BitVec 32} (h0 : 0 ≤ x.toInt) (h1 : x.toInt ≤ 999999) : x.toNat < 1000000 := by
  have := BitVec.toInt_eq_toNat_cond x
  split at this <;> omega

/-- Under the precondition every entry of `ids`, read signed, lies in [0, 999999]. -/
theorem ids_toInt {F : FTy → Type} [FloatOps F] [Cert.Pre_input_domain.Facts]
    (ids : IVec Cert.Pre_input_domain.S16384x50 32) (w : FVec F Cert.Pre_input_domain.S1000000x64 .f32)
    (h : Cert.Pre_input_domain.fn (F := F) ids w = (fun _ => 1#1)) :
    ∀ j, 0 ≤ (ids j).toInt ∧ (ids j).toInt ≤ 999999 := by
  intro j
  have h0 := congrFun h ix0
  dsimp only [Cert.Pre_input_domain.fn] at h0
  have h9 := (IntOp.andi_eq_one.1 h0).2
  have hj := Host.reduce_andi_all _ _ _ _ _ h9 j
  obtain ⟨h5, h7⟩ := IntOp.andi_eq_one.1 hj
  have h5' := IntOp.cmpi_sge.1 h5
  have h7' := IntOp.cmpi_sle.1 h7
  have z0 : (0#32 : BitVec 32).toInt = 0 := by decide
  have z1 : (999999#32 : BitVec 32).toInt = 999999 := by decide
  refine ⟨?_, ?_⟩
  · rw [← z0]; exact h5'
  · rw [← z1]; exact h7'

/-- Under the precondition every entry of `ids` names a row of the table. -/
theorem ids_lt {F : FTy → Type} [FloatOps F] [Cert.Pre_input_domain.Facts]
    (ids : IVec Cert.Pre_input_domain.S16384x50 32) (w : FVec F Cert.Pre_input_domain.S1000000x64 .f32)
    (h : Cert.Pre_input_domain.fn (F := F) ids w = (fun _ => 1#1)) : ∀ j, (ids j).toNat < 1000000 :=
  fun j => toNat_lt_of_toInt (ids_toInt ids w h j).1 (ids_toInt ids w h j).2

/-- The same range as the two signed comparisons the programs make. -/
theorem ids_nonneg_le {F : FTy → Type} [FloatOps F] [Cert.Pre_input_domain.Facts]
    (ids : IVec Cert.Pre_input_domain.S16384x50 32) (w : FVec F Cert.Pre_input_domain.S1000000x64 .f32)
    (h : Cert.Pre_input_domain.fn (F := F) ids w = (fun _ => 1#1)) :
    ∀ j, (0#32).sle (ids j) = true ∧ (ids j).sle 999999#32 = true := by
  intro j
  obtain ⟨h0, h1⟩ := ids_toInt ids w h j
  have z0 : (0#32 : BitVec 32).toInt = 0 := by decide
  have z1 : (999999#32 : BitVec 32).toInt = 999999 := by decide
  refine ⟨?_, ?_⟩
  · rw [BitVec.sle_iff_toInt_le, z0]; exact h0
  · rw [BitVec.sle_iff_toInt_le, z1]; exact h1

end Cert.Lookup
-- ==== Proof.RefRun.lean ====
/-
  The reference program's run and its result. The contents after the forty-three operations satisfy one equation per
  operation ("the result buffer holds the operation's function of its operands' contents"); substituting them into one
  another from the last to the first gives the result buffer as the reference's function of the two arguments, which
  under the precondition's range is the lookup.
-/
import proofs.«206694_g42322607734994_cont_8to1_b_990_36_alg».proof.Defs
import proofs.«206694_g42322607734994_cont_8to1_b_990_36_alg».proof.Proof.Gen.Pre_input_domain
import proofs.«206694_g42322607734994_cont_8to1_b_990_36_alg».proof.Proof.RefRunA
import proofs.«206694_g42322607734994_cont_8to1_b_990_36_alg».proof.Proof.RefFn
import proofs.«206694_g42322607734994_cont_8to1_b_990_36_alg».proof.Proof.PreRange

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F] [Facts]

-- the reduction and the gather are compared as they stand, never opened: their bodies are folds over the operand's elements
attribute [local irreducible] Host.reduce Host.gather in
/-- Contents that every operation of the line leaves unchanged hold, at the result buffer, the reference's function of
    the contents at the two argument buffers. -/
theorem settled_value (W : Valuation τ sig (Elt F))
    (hF : (ops : List (HloOp τ sig (Elt F))).Forall fun op => op.result W = W) :
    W (main_v10 : DevRef τ sig) = refFn (F := F) (W (main_arg0 : DevRef τ sig)) (W (main_arg1 : DevRef τ sig)) := by
  obtain ⟨h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44⟩ := hF
  have e2 : W (main_c : DevRef τ sig) = constantI S_ 32 0#32 := nullary_fix h2
  have e3 : W (main_v0 : DevRef τ sig) = broadcastInDim S16384x50 ![] bcast_S_S16384x50 (W (main_c : DevRef τ sig)) := unary_fix h3
  have e4 : W (main_v1 : DevRef τ sig) = cmpi .sge (W (main_arg0 : DevRef τ sig)) (W (main_v0 : DevRef τ sig)) := binary_fix h4
  have e5 : W (main_c_0 : DevRef τ sig) = constantI S_ 32 1000000#32 := nullary_fix h5
  have e6 : W (main_v2 : DevRef τ sig) = broadcastInDim S16384x50 ![] bcast_S_S16384x50 (W (main_c_0 : DevRef τ sig)) := unary_fix h6
  have e7 : W (main_v3 : DevRef τ sig) = cmpi .slt (W (main_arg0 : DevRef τ sig)) (W (main_v2 : DevRef τ sig)) := binary_fix h7
  have e8 : W (main_v4 : DevRef τ sig) = andi (W (main_v1 : DevRef τ sig)) (W (main_v3 : DevRef τ sig)) := binary_fix h8
  have e9 : W (main_c_1 : DevRef τ sig) = constantI S_ 32 0#32 := nullary_fix h9
  have e10 : W (main_v5 : DevRef τ sig) = broadcastInDim S16384x50 ![] bcast_S_S16384x50 (W (main_c_1 : DevRef τ sig)) := unary_fix h10
  have e11 : W (main_v6 : DevRef τ sig) = subi (W (main_arg0 : DevRef τ sig)) (W (main_v5 : DevRef τ sig)) := binary_fix h11
  have e12 : W (main_c_2 : DevRef τ sig) = constantI S_ 32 0#32 := nullary_fix h12
  have e13 : W (main_call0_v0 : DevRef τ sig) = id (W (main_c_2 : DevRef τ sig)) := unary_fix h13
  have e14 : W (main_call0_v1 : DevRef τ sig) = broadcastInDim S16384x50 ![] bcast_S_S16384x50 (W (main_call0_v0 : DevRef τ sig)) := unary_fix h14
  have e15 : W (main_v7 : DevRef τ sig) = select (W (main_v4 : DevRef τ sig)) (W (main_v6 : DevRef τ sig)) (W (main_call0_v1 : DevRef τ sig)) := ternary_fix h15
  have e16 : W (main_call1_c : DevRef τ sig) = constantI S_ 32 0#32 := nullary_fix h16
  have e17 : W (main_call1_v0 : DevRef τ sig) = broadcastInDim S16384x50 ![] bcast_S_S16384x50 (W (main_call1_c : DevRef τ sig)) := unary_fix h17
  have e18 : W (main_call1_v1 : DevRef τ sig) = cmpi .slt (W (main_v7 : DevRef τ sig)) (W (main_call1_v0 : DevRef τ sig)) := binary_fix h18
  have e19 : W (main_call1_c_0 : DevRef τ sig) = constantI S_ 32 1000000#32 := nullary_fix h19
  have e20 : W (main_call1_v2 : DevRef τ sig) = broadcastInDim S16384x50 ![] bcast_S_S16384x50 (W (main_call1_c_0 : DevRef τ sig)) := unary_fix h20
  have e21 : W (main_call1_v3 : DevRef τ sig) = addi (W (main_v7 : DevRef τ sig)) (W (main_call1_v2 : DevRef τ sig)) := binary_fix h21
  have e22 : W (main_call1_v4 : DevRef τ sig) = select (W (main_call1_v1 : DevRef τ sig)) (W (main_call1_v3 : DevRef τ sig)) (W (main_v7 : DevRef τ sig)) := ternary_fix h22
  have e23 : W (main_call1_v5 : DevRef τ sig) = broadcastInDim S16384x50x1 ![0, 1] bcast_S16384x50_S16384x50x1_0_1 (W (main_call1_v4 : DevRef τ sig)) := unary_fix h23
  have e24 : W (main_call1_c_1 : DevRef τ sig) = constantI S1 32 999999#32 := nullary_fix h24
  have e25 : W (main_call1_c_2 : DevRef τ sig) = constantI S_ 32 0#32 := nullary_fix h25
  have e26 : W (main_call1_v6 : DevRef τ sig) = broadcastInDim S16384x50x1 ![] bcast_S_S16384x50x1 (W (main_call1_c_2 : DevRef τ sig)) := unary_fix h26
  have e27 : W (main_call1_v7 : DevRef τ sig) = cmpi .sge (W (main_call1_v5 : DevRef τ sig)) (W (main_call1_v6 : DevRef τ sig)) := binary_fix h27
  have e28 : W (main_call1_v8 : DevRef τ sig) = broadcastInDim S1x1x1 ![2] bcast_S1_S1x1x1_2 (W (main_call1_c_1 : DevRef τ sig)) := unary_fix h28
  have e29 : W (main_call1_v9 : DevRef τ sig) = broadcastInDim S16384x50x1 ![0, 1, 2] bcast_S1x1x1_S16384x50x1_0_1_2 (W (main_call1_v8 : DevRef τ sig)) := unary_fix h29
  have e30 : W (main_call1_v10 : DevRef τ sig) = cmpi .sle (W (main_call1_v5 : DevRef τ sig)) (W (main_call1_v9 : DevRef τ sig)) := binary_fix h30
  have e31 : W (main_call1_v11 : DevRef τ sig) = andi (W (main_call1_v7 : DevRef τ sig)) (W (main_call1_v10 : DevRef τ sig)) := binary_fix h31
  have e32 : W (main_call1_c_3 : DevRef τ sig) = constantI S_ 1 1#1 := nullary_fix h32
  have e33 : W (main_call1_v12 : DevRef τ sig) = Host.reduce IntOp.andi (W (main_call1_v11 : DevRef τ sig)) (W (main_call1_c_3 : DevRef τ sig)) reducesTo_S16384x50x1_S16384x50_d2 h_S_ := binary_fix h33
  have e34 : W (main_call1_v13 : DevRef τ sig) = Host.gather gather_S1000000x64_S16384x50x1_S16384x50x64_2_0_n_n_0_2_164 (W (main_arg1 : DevRef τ sig)) (W (main_call1_v5 : DevRef τ sig)) := binary_fix h34
  have e35 : W (main_call1_v14 : DevRef τ sig) = broadcastInDim S16384x50x64 ![0, 1] bcast_S16384x50_S16384x50x64_0_1 (W (main_call1_v12 : DevRef τ sig)) := unary_fix h35
  have e36 : W (main_call1_cst : DevRef τ sig) = constant S_ .f32 0x7FC00000#32 := nullary_fix h36
  have e37 : W (main_call1_v15 : DevRef τ sig) = broadcastInDim S16384x50x64 ![] bcast_S_S16384x50x64 (W (main_call1_cst : DevRef τ sig)) := unary_fix h37
  have e38 : W (main_v8 : DevRef τ sig) = select (W (main_call1_v14 : DevRef τ sig)) (W (main_call1_v13 : DevRef τ sig)) (W (main_call1_v15 : DevRef τ sig)) := ternary_fix h38
  have e39 : W (main_v9 : DevRef τ sig) = broadcastInDim S16384x50x1 ![0, 1] bcast_S16384x50_S16384x50x1_0_1 (W (main_v4 : DevRef τ sig)) := unary_fix h39
  have e40 : W (main_cst : DevRef τ sig) = constant S_ .f32 0x00000000#32 := nullary_fix h40
  have e41 : W (main_call2_v0 : DevRef τ sig) = id (W (main_cst : DevRef τ sig)) := unary_fix h41
  have e42 : W (main_call2_v1 : DevRef τ sig) = broadcastInDim S16384x50x64 ![0, 1, 2] bcast_S16384x50x1_S16384x50x64_0_1_2 (W (main_v9 : DevRef τ sig)) := unary_fix h42
  have e43 : W (main_call2_v2 : DevRef τ sig) = broadcastInDim S16384x50x64 ![] bcast_S_S16384x50x64 (W (main_call2_v0 : DevRef τ sig)) := unary_fix h43
  have e44 : W (main_v10 : DevRef τ sig) = select (W (main_call2_v1 : DevRef τ sig)) (W (main_v8 : DevRef τ sig)) (W (main_call2_v2 : DevRef τ sig)) := ternary_fix h44
  rw [e44, e43, e42, e41, e40, e39, e38, e37, e36, e35, e34, e33, e32, e31, e30, e29, e28, e27, e26, e25, e24, e23, e22, e21, e20, e19, e18, e17, e16, e15, e14, e13, e12, e11, e10, e9, e8, e7, e6, e5, e4, e3, e2]
  rfl

/-- After the line, from contents of which the precondition holds: the result buffer holds the lookup, the arguments
    what they held. -/
theorem after_value [Cert.Pre_input_domain.Facts] (V : Valuation τ sig (Elt Ideal))
    (hpre : Cert.Pre_input_domain.fn (F := Ideal) (V (main_arg0 : DevRef τ sig)) (V (main_arg1 : DevRef τ sig)) = fun _ => 1#1) :
    after ops V (main_v10 : DevRef τ sig) = Cert.Lookup.rows (F := Ideal) (V (main_arg0 : DevRef τ sig)) (V (main_arg1 : DevRef τ sig))
      ∧ after ops V (main_arg0 : DevRef τ sig) = V (main_arg0 : DevRef τ sig)
      ∧ after ops V (main_arg1 : DevRef τ sig) = V (main_arg1 : DevRef τ sig) := by
  have hA0 : after ops V (main_arg0 : DevRef τ sig) = V (main_arg0 : DevRef τ sig) :=
    inOrder.after_of_lt V (show (main_arg0 : Ref sig .tc).idx.val < 2 by decide)
  have hA1 : after ops V (main_arg1 : DevRef τ sig) = V (main_arg1 : DevRef τ sig) :=
    inOrder.after_of_lt V (show (main_arg1 : Ref sig .tc).idx.val < 2 by decide)
  have hS : (ops : List (HloOp τ sig (Elt Ideal))).Forall fun op => op.result (after ops V) = after ops V :=
    List.forall_iff_forall_mem.mpr (inOrder.settled V)
  have hr := Cert.Lookup.ids_toInt (F := Ideal) (V (main_arg0 : DevRef τ sig)) (V (main_arg1 : DevRef τ sig)) hpre
  have hv := settled_value (after ops V) hS
  refine ⟨hv.trans ((congrArg₂ (refFn (F := Ideal)) hA0 hA1).trans ?_), hA0, hA1⟩
  exact refFn_eq _ (fun j => (hr j).1) (fun j => (hr j).2) _

/-- The reference's run: under the precondition every weakly fair execution of @main terminates with the result buffer
    at the lookup of the two arguments and the arguments unchanged. -/
theorem run [Cert.Pre_input_domain.Facts]
    (m' : (ℓ : Loc Cert.ReferenceIdeal.nD Cert.ReferenceIdeal.τ Cert.ReferenceIdeal.sig) → Buf (Elt Ideal) ℓ)
    (g' : Dev Cert.ReferenceIdeal.nD → PrngReg) (hpre : Cert.Pre_ReferenceIdeal m') :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v10) = Cert.Lookup.rows (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run defs _ _).mono (fun r h c => by
      have hv := after_value (launchContents m' c) (hpre c)
      exact ⟨(h c main_v10).trans hv.1, (h c main_arg0).trans hv.2.1, (h c main_arg1).trans hv.2.2⟩)
    (run_main m' g')

end Cert.ReferenceIdeal.RefRun

end
-- ==== Proof.Claims.lean ====
/-
  The certificate's five claims. Both programs compute the lookup: under the precondition (every table entry finite,
  every row number in [0, 999999]) the kernel's run ends with its result array at `Cert.Lookup.rows` of its two arguments
  and the arguments unchanged, and so does the reference's. The frame claims drop the result; the algebraic claim takes
  the lookup of the kernel's arguments as the common value, the reference's arguments being equal to the kernel's.
-/
import proofs.«206694_g42322607734994_cont_8to1_b_990_36_alg».proof.Defs
import proofs.«206694_g42322607734994_cont_8to1_b_990_36_alg».proof.Proof.Gen.Kernel
import proofs.«206694_g42322607734994_cont_8to1_b_990_36_alg».proof.Proof.Gen.KernelIdeal
import proofs.«206694_g42322607734994_cont_8to1_b_990_36_alg».proof.Proof.Gen.ReferenceIdeal
import proofs.«206694_g42322607734994_cont_8to1_b_990_36_alg».proof.Proof.Gen.Pre_input_domain
import proofs.«206694_g42322607734994_cont_8to1_b_990_36_alg».proof.Proof.KI.Frame
import proofs.«206694_g42322607734994_cont_8to1_b_990_36_alg».proof.Proof.KB.Frame
import proofs.«206694_g42322607734994_cont_8to1_b_990_36_alg».proof.Proof.RefRun
import proofs.«206694_g42322607734994_cont_8to1_b_990_36_alg».proof.Proof.PreRange

noncomputable section

namespace Cert.Proof.Claims

open Idealize.ShloMosaic Idealize.SL.Sem

/-- The kernel as printed runs and keeps its arguments. -/
theorem frame_k : Cert.frame_Kernel (hKernel := Cert.Kernel.Gen.facts) (hPre_input_domain := Cert.Pre_input_domain.Gen.facts) :=
  fun m g hpre =>
    (θ_run Cert.Kernel.defs _ _).mono (fun _ h c => (h c).2)
      (Cert.Kernel.Run.run_main (F := Bits) m g fun d j => Cert.Lookup.ids_lt (F := Bits) _ _ (hpre d) j)

/-- The kernel read over the extended reals runs and keeps its arguments. -/
theorem frame_ki : Cert.frame_KernelIdeal (hKernelIdeal := Cert.KernelIdeal.Gen.facts) (hPre_input_domain := Cert.Pre_input_domain.Gen.facts) :=
  fun m g hpre =>
    (θ_run Cert.KernelIdeal.defs _ _).mono (fun _ h c => (h c).2)
      (Cert.KernelIdeal.Run.run_main (F := Ideal) m g fun d j => Cert.Lookup.ids_lt (F := Ideal) _ _ (hpre d) j)

/-- The reference runs and keeps its arguments. -/
theorem frame_ri : Cert.frame_ReferenceIdeal (hReferenceIdeal := Cert.ReferenceIdeal.Gen.facts) (hPre_input_domain := Cert.Pre_input_domain.Gen.facts) :=
  fun m g hpre =>
    (θ_run Cert.ReferenceIdeal.defs _ _).mono (fun _ h c => (h c).2) (Cert.ReferenceIdeal.RefRun.run m g hpre)

/-- The idealization rewrote nothing. -/
theorem preserves : Cert.preserves_Kernel_KernelIdeal := trivial

/-- From equal arguments both programs end with the lookup of those arguments in their result arrays. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  have hpre' : Cert.Pre_ReferenceIdeal (hPre_input_domain := Cert.Pre_input_domain.Gen.facts) m' := fun c => by
    rw [(hagree c).1, (hagree c).2]; exact hpre c
  refine ⟨fun c => Cert.Lookup.rows (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => h c)
      (Cert.KernelIdeal.Run.run_main (F := Ideal) m g fun d j => Cert.Lookup.ids_lt (F := Ideal) _ _ (hpre d) j)
  · refine (θ_run Cert.ReferenceIdeal.defs _ _).mono (fun _ h c => ⟨(h c).1.trans ?_, (h c).2⟩)
      (Cert.ReferenceIdeal.RefRun.run m' g' hpre')
    rw [(hagree c).1, (hagree c).2]

/-- Everything the certificate claims. -/
theorem claim_all : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof.Claims

end
-- ==== Proof.lean ====
/-
  The claim: an embedding lookup on the SparseCore equals its reference. For a table of 1000000 rows of 64 numbers and
  16384 × 50 row numbers, each in [0, 999999], both programs return entry (b, s, d) = table[ids[b, s], d].

  The kernel's program flattens the row numbers, transposes the table, and runs two kernels. The first, on the
  TensorCore, walks the transposed table in 1954 blocks of 512 columns and writes each block transposed back, twice
  side by side, into an array of 1000448 rows of 128 numbers: row r of it, for r below 1000000, is row r of the table in
  lanes 0..63 and again in lanes 64..127 (the last block overhangs the table; the rows it fills from beyond the table
  are never read). The second, on the thirty-two tiles of the two SparseCores, has tile (c, s) walk rows
  25600 (2 s + c) .. 25600 (2 s + c + 1) of the flat list in fifty chunks of 512: copy the chunk of row numbers in,
  gather those rows of the wide array, copy them out to the same rows of a [819200, 128] array. Last, the first 64
  lanes are kept and the rows are cut back to [16384, 50, 64]. Nothing is computed on the numbers: the proof is that
  every transfer runs to its end and an index calculation, the same for machine words and for extended reals.

  The reference masks row numbers outside [0, 1000000), looks the rows up and masks again; inside the precondition's
  range both masks are all ones and it is the same lookup.

  The five conjuncts: each program's frame is its run with the result forgotten; the idealized kernel is the kernel's
  own text (no rewrite to account for); and the two idealized programs end with one and the same function of the
  arguments (`Cert.Lookup.rows`).
-/
import proofs.«206694_g42322607734994_cont_8to1_b_990_36_alg».proof.Proof.Claims

namespace Cert.Proof

theorem claim : Cert.Claim := Cert.Proof.Claims.claim_all

end Cert.Proof
